-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S8192x1 : Shape := ⟨2, ![8192, 1]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S8192x1 : S_.BroadcastsInDim S8192x1 (![] : Fin 0 → Fin S8192x1.rank)
  reducesTo_S8192x1_S_d0_1 : S8192x1.ReducesTo [0, 1] S_

variable [Facts]

def fn {F : FTy → Type} [FloatOps F] (main_arg0 : FVec F S4096x4096 .f32) (main_arg1 : IVec S4096x4096 32) (main_arg2 : FVec F S4096x4096 .f32) (main_arg3 : FVec F S8192x1 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg2
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S8192x1 .f32 := Host.absf main_arg3
  let main_cst_2 : FVec F S_ .f32 := constant S_ .f32 0x7F800000#32
  let main_v10 : FVec F S8192x1 .f32 := broadcastInDim S8192x1 ![] bcast_S_S8192x1 main_cst_2
  let main_v11 : IVec S8192x1 1 := cmpf .olt main_v9 main_v10
  let main_c_3 : IVec S_ 1 := constantI S_ 1 1#1
  let main_v12 : IVec S_ 1 := (fun x v => Host.reduce IntOp.andi x v reducesTo_S8192x1_S_d0_1 h_S_) main_v11 main_c_3
  let main_v13 : IVec S_ 1 := andi main_v8 main_v12
  main_v13
-- ==== Kernel.lean ====
abbrev S4096x4096 : Shape := ⟨2, ![4096, 4096]⟩
abbrev S8192x1 : Shape := ⟨2, ![8192, 1]⟩
abbrev S1024x2048 : Shape := ⟨2, ![1024, 2048]⟩
abbrev S1024x1024 : Shape := ⟨2, ![1024, 1024]⟩
abbrev S4096x1 : Shape := ⟨2, ![4096, 1]⟩
abbrev S4096x2 : Shape := ⟨2, ![4096, 2]⟩
abbrev S1x4096 : Shape := ⟨2, ![1, 4096]⟩
abbrev S512x1 : Shape := ⟨2, ![512, 1]⟩
abbrev S1x256 : Shape := ⟨2, ![1, 256]⟩
abbrev S512x4096 : Shape := ⟨2, ![512, 4096]⟩
abbrev S4096x256 : Shape := ⟨2, ![4096, 256]⟩
abbrev S512x256 : Shape := ⟨2, ![512, 256]⟩
abbrev S256 : Shape := ⟨1, ![256]⟩

abbrev nBuf : Space → Nat
  | .hbm => 16
  | .vmem => 18
  | .smem => 0
  | _ => 0

abbrev bufTy : (tb : Table) → Fin (tcTables nBuf tb) → BufTy
  | .hbm, ⟨0, _⟩ => ⟨S4096x4096, .f32⟩
  | .hbm, ⟨1, _⟩ => ⟨S4096x4096, .i32⟩
  | .hbm, ⟨2, _⟩ => ⟨S4096x4096, .f32⟩
  | .hbm, ⟨3, _⟩ => ⟨S8192x1, .f32⟩
  | .hbm, ⟨4, _⟩ => ⟨S4096x4096, .bf16⟩
  | .hbm, ⟨5, _⟩ => ⟨S4096x4096, .bf16⟩
  | .hbm, ⟨6, _⟩ => ⟨S4096x4096, .bf16⟩
  | .hbm, ⟨7, _⟩ => ⟨S4096x1, .f32⟩
  | .hbm, ⟨8, _⟩ => ⟨S4096x1, .f32⟩
  | .hbm, ⟨9, _⟩ => ⟨S4096x2, .f32⟩
  | .hbm, ⟨10, _⟩ => ⟨S4096x2, .f32⟩
  | .hbm, ⟨11, _⟩ => ⟨S4096x2, .f32⟩
  | .hbm, ⟨12, _⟩ => ⟨S4096x1, .f32⟩
  | .hbm, ⟨13, _⟩ => ⟨S4096x1, .f32⟩
  | .hbm, ⟨14, _⟩ => ⟨S1x4096, .f32⟩
  | .hbm, ⟨15, _⟩ => ⟨S4096x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S512x1, .f32⟩
  | .local _ .vmem, ⟨8, _⟩ => ⟨S512x1, .f32⟩
  | .local _ .vmem, ⟨9, _⟩ => ⟨S1x256, .f32⟩
  | .local _ .vmem, ⟨10, _⟩ => ⟨S1x256, .f32⟩
  | .local _ .vmem, ⟨11, _⟩ => ⟨S512x4096, .bf16⟩
  | .local _ .vmem, ⟨12, _⟩ => ⟨S512x4096, .bf16⟩
  | .local _ .vmem, ⟨13, _⟩ => ⟨S4096x256, .f32⟩
  | .local _ .vmem, ⟨14, _⟩ => ⟨S4096x256, .f32⟩
  | .local _ .vmem, ⟨15, _⟩ => ⟨S1x256, .f32⟩
  | .local _ .vmem, ⟨16, _⟩ => ⟨S1x256, .f32⟩
  | .local _ .vmem, ⟨17, _⟩ => ⟨S4096x256, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc1_scratch1 : Ref sig .tc := ⟨.vmem, 16, rfl⟩
abbrev cc1_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨3, ![4, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨2, ![16, 8], ![false, false]⟩

def k1_cond2 (i : grid1.Coords) : BitVec 1 :=
  let arg1 : BitVec 32 := BitVec.ofNat 32 (i 1).val
  let c7_i32 : BitVec 32 := 7#32
  let v47 : BitVec 1 := Scalar.cmpi .eq arg1 c7_i32
  let v48 : BitVec 32 := Scalar.extui v47
  let c0_i32_24 : BitVec 32 := 0#32
  let v49 : BitVec 1 := Scalar.cmpi .ne v48 c0_i32_24
  v49

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S512x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S512x4096 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S4096x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  packedbf16_S1024x1024_S1024x1024_0_0 : (Rect.unit (s := S1024x1024) ![0, 0] S1024x1024.size inb_S1024x1024_S1024x1024_0_0).PackedRows (EltTy.packing .bf16)
  slices_S8192x1_S4096x1_0_0 : S8192x1.Slices ![0, 0] S4096x1
  slices_S8192x1_S4096x1_4096_0 : S8192x1.Slices ![4096, 0] S4096x1
  concatenates_S4096x1_S4096x1_S4096x2_d1 : Shape.Concatenates [S4096x1, S4096x1] S4096x2 1
  slices_S4096x2_S4096x1_0_0 : S4096x2.Slices ![0, 0] S4096x1
  slices_S4096x2_S4096x1_0_1 : S4096x2.Slices ![0, 1] S4096x1
  transposes_S4096x1_S1x4096_1_0 : S4096x1.Transposes [1, 0] S1x4096
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x256 : S512x1.Broadcasts S512x256
  broadcasts_S1x256_S512x256 : S1x256.Broadcasts S512x256
  reduces_S512x256_S256 : S512x256.Reduces [0] S256
  shapeCasts_S256_S1x256 : S256.ShapeCasts S1x256
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  broadcasts_S1x256_S4096x256 : S1x256.Broadcasts S4096x256
  dot_S1024x2048_S1024x2048_S1024x1024_1_1_0_0_n_n_wf : DotDims.WF S1024x2048 S1024x2048 S1024x1024 [1] [1] [0] [0] [] []
  dot_S4096x4096_S4096x2_S4096x2_0_0_1_1_n_n_wf : DotDims.WF S4096x4096 S4096x2 S4096x2 [0] [0] [1] [1] [] []
  dot_S4096x4096_S4096x2_S4096x2_1_0_0_1_n_n_wf : DotDims.WF S4096x4096 S4096x2 S4096x2 [1] [0] [0] [1] [] []
  dot_S512x4096_S512x256_S4096x256_0_0_1_1_n_n_wf : DotDims.WF S512x4096 S512x256 S4096x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S4096x4096.size a
  hwx0_0 : ∀ i : grid0.Coords, EltTy.bits .bf16 = 32 ∨ (Rect.block (s := S4096x4096) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S4096x4096.size a
  hwx0_1 : ∀ i : grid0.Coords, EltTy.bits .bf16 = 32 ∨ (Rect.block (s := S4096x4096) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .bf16 = 32 ∨ (Rect.block (s := S4096x4096) S1024x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1.size a ≤ S4096x1.size a
  hwx1_0 : ∀ i : grid1.Coords, EltTy.bits .f32 = 32 ∨ (Rect.block (s := S4096x1) S512x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x4096.size a
  hwx1_1 : ∀ i : grid1.Coords, EltTy.bits .f32 = 32 ∨ (Rect.block (s := S1x4096) S1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x4096.size a ≤ S4096x4096.size a
  hwx1_2 : ∀ i : grid1.Coords, EltTy.bits .bf16 = 32 ∨ (Rect.block (s := S4096x4096) S512x4096.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x256.size a ≤ S4096x4096.size a
  hwx1_3 : ∀ i : grid1.Coords, EltTy.bits .f32 = 32 ∨ (Rect.block (s := S4096x4096) S4096x256.size (cc1_transform_3 i) (hinb1_3 i)).WholeWords (EltTy.packing .f32)

variable [Facts₀]

def dot_S1024x2048_S1024x2048_S1024x1024_1_1_0_0_n_n : DotDims S1024x2048 S1024x2048 S1024x1024 where
  lhsContracting := [1]
  rhsContracting := [1]
  lhsNonContracting := [0]
  rhsNonContracting := [0]
  lhsBatch := []
  rhsBatch := []
  wf := dot_S1024x2048_S1024x2048_S1024x1024_1_1_0_0_n_n_wf
def dot_S4096x4096_S4096x2_S4096x2_0_0_1_1_n_n : DotDims S4096x4096 S4096x2 S4096x2 where
  lhsContracting := [0]
  rhsContracting := [0]
  lhsNonContracting := [1]
  rhsNonContracting := [1]
  lhsBatch := []
  rhsBatch := []
  wf := dot_S4096x4096_S4096x2_S4096x2_0_0_1_1_n_n_wf
def dot_S4096x4096_S4096x2_S4096x2_1_0_0_1_n_n : DotDims S4096x4096 S4096x2 S4096x2 where
  lhsContracting := [1]
  rhsContracting := [0]
  lhsNonContracting := [0]
  rhsNonContracting := [1]
  lhsBatch := []
  rhsBatch := []
  wf := dot_S4096x4096_S4096x2_S4096x2_1_0_0_1_n_n_wf
def dot_S512x4096_S512x256_S4096x256_0_0_1_1_n_n : DotDims S512x4096 S512x256 S4096x256 where
  lhsContracting := [0]
  rhsContracting := [0]
  lhsNonContracting := [1]
  rhsNonContracting := [1]
  lhsBatch := []
  rhsBatch := []
  wf := dot_S512x4096_S512x256_S4096x256_0_0_1_1_n_n_wf

abbrev win0_0 : Pipeline.Window sig grid0 :=
  Pipeline.Window.ofSpec (Memref.whole main_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v8) S512x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S1x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S512x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S4096x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S8192x1 : Shape := ⟨2, ![8192, 1]⟩
abbrev S4096x1 : Shape := ⟨2, ![4096, 1]⟩
abbrev S1x4096 : Shape := ⟨2, ![1, 4096]⟩
abbrev S_ : Shape := ⟨0, ![]⟩
abbrev S4096 : Shape := ⟨1, ![4096]⟩

abbrev nBuf : Space → Nat
  | .hbm => 53
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .i32⟩
  | .hbm, ⟨2, _⟩ => ⟨S4096x4096, .f32⟩
  | .hbm, ⟨3, _⟩ => ⟨S8192x1, .f32⟩
  | .hbm, ⟨4, _⟩ => ⟨S4096x4096, .f32⟩
  | .hbm, ⟨5, _⟩ => ⟨S4096x4096, .f32⟩
  | .hbm, ⟨6, _⟩ => ⟨S4096x1, .f32⟩
  | .hbm, ⟨7, _⟩ => ⟨S4096x1, .f32⟩
  | .hbm, ⟨8, _⟩ => ⟨S4096x1, .f32⟩
  | .hbm, ⟨9, _⟩ => ⟨S4096x1, .f32⟩
  | .hbm, ⟨10, _⟩ => ⟨S1x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S_, .f32⟩
  | .hbm, ⟨16, _⟩ => ⟨S4096x4096, .f32⟩
  | .hbm, ⟨17, _⟩ => ⟨S4096x4096, .i1⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096, .f32⟩
  | .hbm, ⟨24, _⟩ => ⟨S_, .f32⟩
  | .hbm, ⟨25, _⟩ => ⟨S4096, .f32⟩
  | .hbm, ⟨26, _⟩ => ⟨S4096, .f32⟩
  | .hbm, ⟨27, _⟩ => ⟨S4096x1, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S4096x4096, .f32⟩
  | .hbm, ⟨35, _⟩ => ⟨S4096x4096, .f32⟩
  | .hbm, ⟨36, _⟩ => ⟨S4096x4096, .f32⟩
  | .hbm, ⟨37, _⟩ => ⟨S4096x4096, .f32⟩
  | .hbm, ⟨38, _⟩ => ⟨S_, .f32⟩
  | .hbm, ⟨39, _⟩ => ⟨S4096x4096, .f32⟩
  | .hbm, ⟨40, _⟩ => ⟨S4096x4096, .i1⟩
  | .hbm, ⟨41, _⟩ => ⟨S_, .f32⟩
  | .hbm, ⟨42, _⟩ => ⟨S4096x4096, .f32⟩
  | .hbm, ⟨43, _⟩ => ⟨S4096x4096, .i1⟩
  | .hbm, ⟨44, _⟩ => ⟨S_, .f32⟩
  | .hbm, ⟨45, _⟩ => ⟨S_, .f32⟩
  | .hbm, ⟨46, _⟩ => ⟨S4096x4096, .f32⟩
  | .hbm, ⟨47, _⟩ => ⟨S4096x4096, .f32⟩
  | .hbm, ⟨48, _⟩ => ⟨S4096x4096, .f32⟩
  | .hbm, ⟨49, _⟩ => ⟨S_, .f32⟩
  | .hbm, ⟨50, _⟩ => ⟨S4096x4096, .f32⟩
  | .hbm, ⟨51, _⟩ => ⟨S4096x4096, .f32⟩
  | .hbm, ⟨52, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_call1_cst : Ref sig .tc := ⟨.hbm, 38, rfl⟩
abbrev main_call1_v0 : Ref sig .tc := ⟨.hbm, 39, rfl⟩
abbrev main_call1_v1 : Ref sig .tc := ⟨.hbm, 40, rfl⟩
abbrev main_call1_cst_0 : Ref sig .tc := ⟨.hbm, 41, rfl⟩
abbrev main_call1_v2 : Ref sig .tc := ⟨.hbm, 42, rfl⟩
abbrev main_call1_v3 : Ref sig .tc := ⟨.hbm, 43, rfl⟩
abbrev main_call1_cst_1 : Ref sig .tc := ⟨.hbm, 44, rfl⟩
abbrev main_call1_call0_v0 : Ref sig .tc := ⟨.hbm, 45, rfl⟩
abbrev main_call1_call0_v1 : Ref sig .tc := ⟨.hbm, 46, rfl⟩
abbrev main_call1_v4 : Ref sig .tc := ⟨.hbm, 47, rfl⟩
abbrev main_call1_v5 : Ref sig .tc := ⟨.hbm, 48, rfl⟩
abbrev main_call1_cst_2 : Ref sig .tc := ⟨.hbm, 49, rfl⟩
abbrev main_call1_v6 : Ref sig .tc := ⟨.hbm, 50, rfl⟩
abbrev main_call1_v7 : Ref sig .tc := ⟨.hbm, 51, rfl⟩
abbrev main_v24 : Ref sig .tc := ⟨.hbm, 52, rfl⟩

abbrev nD : Nat := 1
abbrev τ : Topo := Topo.v7x

variable {F : FTy → Type} [FloatOps F]

class Facts₀ : Prop where
  transposes_S4096x4096_S4096x4096_1_0 : S4096x4096.Transposes [1, 0] S4096x4096
  slices_S8192x1_S4096x1_0_0 : S8192x1.Slices ![0, 0] S4096x1
  slices_S8192x1_S4096x1_4096_0 : S8192x1.Slices ![4096, 0] S4096x1
  transposes_S4096x1_S1x4096_1_0 : S4096x1.Transposes [1, 0] S1x4096
  bcast_S1x4096_S4096x4096_0_1 : S1x4096.BroadcastsInDim S4096x4096 (![0, 1] : Fin 2 → Fin S4096x4096.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  dot_S4096x4096_S4096x4096_S4096x4096_1_0_0_1_n_n_wf : DotDims.WF S4096x4096 S4096x4096 S4096x4096 [1] [0] [0] [1] [] []
  dot_S4096x4096_S4096x1_S4096x1_1_0_0_1_n_n_wf : DotDims.WF S4096x4096 S4096x1 S4096x1 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf
def dot_S4096x4096_S4096x1_S4096x1_1_0_0_1_n_n : DotDims S4096x4096 S4096x1 S4096x1 where
  lhsContracting := [1]
  rhsContracting := [0]
  lhsNonContracting := [0]
  rhsNonContracting := [1]
  lhsBatch := []
  rhsBatch := []
  wf := dot_S4096x4096_S4096x1_S4096x1_1_0_0_1_n_n_wf

class Facts : Prop extends Facts₀ where

variable [Facts]
-- ==== Proof.HandKernel.R0Runs.lean ====
/-
  The matrix-product kernel (the first launch) on its 4 × 4 × 2 grid: what every run of its body is stated over.
  The third grid coordinate k walks the two halves of the contracted axis. At k = 0 the body clears its
  accumulator (a scratch buffer it keeps from one grid point to the next), at every point it adds the product
  of the two operand blocks to it, and at k = 1 it copies the accumulator, rounded, into the result block.
  Here: the two branch conditions in closed form over the grid, where the result window is idle, the staging
  and scratch memrefs, and a window's block read off the arrays as the launch finds them.
-/
import proofs.«152758_j53506702573897_2_alg».proof.Proof.Gen.Kernel.Launch
import proofs.«152758_j53506702573897_2_alg».proof.Proof.Gen.Kernel.Skeleton
import proofs.«152758_j53506702573897_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

/-- Window `w`'s block at grid point `t`, read off its array at the contents `V` the launch is entered with. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An operand window's staging buffer holds the window's block at every point, whether it was fetched there or kept. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
end

/-- "k = 0": the body clears the accumulator first. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 2 = 0 :=
  (by decide +kernel : ∀ t : Fin grid0.N, cond0_0 (grid0.coords t) ↔ t.val % 2 = 0)
/-- "k = 1": the body writes the result block last. -/
abbrev cond0_1 (i : grid0.Coords) : Prop := k0_cond2 i = 1#1
theorem hcond0_1 : ∀ t : Fin cfg0.N, cond0_1 (grid0.coords t) ↔ t.val % 2 = 1 :=
  (by decide +kernel : ∀ t : Fin grid0.N, cond0_1 (grid0.coords t) ↔ t.val % 2 = 1)

theorem liveAt0_0 : ∀ t : Fin cfg0.N, cfg0.idle 0 (grid0.coords t) = false := by decide +kernel
theorem liveAt0_1 : ∀ t : Fin cfg0.N, cfg0.idle 1 (grid0.coords t) = false := by decide +kernel
/-- At k = 0 nothing is stored into the result block and it is not written back. -/
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
theorem liveAt0_2_B : ∀ t : Fin cfg0.N, ¬cond0_0 (grid0.coords t) → cond0_1 (grid0.coords t) → cfg0.idle 2 (grid0.coords t) = false := by decide +kernel

/-- One staging buffer of the result window, through which its contents are stated. -/
abbrev VO0_2 : View sig .tc .vmem S1024x1024 .bf16 := (Memref.whole cc0_stg2_0 : Memref sig .tc .vmem S1024x1024 .bf16).view
abbrev ms0_0 (t : Fin cfg0.N) : Memref sig .tc .vmem S1024x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0_0 : Memref sig .tc .vmem S1024x1024 .f32 := Memref.whole cc0_scratch0
abbrev VS0_0 : View sig .tc .vmem S1024x1024 .f32 := scM0_0.view

/-- A scoped buffer held whole at some contents. -/
abbrev anyAt (c : Dev nD) (b : Ref sig .tc) : sProp 𝕄 :=
  iprop(∃ f : Buf (Elt F) ((c : Thread nD τ).loc b), ((c : Thread nD τ).loc b) ↦{fullShare} f)

/-- The scoped buffers of the other launch, which this one never touches, each at some contents. -/
abbrev others0 (c : Dev nD) : sProp 𝕄 :=
  iprop(anyAt c cc1_stg0_0 ∗ anyAt c cc1_stg0_1 ∗ anyAt c cc1_stg1_0 ∗ anyAt c cc1_stg1_1 ∗ anyAt c cc1_stg2_0 ∗ anyAt c cc1_stg2_1
    ∗ anyAt c cc1_stg3_0 ∗ anyAt c cc1_stg3_1 ∗ anyAt c cc1_scratch0 ∗ anyAt c cc1_scratch1 ∗ anyAt c cc1_scratch2)

/-- The launch's own invariant with the accumulator as a memref owned at some contents, beside the other launch's
    scoped buffers and the generator register. -/
theorem PhiA0_eq (c : Dev nD) :
    (Pipeline.ΦA spec0 c : sProp 𝕄)
      = iprop(iprop((∃ d, owns (c : Thread nD τ) scM0_0 fullShare d) ∗ others0 c) ∗ (∃ r, prngReg c r)) := by
  unfold Pipeline.ΦA; rw [scopedRest0_eq]; simp only [scM0_0, owns_whole]; try rfl

end Cert.Kernel.Hand

end
-- ==== Proof.HandKernel.R0RunA.lean ====
/-
  The matrix-product kernel's body at a grid point with k = 0, run symbolically on whole staging memrefs: the two
  operand blocks are read and handed back as they were, the result block's buffer is not stored into (it is handed
  back untouched), and the accumulator, found at anything, ends holding the stores the body made into it — first
  zeros, then the zeros plus the product of the two blocks. The list of those stores is the witness the run finds.
-/
import proofs.«152758_j53506702573897_2_alg».proof.Proof.HandKernel.R0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
noncomputable def kernelRun0_A (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i)
    (x0 : Vec F S1024x2048 .bf16) (x1 : Vec F S1024x2048 .bf16) :
    Σ' (L2 : List (View.Piece (Elt F) S1024x1024 .bf16)), { LS0 : List (View.Piece (Elt F) S1024x1024 .f32) //
      ∀ (xi2 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_transb_kernel i arg3 harg3 arg4 harg4 arg5 harg5 arg6 harg6) K } := by
  refine ⟨[], ?_, fun xi2 E K => ?run⟩
  case run =>
    simp only [cc0__matmul_transb_kernel_eq_skeleton]; unfold cc0__matmul_transb_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Hand

end
-- ==== Proof.HandKernel.R0RunB.lean ====
/-
  The matrix-product kernel's body at a grid point with k = 1, run symbolically on whole staging memrefs: the two
  operand blocks are read and handed back as they were, the accumulator is found at what the point before left in it
  and ends with the product of the two blocks added, and the result block's buffer, found at anything, ends holding
  the one store the body made into it — the accumulator's final contents rounded. The lists of stores are the
  witness the run finds.
-/
import proofs.«152758_j53506702573897_2_alg».proof.Proof.HandKernel.R0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
noncomputable def kernelRun0_B (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 : Vec F S1024x2048 .bf16) (x1 : Vec F S1024x2048 .bf16) (xs0 : Vec F S1024x1024 .f32) :
    Σ' (L2 : List (View.Piece (Elt F) S1024x1024 .bf16)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_transb_kernel i arg3 harg3 arg4 harg4 arg5 harg5 arg6 harg6) K } := by
  refine ⟨?_, ?_, fun E K => ?run⟩
  case run =>
    simp only [cc0__matmul_transb_kernel_eq_skeleton]; unfold cc0__matmul_transb_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Hand

end
-- ==== Proof.HandKernel.R0Frame.lean ====
/-
  The matrix-product kernel over its whole grid. What the accumulator and the result block's buffer hold after the
  body at each grid point, by recursion on the point: at k = 0 what the body leaves from nothing, at k = 1 what it
  leaves over the accumulator of the point before. The launch's invariant names the accumulator's contents from one
  point to the next; with it the body's triple at every point follows from the two symbolic runs.
-/
import proofs.«152758_j53506702573897_2_alg».proof.Proof.HandKernel.R0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## What each case leaves -/

/-- At k = 0 nothing is stored into the result block: a placeholder nothing reads. -/
def out0_A_2 (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i)
    (x0 : Vec F S1024x2048 .bf16) (x1 : Vec F S1024x2048 .bf16) : Vec F S1024x1024 .bf16 :=
  VO0_2.read (Elt F) (VO0_2.writes (Elt F) VO0_2.junk (kernelRun0_A c i arg3 harg3 arg4 harg4 arg5 harg5 arg6 harg6 hc0 hc1 x0 x1).1)
/-- The stores at k = 0 cover the accumulator. -/
theorem scover0_A_0 (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i)
    (x0 : Vec F S1024x2048 .bf16) (x1 : Vec F S1024x2048 .bf16) (y : S1024x1024.Idx) :
    ∃ pc ∈ (kernelRun0_A c i arg3 harg3 arg4 harg4 arg5 harg5 arg6 harg6 hc0 hc1 x0 x1).2.1, y ∈ pc.1.set :=
  View.cover_of_tiledL (kernelRun0_A c i arg3 harg3 arg4 harg4 arg5 harg5 arg6 harg6 hc0 hc1 x0 x1).2.1 S1024x1024.size (by sl_kernel_rfl) y
/-- What the body leaves in the accumulator at k = 0. -/
def sout0_A_0 (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i)
    (x0 : Vec F S1024x2048 .bf16) (x1 : Vec F S1024x2048 .bf16) : Vec F S1024x1024 .f32 :=
  VS0_0.read (Elt F) (VS0_0.writes (Elt F) VS0_0.junk (kernelRun0_A c i arg3 harg3 arg4 harg4 arg5 harg5 arg6 harg6 hc0 hc1 x0 x1).2.1)

/-- The one store at k = 1 covers the result block. -/
theorem cover0_B_2 (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 : Vec F S1024x2048 .bf16) (x1 : Vec F S1024x2048 .bf16) (xs0 : Vec F S1024x1024 .f32) (y : S1024x1024.Idx) :
    ∃ pc ∈ (kernelRun0_B c i arg3 harg3 arg4 harg4 arg5 harg5 arg6 harg6 hc0 hc1 x0 x1 xs0).1, y ∈ pc.1.set :=
  View.cover_of_tiledL (kernelRun0_B c i arg3 harg3 arg4 harg4 arg5 harg5 arg6 harg6 hc0 hc1 x0 x1 xs0).1 S1024x1024.size (by sl_kernel_rfl) y
/-- What the body leaves in the result block's buffer at k = 1. -/
def out0_B_2 (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 : Vec F S1024x2048 .bf16) (x1 : Vec F S1024x2048 .bf16) (xs0 : Vec F S1024x1024 .f32) : Vec F S1024x1024 .bf16 :=
  VO0_2.read (Elt F) (VO0_2.writes (Elt F) VO0_2.junk (kernelRun0_B c i arg3 harg3 arg4 harg4 arg5 harg5 arg6 harg6 hc0 hc1 x0 x1 xs0).1)
/-- The store at k = 1 covers the accumulator. -/
theorem scover0_B_0 (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 : Vec F S1024x2048 .bf16) (x1 : Vec F S1024x2048 .bf16) (xs0 : Vec F S1024x1024 .f32) (y : S1024x1024.Idx) :
    ∃ pc ∈ (kernelRun0_B c i arg3 harg3 arg4 harg4 arg5 harg5 arg6 harg6 hc0 hc1 x0 x1 xs0).2.1, y ∈ pc.1.set :=
  View.cover_of_tiledL (kernelRun0_B c i arg3 harg3 arg4 harg4 arg5 harg5 arg6 harg6 hc0 hc1 x0 x1 xs0).2.1 S1024x1024.size (by sl_kernel_rfl) y
/-- What the body leaves in the accumulator at k = 1. -/
def sout0_B_0 (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 : Vec F S1024x2048 .bf16) (x1 : Vec F S1024x2048 .bf16) (xs0 : Vec F S1024x1024 .f32) : Vec F S1024x1024 .f32 :=
  VS0_0.read (Elt F) (VS0_0.writes (Elt F) VS0_0.junk (kernelRun0_B c i arg3 harg3 arg4 harg4 arg5 harg5 arg6 harg6 hc0 hc1 x0 x1 xs0).2.1)

section
variable (V : (c : Dev nD) → (b : Ref sig .tc) → Buf (Elt F) ((c : Thread nD τ).loc b))

/-! ## Point by point -/

/-- What the result block's buffer and the accumulator hold after the body at position `n` of the grid's walk. -/
def outsAt0 (c : Dev nD) : (n : ℕ) → n < cfg0.N → Vec F S1024x1024 .bf16 × Vec F S1024x1024 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 2 = 0 then
      if h1 : (n + 1) % 2 = 1 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩),
          sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 2 = 1 then
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2,
          sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        False.elim (by omega)

theorem outsAt0_A (c : Dev nD) (t : Fin cfg0.N) (h0 : t.val % 2 = 0) (h1 : ¬t.val % 2 = 1) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t),
      sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 2 = 0) (h1 : t.val % 2 = 1) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2,
      sout0_B_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The launch's invariant before position `n`: before the first point every scoped buffer at anything; afterwards
    the accumulator at what the point before left in it. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ others0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2) ∗ others0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ others0 c) ∗ (∃ r, prngReg c r)) := by
  cases n with
  | zero => exact absurd rfl hz
  | succ n => rfl

/-! ## The proof data -/

/-- The launch's proof data on core `c`: the arrays as the launch finds them; after the body at a point each operand's
    buffer at its block and the result's at `outsAt0`; the invariant `PhiS0`; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body's triple at every point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 2 = 0
  · have h1 : ¬t.val % 2 = 1 := by omega
    rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
    rw [outsAt0_A V c t h0 h1]
    unfold sout0_A_0; (try dsimp only)
    by_cases hz : t.val = 0
    · rw [PhiS0_castSucc V c t, PhiS0_zero V c _ _ hz, PhiA0_eq]
      iintro ⟨⟨⟨HS0, HR⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _)
          iexact HR
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS0, HR⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _)
          iexact HR
        iexact Hg
      isplitl [Ho]; · iexact Ho
      isplitl [H0]; · iexact H0
      isplitl [H1]; · iexact H1
      iexists _; iexact H2
  · have h1 : t.val % 2 = 1 := by omega
    rw [show (dat0 V c).leavesExact 2 t = owns (c : Thread nD τ) (ms0_2 t) fullShare ((dat0 V c).after 2 t) from by
      unfold Dat.leavesExact; rw [liveAt0_2_B t (fun h => h0 ((hcond0_0 t).mp h)) ((hcond0_1 t).mpr h1)], after0_2]
    rw [outsAt0_B V c t h0 h1]
    unfold out0_B_2 sout0_B_0; (try dsimp only)
    have hz : t.val ≠ 0 := by omega
    rw [PhiS0_castSucc V c t, PhiS0_pos V c _ _ hz]
    iintro ⟨⟨⟨HS0, HR⟩, Hg⟩, Ho, ⟨%d0, H0⟩, ⟨%d1, H1⟩, ⟨%d2, H2⟩⟩
    iapply ((kernelRun0_B c (grid0.coords t) _ _ _ _ _ _ _ _ (fun h => h0 ((hcond0_0 t).mp h)) ((hcond0_1 t).mpr h1) (iblk0 V c 0 t) (iblk0 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_B_0 c _ _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

/-- After any point the invariant gives the launch's own back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

theorem Phi_last0 (c : Dev nD) : (dat0 V c).Φ (Fin.last cfg0.N) ⊢ Pipeline.ΦA spec0 c :=
  Phi_out0 V c _ (by rw [Fin.val_last]; have : cfg0.N = 32 := N_0; omega)

end

end Cert.Kernel.Hand

end
-- ==== Proof.HandKernel.R1Runs.lean ====
/-
  The attention kernel (the second launch) on its 16 × 8 grid: what every run of its body is stated over.
  The second grid coordinate j walks the eight blocks of 512 keys. The body keeps three scratch buffers from one
  grid point to the next — the running column maximum, the running denominator and the running weighted sum. At
  j = 0 it resets them (-inf, 0, 0); at every point it folds the block of keys into them, rescaling what the points
  before accumulated; at j = 7 it divides the weighted sum by the denominator, applies the exponential-linear unit
  and stores the result block. Here: the two branch conditions in closed form over the grid, where the result
  window is idle, the staging and scratch memrefs, and a window's block read off the arrays as the launch finds them.
-/
import proofs.«152758_j53506702573897_2_alg».proof.Proof.HandKernel.R0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

/-- Window `w`'s block at grid point `t`, read off its array at the contents `V` the launch is entered with. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An operand window's staging buffer holds the window's block at every point, whether it was fetched there or kept
    (the query row's block index does not move along j, so it is fetched once per row of the grid). -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
end

/-- "j = 0": the body resets its three running buffers first. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- "j = 7": the body normalises and writes the result block last. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Before the last block of keys nothing is stored into the result block and it is not written back. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
theorem liveAt1_3_C : ∀ t : Fin cfg1.N, ¬cond1_0 (grid1.coords t) → cond1_1 (grid1.coords t) → cfg1.idle 3 (grid1.coords t) = false := by decide +kernel

/-- One staging buffer of the result window, through which its contents are stated. -/
abbrev VO1_3 : View sig .tc .vmem S4096x256 .f32 := (Memref.whole cc1_stg3_0 : Memref sig .tc .vmem S4096x256 .f32).view
abbrev ms1_0 (t : Fin cfg1.N) : Memref sig .tc .vmem S512x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x4096 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4096x256 .f32 := win1_3.stage (cfg1.slots t 3)
abbrev hs1_3 (t : Fin cfg1.N) : (ms1_3 t).IsWhole := hstage1_3 ((cfg1.slots t 3).cast nbuf1_3)
/-- The running maximum, the running denominator and the running weighted sum: whole scoped buffers of the kernel's own. -/
abbrev scM1_0 : Memref sig .tc .vmem S1x256 .f32 := Memref.whole cc1_scratch0
abbrev scM1_1 : Memref sig .tc .vmem S1x256 .f32 := Memref.whole cc1_scratch1
abbrev scM1_2 : Memref sig .tc .vmem S4096x256 .f32 := Memref.whole cc1_scratch2
abbrev VS1_0 : View sig .tc .vmem S1x256 .f32 := scM1_0.view
abbrev VS1_1 : View sig .tc .vmem S1x256 .f32 := scM1_1.view
abbrev VS1_2 : View sig .tc .vmem S4096x256 .f32 := scM1_2.view

/-- The launch's own invariant with the three running buffers as memrefs owned at some contents, beside the other
    launch's scoped buffers and the generator register. -/
theorem PhiA1_eq (c : Dev nD) :
    (Pipeline.ΦA spec1 c : sProp 𝕄)
      = iprop(iprop(anyAt c cc0_stg0_0 ∗ anyAt c cc0_stg0_1 ∗ anyAt c cc0_stg1_0 ∗ anyAt c cc0_stg1_1 ∗ anyAt c cc0_stg2_0 ∗ anyAt c cc0_stg2_1 ∗ anyAt c cc0_scratch0
          ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.Kernel.Hand

end
-- ==== Proof.HandKernel.R1RunA.lean ====
/-
  The attention kernel's body at a grid point with j = 0, run symbolically on whole staging memrefs: the three operand
  blocks are read and handed back as they were, the result block's buffer is not stored into, and the three running
  buffers, found at anything, end holding the stores the body made into them — first the reset values, then the fold
  of the first block of keys. The lists of those stores are the witness the run finds.
-/
import proofs.«152758_j53506702573897_2_alg».proof.Proof.HandKernel.R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 2000000 in
noncomputable def kernelRun1_A (c : Dev nD) (i : grid1.Coords) (arg2 : Memref sig .tc .vmem S512x1 .f32) (harg2 : arg2.IsWhole) (arg3 : Memref sig .tc .vmem S1x256 .f32) (harg3 : arg3.IsWhole) (arg4 : Memref sig .tc .vmem S512x4096 .bf16) (harg4 : arg4.IsWhole) (arg5 : Memref sig .tc .vmem S4096x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S4096x256 .f32) (harg8 : arg8.IsWhole) (hc0 : cond1_0 i) (hc1 : ¬cond1_1 i)
    (x0 : Vec F S512x1 .f32) (x1 : Vec F S1x256 .f32) (x2 : Vec F S512x4096 .bf16) :
    Σ' (L3 : List (View.Piece (Elt F) S4096x256 .f32)) (LS0 : List (View.Piece (Elt F) S1x256 .f32)) (LS1 : List (View.Piece (Elt F) S1x256 .f32)), { LS2 : List (View.Piece (Elt F) S4096x256 .f32) //
      ∀ (xi3 : Vec F S4096x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨[], ?_, ?_, ?_, fun xi3 E K => ?run⟩
  case run =>
    simp only [cc1__flash_kernel_eq_skeleton]; unfold cc1__flash_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Hand

end
-- ==== Proof.HandKernel.R1RunB.lean ====
/-
  The attention kernel's body at a grid point with 0 < j < 7, run symbolically on whole staging memrefs: the three
  operand blocks are read and handed back as they were, the result block's buffer is not stored into, and the three
  running buffers, found at what the point before left in them, end with this block of keys folded in. The lists of
  stores are the witness the run finds.
-/
import proofs.«152758_j53506702573897_2_alg».proof.Proof.HandKernel.R1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 2000000 in
noncomputable def kernelRun1_B (c : Dev nD) (i : grid1.Coords) (arg2 : Memref sig .tc .vmem S512x1 .f32) (harg2 : arg2.IsWhole) (arg3 : Memref sig .tc .vmem S1x256 .f32) (harg3 : arg3.IsWhole) (arg4 : Memref sig .tc .vmem S512x4096 .bf16) (harg4 : arg4.IsWhole) (arg5 : Memref sig .tc .vmem S4096x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S4096x256 .f32) (harg8 : arg8.IsWhole) (hc0 : ¬cond1_0 i) (hc1 : ¬cond1_1 i)
    (x0 : Vec F S512x1 .f32) (x1 : Vec F S1x256 .f32) (x2 : Vec F S512x4096 .bf16) (xs0 : Vec F S1x256 .f32) (xs1 : Vec F S1x256 .f32) (xs2 : Vec F S4096x256 .f32) :
    Σ' (L3 : List (View.Piece (Elt F) S4096x256 .f32)) (LS0 : List (View.Piece (Elt F) S1x256 .f32)) (LS1 : List (View.Piece (Elt F) S1x256 .f32)), { LS2 : List (View.Piece (Elt F) S4096x256 .f32) //
      ∀ (xi3 : Vec F S4096x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨[], ?_, ?_, ?_, fun xi3 E K => ?run⟩
  case run =>
    simp only [cc1__flash_kernel_eq_skeleton]; unfold cc1__flash_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Hand

end
-- ==== Proof.HandKernel.R1RunC.lean ====
/-
  The attention kernel's body at a grid point with j = 7, run symbolically on whole staging memrefs: the three operand
  blocks are read and handed back as they were, the three running buffers, found at what the point before left in
  them, end with the last block of keys folded in, and the result block's buffer, found at anything, ends holding the
  one store the body made into it — the weighted sum over the denominator under the exponential-linear unit. The
  lists of stores are the witness the run finds.
-/
import proofs.«152758_j53506702573897_2_alg».proof.Proof.HandKernel.R1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 2000000 in
noncomputable def kernelRun1_C (c : Dev nD) (i : grid1.Coords) (arg2 : Memref sig .tc .vmem S512x1 .f32) (harg2 : arg2.IsWhole) (arg3 : Memref sig .tc .vmem S1x256 .f32) (harg3 : arg3.IsWhole) (arg4 : Memref sig .tc .vmem S512x4096 .bf16) (harg4 : arg4.IsWhole) (arg5 : Memref sig .tc .vmem S4096x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S4096x256 .f32) (harg8 : arg8.IsWhole) (hc0 : ¬cond1_0 i) (hc1 : cond1_1 i)
    (x0 : Vec F S512x1 .f32) (x1 : Vec F S1x256 .f32) (x2 : Vec F S512x4096 .bf16) (xs0 : Vec F S1x256 .f32) (xs1 : Vec F S1x256 .f32) (xs2 : Vec F S4096x256 .f32) :
    Σ' (L3 : List (View.Piece (Elt F) S4096x256 .f32)) (LS0 : List (View.Piece (Elt F) S1x256 .f32)) (LS1 : List (View.Piece (Elt F) S1x256 .f32)), { LS2 : List (View.Piece (Elt F) S4096x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨?_, ?_, ?_, ?_, fun E K => ?run⟩
  case run =>
    simp only [cc1__flash_kernel_eq_skeleton]; unfold cc1__flash_kernel_skel
    simp only [k1_part1_eq_skeleton]; unfold k1_part1_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.Kernel.Hand

end
-- ==== Proof.HandKernel.R1Frame.lean ====
/-
  The attention kernel over its whole grid. What the three running buffers and the result block's buffer hold after the
  body at each grid point, by recursion on the point: at j = 0 what the body leaves from nothing, afterwards what it
  leaves over the running buffers of the point before. The launch's invariant names the running buffers' contents
  from one point to the next; with it the body's triple at every point follows from the three symbolic runs.
-/
import proofs.«152758_j53506702573897_2_alg».proof.Proof.HandKernel.R1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## What each case leaves -/

/-- What case A leaves in the result block's buffer (nothing is stored: a placeholder nothing reads). -/
def out1_A_3 (c : Dev nD) (i : grid1.Coords) (arg2 : Memref sig .tc .vmem S512x1 .f32) (harg2 : arg2.IsWhole) (arg3 : Memref sig .tc .vmem S1x256 .f32) (harg3 : arg3.IsWhole) (arg4 : Memref sig .tc .vmem S512x4096 .bf16) (harg4 : arg4.IsWhole) (arg5 : Memref sig .tc .vmem S4096x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S4096x256 .f32) (harg8 : arg8.IsWhole) (hc0 : cond1_0 i) (hc1 : ¬cond1_1 i)
    (x0 : Vec F S512x1 .f32) (x1 : Vec F S1x256 .f32) (x2 : Vec F S512x4096 .bf16) : Vec F S4096x256 .f32 :=
  VO1_3.read (Elt F) (VO1_3.writes (Elt F) VO1_3.junk (kernelRun1_A c i arg2 harg2 arg3 harg3 arg4 harg4 arg5 harg5 arg6 harg6 arg7 harg7 arg8 harg8 hc0 hc1 x0 x1 x2).1)
/-- Case A's stores cover running buffer 0. -/
theorem scover1_A_0 (c : Dev nD) (i : grid1.Coords) (arg2 : Memref sig .tc .vmem S512x1 .f32) (harg2 : arg2.IsWhole) (arg3 : Memref sig .tc .vmem S1x256 .f32) (harg3 : arg3.IsWhole) (arg4 : Memref sig .tc .vmem S512x4096 .bf16) (harg4 : arg4.IsWhole) (arg5 : Memref sig .tc .vmem S4096x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S4096x256 .f32) (harg8 : arg8.IsWhole) (hc0 : cond1_0 i) (hc1 : ¬cond1_1 i)
    (x0 : Vec F S512x1 .f32) (x1 : Vec F S1x256 .f32) (x2 : Vec F S512x4096 .bf16) (y : S1x256.Idx) :
    ∃ pc ∈ (kernelRun1_A c i arg2 harg2 arg3 harg3 arg4 harg4 arg5 harg5 arg6 harg6 arg7 harg7 arg8 harg8 hc0 hc1 x0 x1 x2).2.1, y ∈ pc.1.set :=
  View.cover_of_tiledL (kernelRun1_A c i arg2 harg2 arg3 harg3 arg4 harg4 arg5 harg5 arg6 harg6 arg7 harg7 arg8 harg8 hc0 hc1 x0 x1 x2).2.1 S1x256.size (by sl_kernel_rfl) y
/-- What case A leaves in running buffer 0. -/
def sout1_A_0 (c : Dev nD) (i : grid1.Coords) (arg2 : Memref sig .tc .vmem S512x1 .f32) (harg2 : arg2.IsWhole) (arg3 : Memref sig .tc .vmem S1x256 .f32) (harg3 : arg3.IsWhole) (arg4 : Memref sig .tc .vmem S512x4096 .bf16) (harg4 : arg4.IsWhole) (arg5 : Memref sig .tc .vmem S4096x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S4096x256 .f32) (harg8 : arg8.IsWhole) (hc0 : cond1_0 i) (hc1 : ¬cond1_1 i)
    (x0 : Vec F S512x1 .f32) (x1 : Vec F S1x256 .f32) (x2 : Vec F S512x4096 .bf16) : Vec F S1x256 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2).2.1)
/-- Case A's stores cover running buffer 1. -/
theorem scover1_A_1 (c : Dev nD) (i : grid1.Coords) (arg2 : Memref sig .tc .vmem S512x1 .f32) (harg2 : arg2.IsWhole) (arg3 : Memref sig .tc .vmem S1x256 .f32) (harg3 : arg3.IsWhole) (arg4 : Memref sig .tc .vmem S512x4096 .bf16) (harg4 : arg4.IsWhole) (arg5 : Memref sig .tc .vmem S4096x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S4096x256 .f32) (harg8 : arg8.IsWhole) (hc0 : cond1_0 i) (hc1 : ¬cond1_1 i)
    (x0 : Vec F S512x1 .f32) (x1 : Vec F S1x256 .f32) (x2 : Vec F S512x4096 .bf16) (y : S1x256.Idx) :
    ∃ pc ∈ (kernelRun1_A c i arg2 harg2 arg3 harg3 arg4 harg4 arg5 harg5 arg6 harg6 arg7 harg7 arg8 harg8 hc0 hc1 x0 x1 x2).2.2.1, y ∈ pc.1.set :=
  View.cover_of_tiledL (kernelRun1_A c i arg2 harg2 arg3 harg3 arg4 harg4 arg5 harg5 arg6 harg6 arg7 harg7 arg8 harg8 hc0 hc1 x0 x1 x2).2.2.1 S1x256.size (by sl_kernel_rfl) y
/-- What case A leaves in running buffer 1. -/
def sout1_A_1 (c : Dev nD) (i : grid1.Coords) (arg2 : Memref sig .tc .vmem S512x1 .f32) (harg2 : arg2.IsWhole) (arg3 : Memref sig .tc .vmem S1x256 .f32) (harg3 : arg3.IsWhole) (arg4 : Memref sig .tc .vmem S512x4096 .bf16) (harg4 : arg4.IsWhole) (arg5 : Memref sig .tc .vmem S4096x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S4096x256 .f32) (harg8 : arg8.IsWhole) (hc0 : cond1_0 i) (hc1 : ¬cond1_1 i)
    (x0 : Vec F S512x1 .f32) (x1 : Vec F S1x256 .f32) (x2 : Vec F S512x4096 .bf16) : Vec F S1x256 .f32 :=
  VS1_1.read (Elt F) (VS1_1.writes (Elt F) VS1_1.junk (kernelRun1_A c i arg2 harg2 arg3 harg3 arg4 harg4 arg5 harg5 arg6 harg6 arg7 harg7 arg8 harg8 hc0 hc1 x0 x1 x2).2.2.1)
/-- Case A's stores cover running buffer 2. -/
theorem scover1_A_2 (c : Dev nD) (i : grid1.Coords) (arg2 : Memref sig .tc .vmem S512x1 .f32) (harg2 : arg2.IsWhole) (arg3 : Memref sig .tc .vmem S1x256 .f32) (harg3 : arg3.IsWhole) (arg4 : Memref sig .tc .vmem S512x4096 .bf16) (harg4 : arg4.IsWhole) (arg5 : Memref sig .tc .vmem S4096x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S4096x256 .f32) (harg8 : arg8.IsWhole) (hc0 : cond1_0 i) (hc1 : ¬cond1_1 i)
    (x0 : Vec F S512x1 .f32) (x1 : Vec F S1x256 .f32) (x2 : Vec F S512x4096 .bf16) (y : S4096x256.Idx) :
    ∃ pc ∈ (kernelRun1_A c i arg2 harg2 arg3 harg3 arg4 harg4 arg5 harg5 arg6 harg6 arg7 harg7 arg8 harg8 hc0 hc1 x0 x1 x2).2.2.2.1, y ∈ pc.1.set :=
  View.cover_of_tiledL (kernelRun1_A c i arg2 harg2 arg3 harg3 arg4 harg4 arg5 harg5 arg6 harg6 arg7 harg7 arg8 harg8 hc0 hc1 x0 x1 x2).2.2.2.1 S4096x256.size (by sl_kernel_rfl) y
/-- What case A leaves in running buffer 2. -/
def sout1_A_2 (c : Dev nD) (i : grid1.Coords) (arg2 : Memref sig .tc .vmem S512x1 .f32) (harg2 : arg2.IsWhole) (arg3 : Memref sig .tc .vmem S1x256 .f32) (harg3 : arg3.IsWhole) (arg4 : Memref sig .tc .vmem S512x4096 .bf16) (harg4 : arg4.IsWhole) (arg5 : Memref sig .tc .vmem S4096x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S4096x256 .f32) (harg8 : arg8.IsWhole) (hc0 : cond1_0 i) (hc1 : ¬cond1_1 i)
    (x0 : Vec F S512x1 .f32) (x1 : Vec F S1x256 .f32) (x2 : Vec F S512x4096 .bf16) : Vec F S4096x256 .f32 :=
  VS1_2.read (Elt F) (VS1_2.writes (Elt F) VS1_2.junk (kernelRun1_A c i arg2 harg2 arg3 harg3 arg4 harg4 arg5 harg5 arg6 harg6 arg7 harg7 arg8 harg8 hc0 hc1 x0 x1 x2).2.2.2.1)

/-- What case B leaves in the result block's buffer (nothing is stored: a placeholder nothing reads). -/
def out1_B_3 (c : Dev nD) (i : grid1.Coords) (arg2 : Memref sig .tc .vmem S512x1 .f32) (harg2 : arg2.IsWhole) (arg3 : Memref sig .tc .vmem S1x256 .f32) (harg3 : arg3.IsWhole) (arg4 : Memref sig .tc .vmem S512x4096 .bf16) (harg4 : arg4.IsWhole) (arg5 : Memref sig .tc .vmem S4096x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S4096x256 .f32) (harg8 : arg8.IsWhole) (hc0 : ¬cond1_0 i) (hc1 : ¬cond1_1 i)
    (x0 : Vec F S512x1 .f32) (x1 : Vec F S1x256 .f32) (x2 : Vec F S512x4096 .bf16) (xs0 : Vec F S1x256 .f32) (xs1 : Vec F S1x256 .f32) (xs2 : Vec F S4096x256 .f32) : Vec F S4096x256 .f32 :=
  VO1_3.read (Elt F) (VO1_3.writes (Elt F) VO1_3.junk (kernelRun1_B c i arg2 harg2 arg3 harg3 arg4 harg4 arg5 harg5 arg6 harg6 arg7 harg7 arg8 harg8 hc0 hc1 x0 x1 x2 xs0 xs1 xs2).1)
/-- Case B's stores cover running buffer 0. -/
theorem scover1_B_0 (c : Dev nD) (i : grid1.Coords) (arg2 : Memref sig .tc .vmem S512x1 .f32) (harg2 : arg2.IsWhole) (arg3 : Memref sig .tc .vmem S1x256 .f32) (harg3 : arg3.IsWhole) (arg4 : Memref sig .tc .vmem S512x4096 .bf16) (harg4 : arg4.IsWhole) (arg5 : Memref sig .tc .vmem S4096x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S4096x256 .f32) (harg8 : arg8.IsWhole) (hc0 : ¬cond1_0 i) (hc1 : ¬cond1_1 i)
    (x0 : Vec F S512x1 .f32) (x1 : Vec F S1x256 .f32) (x2 : Vec F S512x4096 .bf16) (xs0 : Vec F S1x256 .f32) (xs1 : Vec F S1x256 .f32) (xs2 : Vec F S4096x256 .f32) (y : S1x256.Idx) :
    ∃ pc ∈ (kernelRun1_B c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.1 S1x256.size (by sl_kernel_rfl) y
/-- What case B leaves in running buffer 0. -/
def sout1_B_0 (c : Dev nD) (i : grid1.Coords) (arg2 : Memref sig .tc .vmem S512x1 .f32) (harg2 : arg2.IsWhole) (arg3 : Memref sig .tc .vmem S1x256 .f32) (harg3 : arg3.IsWhole) (arg4 : Memref sig .tc .vmem S512x4096 .bf16) (harg4 : arg4.IsWhole) (arg5 : Memref sig .tc .vmem S4096x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S4096x256 .f32) (harg8 : arg8.IsWhole) (hc0 : ¬cond1_0 i) (hc1 : ¬cond1_1 i)
    (x0 : Vec F S512x1 .f32) (x1 : Vec F S1x256 .f32) (x2 : Vec F S512x4096 .bf16) (xs0 : Vec F S1x256 .f32) (xs1 : Vec F S1x256 .f32) (xs2 : Vec F S4096x256 .f32) : Vec F S1x256 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 xs0 xs1 xs2).2.1)
/-- Case B's stores cover running buffer 1. -/
theorem scover1_B_1 (c : Dev nD) (i : grid1.Coords) (arg2 : Memref sig .tc .vmem S512x1 .f32) (harg2 : arg2.IsWhole) (arg3 : Memref sig .tc .vmem S1x256 .f32) (harg3 : arg3.IsWhole) (arg4 : Memref sig .tc .vmem S512x4096 .bf16) (harg4 : arg4.IsWhole) (arg5 : Memref sig .tc .vmem S4096x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S4096x256 .f32) (harg8 : arg8.IsWhole) (hc0 : ¬cond1_0 i) (hc1 : ¬cond1_1 i)
    (x0 : Vec F S512x1 .f32) (x1 : Vec F S1x256 .f32) (x2 : Vec F S512x4096 .bf16) (xs0 : Vec F S1x256 .f32) (xs1 : Vec F S1x256 .f32) (xs2 : Vec F S4096x256 .f32) (y : S1x256.Idx) :
    ∃ pc ∈ (kernelRun1_B c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.2.1 S1x256.size (by sl_kernel_rfl) y
/-- What case B leaves in running buffer 1. -/
def sout1_B_1 (c : Dev nD) (i : grid1.Coords) (arg2 : Memref sig .tc .vmem S512x1 .f32) (harg2 : arg2.IsWhole) (arg3 : Memref sig .tc .vmem S1x256 .f32) (harg3 : arg3.IsWhole) (arg4 : Memref sig .tc .vmem S512x4096 .bf16) (harg4 : arg4.IsWhole) (arg5 : Memref sig .tc .vmem S4096x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S4096x256 .f32) (harg8 : arg8.IsWhole) (hc0 : ¬cond1_0 i) (hc1 : ¬cond1_1 i)
    (x0 : Vec F S512x1 .f32) (x1 : Vec F S1x256 .f32) (x2 : Vec F S512x4096 .bf16) (xs0 : Vec F S1x256 .f32) (xs1 : Vec F S1x256 .f32) (xs2 : Vec F S4096x256 .f32) : Vec F S1x256 .f32 :=
  VS1_1.read (Elt F) (VS1_1.writes (Elt F) VS1_1.junk (kernelRun1_B c i arg2 harg2 arg3 harg3 arg4 harg4 arg5 harg5 arg6 harg6 arg7 harg7 arg8 harg8 hc0 hc1 x0 x1 x2 xs0 xs1 xs2).2.2.1)
/-- Case B's stores cover running buffer 2. -/
theorem scover1_B_2 (c : Dev nD) (i : grid1.Coords) (arg2 : Memref sig .tc .vmem S512x1 .f32) (harg2 : arg2.IsWhole) (arg3 : Memref sig .tc .vmem S1x256 .f32) (harg3 : arg3.IsWhole) (arg4 : Memref sig .tc .vmem S512x4096 .bf16) (harg4 : arg4.IsWhole) (arg5 : Memref sig .tc .vmem S4096x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S4096x256 .f32) (harg8 : arg8.IsWhole) (hc0 : ¬cond1_0 i) (hc1 : ¬cond1_1 i)
    (x0 : Vec F S512x1 .f32) (x1 : Vec F S1x256 .f32) (x2 : Vec F S512x4096 .bf16) (xs0 : Vec F S1x256 .f32) (xs1 : Vec F S1x256 .f32) (xs2 : Vec F S4096x256 .f32) (y : S4096x256.Idx) :
    ∃ pc ∈ (kernelRun1_B c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.2.2.1 S4096x256.size (by sl_kernel_rfl) y
/-- What case B leaves in running buffer 2. -/
def sout1_B_2 (c : Dev nD) (i : grid1.Coords) (arg2 : Memref sig .tc .vmem S512x1 .f32) (harg2 : arg2.IsWhole) (arg3 : Memref sig .tc .vmem S1x256 .f32) (harg3 : arg3.IsWhole) (arg4 : Memref sig .tc .vmem S512x4096 .bf16) (harg4 : arg4.IsWhole) (arg5 : Memref sig .tc .vmem S4096x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S4096x256 .f32) (harg8 : arg8.IsWhole) (hc0 : ¬cond1_0 i) (hc1 : ¬cond1_1 i)
    (x0 : Vec F S512x1 .f32) (x1 : Vec F S1x256 .f32) (x2 : Vec F S512x4096 .bf16) (xs0 : Vec F S1x256 .f32) (xs1 : Vec F S1x256 .f32) (xs2 : Vec F S4096x256 .f32) : Vec F S4096x256 .f32 :=
  VS1_2.read (Elt F) (VS1_2.writes (Elt F) VS1_2.junk (kernelRun1_B c i arg2 harg2 arg3 harg3 arg4 harg4 arg5 harg5 arg6 harg6 arg7 harg7 arg8 harg8 hc0 hc1 x0 x1 x2 xs0 xs1 xs2).2.2.2.1)

/-- The one store at j = 7 covers the result block. -/
theorem cover1_C_3 (c : Dev nD) (i : grid1.Coords) (arg2 : Memref sig .tc .vmem S512x1 .f32) (harg2 : arg2.IsWhole) (arg3 : Memref sig .tc .vmem S1x256 .f32) (harg3 : arg3.IsWhole) (arg4 : Memref sig .tc .vmem S512x4096 .bf16) (harg4 : arg4.IsWhole) (arg5 : Memref sig .tc .vmem S4096x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S4096x256 .f32) (harg8 : arg8.IsWhole) (hc0 : ¬cond1_0 i) (hc1 : cond1_1 i)
    (x0 : Vec F S512x1 .f32) (x1 : Vec F S1x256 .f32) (x2 : Vec F S512x4096 .bf16) (xs0 : Vec F S1x256 .f32) (xs1 : Vec F S1x256 .f32) (xs2 : Vec F S4096x256 .f32) (y : S4096x256.Idx) :
    ∃ pc ∈ (kernelRun1_C c i arg2 harg2 arg3 harg3 arg4 harg4 arg5 harg5 arg6 harg6 arg7 harg7 arg8 harg8 hc0 hc1 x0 x1 x2 xs0 xs1 xs2).1, y ∈ pc.1.set :=
  View.cover_of_tiledL (kernelRun1_C c i arg2 harg2 arg3 harg3 arg4 harg4 arg5 harg5 arg6 harg6 arg7 harg7 arg8 harg8 hc0 hc1 x0 x1 x2 xs0 xs1 xs2).1 S4096x256.size (by sl_kernel_rfl) y
/-- What case C leaves in the result block's buffer. -/
def out1_C_3 (c : Dev nD) (i : grid1.Coords) (arg2 : Memref sig .tc .vmem S512x1 .f32) (harg2 : arg2.IsWhole) (arg3 : Memref sig .tc .vmem S1x256 .f32) (harg3 : arg3.IsWhole) (arg4 : Memref sig .tc .vmem S512x4096 .bf16) (harg4 : arg4.IsWhole) (arg5 : Memref sig .tc .vmem S4096x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S4096x256 .f32) (harg8 : arg8.IsWhole) (hc0 : ¬cond1_0 i) (hc1 : cond1_1 i)
    (x0 : Vec F S512x1 .f32) (x1 : Vec F S1x256 .f32) (x2 : Vec F S512x4096 .bf16) (xs0 : Vec F S1x256 .f32) (xs1 : Vec F S1x256 .f32) (xs2 : Vec F S4096x256 .f32) : Vec F S4096x256 .f32 :=
  VO1_3.read (Elt F) (VO1_3.writes (Elt F) VO1_3.junk (kernelRun1_C c i arg2 harg2 arg3 harg3 arg4 harg4 arg5 harg5 arg6 harg6 arg7 harg7 arg8 harg8 hc0 hc1 x0 x1 x2 xs0 xs1 xs2).1)
/-- Case C's stores cover running buffer 0. -/
theorem scover1_C_0 (c : Dev nD) (i : grid1.Coords) (arg2 : Memref sig .tc .vmem S512x1 .f32) (harg2 : arg2.IsWhole) (arg3 : Memref sig .tc .vmem S1x256 .f32) (harg3 : arg3.IsWhole) (arg4 : Memref sig .tc .vmem S512x4096 .bf16) (harg4 : arg4.IsWhole) (arg5 : Memref sig .tc .vmem S4096x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S4096x256 .f32) (harg8 : arg8.IsWhole) (hc0 : ¬cond1_0 i) (hc1 : cond1_1 i)
    (x0 : Vec F S512x1 .f32) (x1 : Vec F S1x256 .f32) (x2 : Vec F S512x4096 .bf16) (xs0 : Vec F S1x256 .f32) (xs1 : Vec F S1x256 .f32) (xs2 : Vec F S4096x256 .f32) (y : S1x256.Idx) :
    ∃ pc ∈ (kernelRun1_C c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.1 S1x256.size (by sl_kernel_rfl) y
/-- What case C leaves in running buffer 0. -/
def sout1_C_0 (c : Dev nD) (i : grid1.Coords) (arg2 : Memref sig .tc .vmem S512x1 .f32) (harg2 : arg2.IsWhole) (arg3 : Memref sig .tc .vmem S1x256 .f32) (harg3 : arg3.IsWhole) (arg4 : Memref sig .tc .vmem S512x4096 .bf16) (harg4 : arg4.IsWhole) (arg5 : Memref sig .tc .vmem S4096x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S4096x256 .f32) (harg8 : arg8.IsWhole) (hc0 : ¬cond1_0 i) (hc1 : cond1_1 i)
    (x0 : Vec F S512x1 .f32) (x1 : Vec F S1x256 .f32) (x2 : Vec F S512x4096 .bf16) (xs0 : Vec F S1x256 .f32) (xs1 : Vec F S1x256 .f32) (xs2 : Vec F S4096x256 .f32) : Vec F S1x256 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 xs0 xs1 xs2).2.1)
/-- Case C's stores cover running buffer 1. -/
theorem scover1_C_1 (c : Dev nD) (i : grid1.Coords) (arg2 : Memref sig .tc .vmem S512x1 .f32) (harg2 : arg2.IsWhole) (arg3 : Memref sig .tc .vmem S1x256 .f32) (harg3 : arg3.IsWhole) (arg4 : Memref sig .tc .vmem S512x4096 .bf16) (harg4 : arg4.IsWhole) (arg5 : Memref sig .tc .vmem S4096x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S4096x256 .f32) (harg8 : arg8.IsWhole) (hc0 : ¬cond1_0 i) (hc1 : cond1_1 i)
    (x0 : Vec F S512x1 .f32) (x1 : Vec F S1x256 .f32) (x2 : Vec F S512x4096 .bf16) (xs0 : Vec F S1x256 .f32) (xs1 : Vec F S1x256 .f32) (xs2 : Vec F S4096x256 .f32) (y : S1x256.Idx) :
    ∃ pc ∈ (kernelRun1_C c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.1 S1x256.size (by sl_kernel_rfl) y
/-- What case C leaves in running buffer 1. -/
def sout1_C_1 (c : Dev nD) (i : grid1.Coords) (arg2 : Memref sig .tc .vmem S512x1 .f32) (harg2 : arg2.IsWhole) (arg3 : Memref sig .tc .vmem S1x256 .f32) (harg3 : arg3.IsWhole) (arg4 : Memref sig .tc .vmem S512x4096 .bf16) (harg4 : arg4.IsWhole) (arg5 : Memref sig .tc .vmem S4096x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S4096x256 .f32) (harg8 : arg8.IsWhole) (hc0 : ¬cond1_0 i) (hc1 : cond1_1 i)
    (x0 : Vec F S512x1 .f32) (x1 : Vec F S1x256 .f32) (x2 : Vec F S512x4096 .bf16) (xs0 : Vec F S1x256 .f32) (xs1 : Vec F S1x256 .f32) (xs2 : Vec F S4096x256 .f32) : Vec F S1x256 .f32 :=
  VS1_1.read (Elt F) (VS1_1.writes (Elt F) VS1_1.junk (kernelRun1_C c i arg2 harg2 arg3 harg3 arg4 harg4 arg5 harg5 arg6 harg6 arg7 harg7 arg8 harg8 hc0 hc1 x0 x1 x2 xs0 xs1 xs2).2.2.1)
/-- Case C's stores cover running buffer 2. -/
theorem scover1_C_2 (c : Dev nD) (i : grid1.Coords) (arg2 : Memref sig .tc .vmem S512x1 .f32) (harg2 : arg2.IsWhole) (arg3 : Memref sig .tc .vmem S1x256 .f32) (harg3 : arg3.IsWhole) (arg4 : Memref sig .tc .vmem S512x4096 .bf16) (harg4 : arg4.IsWhole) (arg5 : Memref sig .tc .vmem S4096x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S4096x256 .f32) (harg8 : arg8.IsWhole) (hc0 : ¬cond1_0 i) (hc1 : cond1_1 i)
    (x0 : Vec F S512x1 .f32) (x1 : Vec F S1x256 .f32) (x2 : Vec F S512x4096 .bf16) (xs0 : Vec F S1x256 .f32) (xs1 : Vec F S1x256 .f32) (xs2 : Vec F S4096x256 .f32) (y : S4096x256.Idx) :
    ∃ pc ∈ (kernelRun1_C c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.2.1 S4096x256.size (by sl_kernel_rfl) y
/-- What case C leaves in running buffer 2. -/
def sout1_C_2 (c : Dev nD) (i : grid1.Coords) (arg2 : Memref sig .tc .vmem S512x1 .f32) (harg2 : arg2.IsWhole) (arg3 : Memref sig .tc .vmem S1x256 .f32) (harg3 : arg3.IsWhole) (arg4 : Memref sig .tc .vmem S512x4096 .bf16) (harg4 : arg4.IsWhole) (arg5 : Memref sig .tc .vmem S4096x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S4096x256 .f32) (harg8 : arg8.IsWhole) (hc0 : ¬cond1_0 i) (hc1 : cond1_1 i)
    (x0 : Vec F S512x1 .f32) (x1 : Vec F S1x256 .f32) (x2 : Vec F S512x4096 .bf16) (xs0 : Vec F S1x256 .f32) (xs1 : Vec F S1x256 .f32) (xs2 : Vec F S4096x256 .f32) : Vec F S4096x256 .f32 :=
  VS1_2.read (Elt F) (VS1_2.writes (Elt F) VS1_2.junk (kernelRun1_C c i arg2 harg2 arg3 harg3 arg4 harg4 arg5 harg5 arg6 harg6 arg7 harg7 arg8 harg8 hc0 hc1 x0 x1 x2 xs0 xs1 xs2).2.2.2.1)

section
variable (V : (c : Dev nD) → (b : Ref sig .tc) → Buf (Elt F) ((c : Thread nD τ).loc b))

/-! ## Point by point -/

/-- What the result block's buffer and the three running buffers hold after the body at position `n` of the grid's walk. -/
def outsAt1 (c : Dev nD) : (n : ℕ) → n < cfg1.N → Vec F S4096x256 .f32 × Vec F S1x256 .f32 × Vec F S1x256 .f32 × Vec F S4096x256 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩),
          sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩),
          sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩),
          sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩),
          sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩),
          sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩),
          sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2,
          sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2,
          sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2,
          sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2,
          sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2,
          sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2,
          sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)

theorem outsAt1_A (c : Dev nD) (t : Fin cfg1.N) (h0 : t.val % 8 = 0) (h1 : ¬t.val % 8 = 7) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t),
          sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t),
          sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t),
          sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
          sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
          sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
          sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
          sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
          sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
          sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The launch's invariant before position `n`: before the first point every scoped buffer at anything; afterwards
    the three running buffers at what the point before left in them. -/
def PhiS1 (c : Dev nD) : (n : ℕ) → n ≤ cfg1.N → sProp 𝕄
  | 0, _ => Pipeline.ΦA spec1 c
  | n + 1, hn => iprop(iprop(anyAt c cc0_stg0_0 ∗ anyAt c cc0_stg0_1 ∗ anyAt c cc0_stg1_0 ∗ anyAt c cc0_stg1_1 ∗ anyAt c cc0_stg2_0 ∗ anyAt c cc0_stg2_1 ∗ anyAt c cc0_scratch0
      ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(anyAt c cc0_stg0_0 ∗ anyAt c cc0_stg0_1 ∗ anyAt c cc0_stg1_0 ∗ anyAt c cc0_stg1_1 ∗ anyAt c cc0_stg2_0 ∗ anyAt c cc0_stg2_1 ∗ anyAt c cc0_scratch0
      ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r)) := rfl
theorem PhiS1_pos (c : Dev nD) (n : ℕ) (h : n ≤ cfg1.N) (hz : n ≠ 0) :
    PhiS1 V c n h = iprop(iprop(anyAt c cc0_stg0_0 ∗ anyAt c cc0_stg0_1 ∗ anyAt c cc0_stg1_0 ∗ anyAt c cc0_stg1_1 ∗ anyAt c cc0_stg2_0 ∗ anyAt c cc0_stg2_1 ∗ anyAt c cc0_scratch0
      ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)) ∗ (∃ r, prngReg c r)) := by
  cases n with
  | zero => exact absurd rfl hz
  | succ n => rfl

/-! ## The proof data -/

def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body's triple at every point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 8 = 0
  · have h1 : ¬t.val % 8 = 7 := by omega
    rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
    rw [outsAt1_A V c t h0 h1]
    unfold sout1_A_0 sout1_A_1 sout1_A_2; (try dsimp only)
    by_cases hz : t.val = 0
    · rw [PhiS1_castSucc V c t, PhiS1_zero V c _ _ hz, PhiA1_eq]
      iintro ⟨⟨⟨HR0, HR1, HR2, HR3, HR4, HR5, HR6, HS0, HS1, HS2⟩, Hg⟩, Ho, ⟨%d0, H0⟩, ⟨%d1, H1⟩, ⟨%d2, H2⟩, ⟨%d3, H3⟩⟩
      iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HR0 HR1 HR2 HR3 HR4 HR5 HR6 HS0 HS1 HS2 Hg]
      · isplitl [HR0 HR1 HR2 HR3 HR4 HR5 HR6 HS0 HS1 HS2]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HS0]
          · unfold owns; iexists _; isplitr
            swap; · iexact HS0
            ipureintro; exact View.read_writes_of_cover _ _ _ _ _ (scover1_A_0 c _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _)
          unfold owns; iexists _; isplitr
          swap; · iexact HS2
          ipureintro; exact View.read_writes_of_cover _ _ _ _ _ (scover1_A_2 c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HR0, HR1, HR2, HR3, HR4, HR5, HR6, HS0, HS1, HS2⟩, Hg⟩, Ho, ⟨%d0, H0⟩, ⟨%d1, H1⟩, ⟨%d2, H2⟩, ⟨%d3, H3⟩⟩
      iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [HR0 HR1 HR2 HR3 HR4 HR5 HR6 HS0 HS1 HS2 Hg]
      · isplitl [HR0 HR1 HR2 HR3 HR4 HR5 HR6 HS0 HS1 HS2]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HS0]
          · unfold owns; iexists _; isplitr
            swap; · iexact HS0
            ipureintro; exact View.read_writes_of_cover _ _ _ _ _ (scover1_A_0 c _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _)
          unfold owns; iexists _; isplitr
          swap; · iexact HS2
          ipureintro; exact View.read_writes_of_cover _ _ _ _ _ (scover1_A_2 c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := by omega
    by_cases h1 : t.val % 8 = 7
    · rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0 sout1_C_1 sout1_C_2; (try dsimp only)
      rw [PhiS1_castSucc V c t, PhiS1_pos V c _ _ hz]
      iintro ⟨⟨⟨HR0, HR1, HR2, HR3, HR4, HR5, HR6, HS0, HS1, HS2⟩, Hg⟩, Ho, ⟨%d0, H0⟩, ⟨%d1, H1⟩, ⟨%d2, H2⟩, ⟨%d3, H3⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [HR0 HR1 HR2 HR3 HR4 HR5 HR6 HS0 HS1 HS2 Hg]
      · isplitl [HR0 HR1 HR2 HR3 HR4 HR5 HR6 HS0 HS1 HS2]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _ _ _ _ _ _ _ _)
          unfold owns; iexists _; isplitr
          swap; · iexact HS2
          ipureintro; exact View.read_writes_of_cover _ _ _ _ _ (scover1_C_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _ _ _ _ _ _ _)
    · rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0 sout1_B_1 sout1_B_2; (try dsimp only)
      rw [PhiS1_castSucc V c t, PhiS1_pos V c _ _ hz]
      iintro ⟨⟨⟨HR0, HR1, HR2, HR3, HR4, HR5, HR6, HS0, HS1, HS2⟩, Hg⟩, Ho, ⟨%d0, H0⟩, ⟨%d1, H1⟩, ⟨%d2, H2⟩, ⟨%d3, H3⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HR0 HR1 HR2 HR3 HR4 HR5 HR6 HS0 HS1 HS2 Hg]
      · isplitl [HR0 HR1 HR2 HR3 HR4 HR5 HR6 HS0 HS1 HS2]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _)
          unfold owns; iexists _; isplitr
          swap; · iexact HS2
          ipureintro; exact View.read_writes_of_cover _ _ _ _ _ (scover1_B_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-- After any point the invariant gives the launch's own back: the running buffers' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR0, HR1, HR2, HR3, HR4, HR5, HR6, HS0, HS1, HS2⟩, Hg⟩
  isplitl [HR0 HR1 HR2 HR3 HR4 HR5 HR6 HS0 HS1 HS2]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HS0]; · iexists _; iexact HS0
    isplitl [HS1]; · iexists _; iexact HS1
    iexists _; iexact HS2
  iexact Hg

theorem Phi_last1 (c : Dev nD) : (dat1 V c).Φ (Fin.last cfg1.N) ⊢ Pipeline.ΦA spec1 c :=
  Phi_out1 V c _ (by rw [Fin.val_last]; have : cfg1.N = 128 := N_1; omega)

end

end Cert.Kernel.Hand

end
-- ==== Proof.HandKernel.Run.lean ====
/-
  The whole program, from the launch to the return: two host operations, the matrix-product launch, eight host
  operations, the attention launch. The contents of every unscoped buffer are followed through the four stretches
  (a host stretch applies its operations; a launch replaces its windows' arrays by what its write-backs leave and
  keeps every other buffer). Every weakly fair execution terminates, and every final memory holds every unscoped
  buffer at the last of these contents: so the argument arrays end as launched, and the result array ends at what the
  attention launch's write-backs leave.
-/
import proofs.«152758_j53506702573897_2_alg».proof.Proof.HandKernel.R0Frame
import proofs.«152758_j53506702573897_2_alg».proof.Proof.HandKernel.R1Frame
import proofs.«152758_j53506702573897_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers' contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## No stretch writes an argument array -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (r := main_arg0) (by decide)
    _ = W1 m ρ c (Proc.devRef .tc main_arg0) := W2_of_ne m ρ c main_arg0 (by decide)
    _ = W0 m ρ c (Proc.devRef .tc main_arg0) := StableHlo.after_of_writes_sub hostOps0 _ hostOps0_writes (r := main_arg0) (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (r := main_arg1) (by decide)
    _ = W1 m ρ c (Proc.devRef .tc main_arg1) := W2_of_ne m ρ c main_arg1 (by decide)
    _ = W0 m ρ c (Proc.devRef .tc main_arg1) := StableHlo.after_of_writes_sub hostOps0 _ hostOps0_writes (r := main_arg1) (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (r := main_arg2) (by decide)
    _ = W1 m ρ c (Proc.devRef .tc main_arg2) := W2_of_ne m ρ c main_arg2 (by decide)
    _ = W0 m ρ c (Proc.devRef .tc main_arg2) := StableHlo.after_of_writes_sub hostOps0 _ hostOps0_writes (r := main_arg2) (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (r := main_arg3) (by decide)
    _ = W1 m ρ c (Proc.devRef .tc main_arg3) := W2_of_ne m ρ c main_arg3 (by decide)
    _ = W0 m ρ c (Proc.devRef .tc main_arg3) := StableHlo.after_of_writes_sub hostOps0 _ hostOps0_writes (r := main_arg3) (by decide)
    _ = m ((c : Thread nD τ).loc main_arg3) := rfl

/-! ## The proof data family and the thread state -/

abbrev adm : (p : Fin 2) → (pcfgs (F := F) p).Adm := fun p => (cfgs p).toPCfg_adm
def pdats : (p : Fin 2) → (c : Dev nD) → Dat τ (Elt F) Unit ℕ (Pipeline.UD sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every stretch: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The launches as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from Phi_last0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from Phi_last1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- Every weakly fair execution of the program from memory `m` with zero counters terminates, nothing faulting, and
    every final memory holds each unscoped buffer at the contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

/-- The run with its result named: the result array ends at what the attention launch's write-backs leave. -/
theorem run_value : θ_run defs (onTc (τ := τ) (main (F := F))) ⟨m, fun _ => 0, ρ⟩ (fun r => ∀ c : Dev nD,
      r.2.mem ((c.tc : Thread nD τ).loc main_v11) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v11 (by decide))).trans (W4_arr m ρ c 3),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

end Cert.Kernel.Hand

end
-- ==== Proof.HandKernelIdeal.R0Runs.lean ====
/-
  The matrix-product kernel (the first launch) on its 4 × 4 × 2 grid: what every run of its body is stated over.
  The third grid coordinate k walks the two halves of the contracted axis. At k = 0 the body clears its
  accumulator (a scratch buffer it keeps from one grid point to the next), at every point it adds the product
  of the two operand blocks to it, and at k = 1 it copies the accumulator, rounded, into the result block.
  Here: the two branch conditions in closed form over the grid, where the result window is idle, the staging
  and scratch memrefs, and a window's block read off the arrays as the launch finds them.
-/
import proofs.«152758_j53506702573897_2_alg».proof.Proof.Gen.KernelIdeal.Launch
import proofs.«152758_j53506702573897_2_alg».proof.Proof.Gen.KernelIdeal.Skeleton
import proofs.«152758_j53506702573897_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

/-- Window `w`'s block at grid point `t`, read off its array at the contents `V` the launch is entered with. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An operand window's staging buffer holds the window's block at every point, whether it was fetched there or kept. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
end

/-- "k = 0": the body clears the accumulator first. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 2 = 0 :=
  (by decide +kernel : ∀ t : Fin grid0.N, cond0_0 (grid0.coords t) ↔ t.val % 2 = 0)
/-- "k = 1": the body writes the result block last. -/
abbrev cond0_1 (i : grid0.Coords) : Prop := k0_cond2 i = 1#1
theorem hcond0_1 : ∀ t : Fin cfg0.N, cond0_1 (grid0.coords t) ↔ t.val % 2 = 1 :=
  (by decide +kernel : ∀ t : Fin grid0.N, cond0_1 (grid0.coords t) ↔ t.val % 2 = 1)

theorem liveAt0_0 : ∀ t : Fin cfg0.N, cfg0.idle 0 (grid0.coords t) = false := by decide +kernel
theorem liveAt0_1 : ∀ t : Fin cfg0.N, cfg0.idle 1 (grid0.coords t) = false := by decide +kernel
/-- At k = 0 nothing is stored into the result block and it is not written back. -/
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
theorem liveAt0_2_B : ∀ t : Fin cfg0.N, ¬cond0_0 (grid0.coords t) → cond0_1 (grid0.coords t) → cfg0.idle 2 (grid0.coords t) = false := by decide +kernel

/-- One staging buffer of the result window, through which its contents are stated. -/
abbrev VO0_2 : View sig .tc .vmem S1024x1024 .bf16 := (Memref.whole cc0_stg2_0 : Memref sig .tc .vmem S1024x1024 .bf16).view
abbrev ms0_0 (t : Fin cfg0.N) : Memref sig .tc .vmem S1024x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0_0 : Memref sig .tc .vmem S1024x1024 .f32 := Memref.whole cc0_scratch0
abbrev VS0_0 : View sig .tc .vmem S1024x1024 .f32 := scM0_0.view

/-- A scoped buffer held whole at some contents. -/
abbrev anyAt (c : Dev nD) (b : Ref sig .tc) : sProp 𝕄 :=
  iprop(∃ f : Buf (Elt F) ((c : Thread nD τ).loc b), ((c : Thread nD τ).loc b) ↦{fullShare} f)

/-- The scoped buffers of the other launch, which this one never touches, each at some contents. -/
abbrev others0 (c : Dev nD) : sProp 𝕄 :=
  iprop(anyAt c cc1_stg0_0 ∗ anyAt c cc1_stg0_1 ∗ anyAt c cc1_stg1_0 ∗ anyAt c cc1_stg1_1 ∗ anyAt c cc1_stg2_0 ∗ anyAt c cc1_stg2_1
    ∗ anyAt c cc1_stg3_0 ∗ anyAt c cc1_stg3_1 ∗ anyAt c cc1_scratch0 ∗ anyAt c cc1_scratch1 ∗ anyAt c cc1_scratch2)

/-- The launch's own invariant with the accumulator as a memref owned at some contents, beside the other launch's
    scoped buffers and the generator register. -/
theorem PhiA0_eq (c : Dev nD) :
    (Pipeline.ΦA spec0 c : sProp 𝕄)
      = iprop(iprop((∃ d, owns (c : Thread nD τ) scM0_0 fullShare d) ∗ others0 c) ∗ (∃ r, prngReg c r)) := by
  unfold Pipeline.ΦA; rw [scopedRest0_eq]; simp only [scM0_0, owns_whole]; try rfl

end Cert.KernelIdeal.Hand

end
-- ==== Proof.HandKernelIdeal.R0RunA.lean ====
/-
  The matrix-product kernel's body at a grid point with k = 0, run symbolically on whole staging memrefs: the two
  operand blocks are read and handed back as they were, the result block's buffer is not stored into (it is handed
  back untouched), and the accumulator, found at anything, ends holding the stores the body made into it — first
  zeros, then the zeros plus the product of the two blocks. The list of those stores is the witness the run finds.
-/
import proofs.«152758_j53506702573897_2_alg».proof.Proof.HandKernelIdeal.R0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
noncomputable def kernelRun0_A (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i)
    (x0 : Vec F S1024x2048 .bf16) (x1 : Vec F S1024x2048 .bf16) :
    Σ' (L2 : List (View.Piece (Elt F) S1024x1024 .bf16)), { LS0 : List (View.Piece (Elt F) S1024x1024 .f32) //
      ∀ (xi2 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_transb_kernel i arg3 harg3 arg4 harg4 arg5 harg5 arg6 harg6) K } := by
  refine ⟨[], ?_, fun xi2 E K => ?run⟩
  case run =>
    simp only [cc0__matmul_transb_kernel_eq_skeleton]; unfold cc0__matmul_transb_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Hand

end
-- ==== Proof.HandKernelIdeal.R0RunB.lean ====
/-
  The matrix-product kernel's body at a grid point with k = 1, run symbolically on whole staging memrefs: the two
  operand blocks are read and handed back as they were, the accumulator is found at what the point before left in it
  and ends with the product of the two blocks added, and the result block's buffer, found at anything, ends holding
  the one store the body made into it — the accumulator's final contents rounded. The lists of stores are the
  witness the run finds.
-/
import proofs.«152758_j53506702573897_2_alg».proof.Proof.HandKernelIdeal.R0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
noncomputable def kernelRun0_B (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 : Vec F S1024x2048 .bf16) (x1 : Vec F S1024x2048 .bf16) (xs0 : Vec F S1024x1024 .f32) :
    Σ' (L2 : List (View.Piece (Elt F) S1024x1024 .bf16)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_transb_kernel i arg3 harg3 arg4 harg4 arg5 harg5 arg6 harg6) K } := by
  refine ⟨?_, ?_, fun E K => ?run⟩
  case run =>
    simp only [cc0__matmul_transb_kernel_eq_skeleton]; unfold cc0__matmul_transb_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Hand

end
-- ==== Proof.HandKernelIdeal.R0Frame.lean ====
/-
  The matrix-product kernel over its whole grid. What the accumulator and the result block's buffer hold after the
  body at each grid point, by recursion on the point: at k = 0 what the body leaves from nothing, at k = 1 what it
  leaves over the accumulator of the point before. The launch's invariant names the accumulator's contents from one
  point to the next; with it the body's triple at every point follows from the two symbolic runs.
-/
import proofs.«152758_j53506702573897_2_alg».proof.Proof.HandKernelIdeal.R0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## What each case leaves -/

/-- At k = 0 nothing is stored into the result block: a placeholder nothing reads. -/
def out0_A_2 (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i)
    (x0 : Vec F S1024x2048 .bf16) (x1 : Vec F S1024x2048 .bf16) : Vec F S1024x1024 .bf16 :=
  VO0_2.read (Elt F) (VO0_2.writes (Elt F) VO0_2.junk (kernelRun0_A c i arg3 harg3 arg4 harg4 arg5 harg5 arg6 harg6 hc0 hc1 x0 x1).1)
/-- The stores at k = 0 cover the accumulator. -/
theorem scover0_A_0 (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i)
    (x0 : Vec F S1024x2048 .bf16) (x1 : Vec F S1024x2048 .bf16) (y : S1024x1024.Idx) :
    ∃ pc ∈ (kernelRun0_A c i arg3 harg3 arg4 harg4 arg5 harg5 arg6 harg6 hc0 hc1 x0 x1).2.1, y ∈ pc.1.set :=
  View.cover_of_tiledL (kernelRun0_A c i arg3 harg3 arg4 harg4 arg5 harg5 arg6 harg6 hc0 hc1 x0 x1).2.1 S1024x1024.size (by sl_kernel_rfl) y
/-- What the body leaves in the accumulator at k = 0. -/
def sout0_A_0 (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i)
    (x0 : Vec F S1024x2048 .bf16) (x1 : Vec F S1024x2048 .bf16) : Vec F S1024x1024 .f32 :=
  VS0_0.read (Elt F) (VS0_0.writes (Elt F) VS0_0.junk (kernelRun0_A c i arg3 harg3 arg4 harg4 arg5 harg5 arg6 harg6 hc0 hc1 x0 x1).2.1)

/-- The one store at k = 1 covers the result block. -/
theorem cover0_B_2 (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 : Vec F S1024x2048 .bf16) (x1 : Vec F S1024x2048 .bf16) (xs0 : Vec F S1024x1024 .f32) (y : S1024x1024.Idx) :
    ∃ pc ∈ (kernelRun0_B c i arg3 harg3 arg4 harg4 arg5 harg5 arg6 harg6 hc0 hc1 x0 x1 xs0).1, y ∈ pc.1.set :=
  View.cover_of_tiledL (kernelRun0_B c i arg3 harg3 arg4 harg4 arg5 harg5 arg6 harg6 hc0 hc1 x0 x1 xs0).1 S1024x1024.size (by sl_kernel_rfl) y
/-- What the body leaves in the result block's buffer at k = 1. -/
def out0_B_2 (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 : Vec F S1024x2048 .bf16) (x1 : Vec F S1024x2048 .bf16) (xs0 : Vec F S1024x1024 .f32) : Vec F S1024x1024 .bf16 :=
  VO0_2.read (Elt F) (VO0_2.writes (Elt F) VO0_2.junk (kernelRun0_B c i arg3 harg3 arg4 harg4 arg5 harg5 arg6 harg6 hc0 hc1 x0 x1 xs0).1)
/-- The store at k = 1 covers the accumulator. -/
theorem scover0_B_0 (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 : Vec F S1024x2048 .bf16) (x1 : Vec F S1024x2048 .bf16) (xs0 : Vec F S1024x1024 .f32) (y : S1024x1024.Idx) :
    ∃ pc ∈ (kernelRun0_B c i arg3 harg3 arg4 harg4 arg5 harg5 arg6 harg6 hc0 hc1 x0 x1 xs0).2.1, y ∈ pc.1.set :=
  View.cover_of_tiledL (kernelRun0_B c i arg3 harg3 arg4 harg4 arg5 harg5 arg6 harg6 hc0 hc1 x0 x1 xs0).2.1 S1024x1024.size (by sl_kernel_rfl) y
/-- What the body leaves in the accumulator at k = 1. -/
def sout0_B_0 (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 : Vec F S1024x2048 .bf16) (x1 : Vec F S1024x2048 .bf16) (xs0 : Vec F S1024x1024 .f32) : Vec F S1024x1024 .f32 :=
  VS0_0.read (Elt F) (VS0_0.writes (Elt F) VS0_0.junk (kernelRun0_B c i arg3 harg3 arg4 harg4 arg5 harg5 arg6 harg6 hc0 hc1 x0 x1 xs0).2.1)

section
variable (V : (c : Dev nD) → (b : Ref sig .tc) → Buf (Elt F) ((c : Thread nD τ).loc b))

/-! ## Point by point -/

/-- What the result block's buffer and the accumulator hold after the body at position `n` of the grid's walk. -/
def outsAt0 (c : Dev nD) : (n : ℕ) → n < cfg0.N → Vec F S1024x1024 .bf16 × Vec F S1024x1024 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 2 = 0 then
      if h1 : (n + 1) % 2 = 1 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩),
          sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 2 = 1 then
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2,
          sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        False.elim (by omega)

theorem outsAt0_A (c : Dev nD) (t : Fin cfg0.N) (h0 : t.val % 2 = 0) (h1 : ¬t.val % 2 = 1) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t),
      sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 2 = 0) (h1 : t.val % 2 = 1) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2,
      sout0_B_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The launch's invariant before position `n`: before the first point every scoped buffer at anything; afterwards
    the accumulator at what the point before left in it. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ others0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2) ∗ others0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ others0 c) ∗ (∃ r, prngReg c r)) := by
  cases n with
  | zero => exact absurd rfl hz
  | succ n => rfl

/-! ## The proof data -/

/-- The launch's proof data on core `c`: the arrays as the launch finds them; after the body at a point each operand's
    buffer at its block and the result's at `outsAt0`; the invariant `PhiS0`; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body's triple at every point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 2 = 0
  · have h1 : ¬t.val % 2 = 1 := by omega
    rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
    rw [outsAt0_A V c t h0 h1]
    unfold sout0_A_0; (try dsimp only)
    by_cases hz : t.val = 0
    · rw [PhiS0_castSucc V c t, PhiS0_zero V c _ _ hz, PhiA0_eq]
      iintro ⟨⟨⟨HS0, HR⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _)
          iexact HR
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS0, HR⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _)
          iexact HR
        iexact Hg
      isplitl [Ho]; · iexact Ho
      isplitl [H0]; · iexact H0
      isplitl [H1]; · iexact H1
      iexists _; iexact H2
  · have h1 : t.val % 2 = 1 := by omega
    rw [show (dat0 V c).leavesExact 2 t = owns (c : Thread nD τ) (ms0_2 t) fullShare ((dat0 V c).after 2 t) from by
      unfold Dat.leavesExact; rw [liveAt0_2_B t (fun h => h0 ((hcond0_0 t).mp h)) ((hcond0_1 t).mpr h1)], after0_2]
    rw [outsAt0_B V c t h0 h1]
    unfold out0_B_2 sout0_B_0; (try dsimp only)
    have hz : t.val ≠ 0 := by omega
    rw [PhiS0_castSucc V c t, PhiS0_pos V c _ _ hz]
    iintro ⟨⟨⟨HS0, HR⟩, Hg⟩, Ho, ⟨%d0, H0⟩, ⟨%d1, H1⟩, ⟨%d2, H2⟩⟩
    iapply ((kernelRun0_B c (grid0.coords t) _ _ _ _ _ _ _ _ (fun h => h0 ((hcond0_0 t).mp h)) ((hcond0_1 t).mpr h1) (iblk0 V c 0 t) (iblk0 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_B_0 c _ _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

/-- After any point the invariant gives the launch's own back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

theorem Phi_last0 (c : Dev nD) : (dat0 V c).Φ (Fin.last cfg0.N) ⊢ Pipeline.ΦA spec0 c :=
  Phi_out0 V c _ (by rw [Fin.val_last]; have : cfg0.N = 32 := N_0; omega)

end

end Cert.KernelIdeal.Hand

end
-- ==== Proof.HandKernelIdeal.R1Runs.lean ====
/-
  The attention kernel (the second launch) on its 16 × 8 grid: what every run of its body is stated over.
  The second grid coordinate j walks the eight blocks of 512 keys. The body keeps three scratch buffers from one
  grid point to the next — the running column maximum, the running denominator and the running weighted sum. At
  j = 0 it resets them (-inf, 0, 0); at every point it folds the block of keys into them, rescaling what the points
  before accumulated; at j = 7 it divides the weighted sum by the denominator, applies the exponential-linear unit
  and stores the result block. Here: the two branch conditions in closed form over the grid, where the result
  window is idle, the staging and scratch memrefs, and a window's block read off the arrays as the launch finds them.
-/
import proofs.«152758_j53506702573897_2_alg».proof.Proof.HandKernelIdeal.R0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

/-- Window `w`'s block at grid point `t`, read off its array at the contents `V` the launch is entered with. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An operand window's staging buffer holds the window's block at every point, whether it was fetched there or kept
    (the query row's block index does not move along j, so it is fetched once per row of the grid). -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
end

/-- "j = 0": the body resets its three running buffers first. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- "j = 7": the body normalises and writes the result block last. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Before the last block of keys nothing is stored into the result block and it is not written back. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
theorem liveAt1_3_C : ∀ t : Fin cfg1.N, ¬cond1_0 (grid1.coords t) → cond1_1 (grid1.coords t) → cfg1.idle 3 (grid1.coords t) = false := by decide +kernel

/-- One staging buffer of the result window, through which its contents are stated. -/
abbrev VO1_3 : View sig .tc .vmem S4096x256 .f32 := (Memref.whole cc1_stg3_0 : Memref sig .tc .vmem S4096x256 .f32).view
abbrev ms1_0 (t : Fin cfg1.N) : Memref sig .tc .vmem S512x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x4096 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4096x256 .f32 := win1_3.stage (cfg1.slots t 3)
abbrev hs1_3 (t : Fin cfg1.N) : (ms1_3 t).IsWhole := hstage1_3 ((cfg1.slots t 3).cast nbuf1_3)
/-- The running maximum, the running denominator and the running weighted sum: whole scoped buffers of the kernel's own. -/
abbrev scM1_0 : Memref sig .tc .vmem S1x256 .f32 := Memref.whole cc1_scratch0
abbrev scM1_1 : Memref sig .tc .vmem S1x256 .f32 := Memref.whole cc1_scratch1
abbrev scM1_2 : Memref sig .tc .vmem S4096x256 .f32 := Memref.whole cc1_scratch2
abbrev VS1_0 : View sig .tc .vmem S1x256 .f32 := scM1_0.view
abbrev VS1_1 : View sig .tc .vmem S1x256 .f32 := scM1_1.view
abbrev VS1_2 : View sig .tc .vmem S4096x256 .f32 := scM1_2.view

/-- The launch's own invariant with the three running buffers as memrefs owned at some contents, beside the other
    launch's scoped buffers and the generator register. -/
theorem PhiA1_eq (c : Dev nD) :
    (Pipeline.ΦA spec1 c : sProp 𝕄)
      = iprop(iprop(anyAt c cc0_stg0_0 ∗ anyAt c cc0_stg0_1 ∗ anyAt c cc0_stg1_0 ∗ anyAt c cc0_stg1_1 ∗ anyAt c cc0_stg2_0 ∗ anyAt c cc0_stg2_1 ∗ anyAt c cc0_scratch0
          ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.KernelIdeal.Hand

end
-- ==== Proof.HandKernelIdeal.R1RunA.lean ====
/-
  The attention kernel's body at a grid point with j = 0, run symbolically on whole staging memrefs: the three operand
  blocks are read and handed back as they were, the result block's buffer is not stored into, and the three running
  buffers, found at anything, end holding the stores the body made into them — first the reset values, then the fold
  of the first block of keys. The lists of those stores are the witness the run finds.
-/
import proofs.«152758_j53506702573897_2_alg».proof.Proof.HandKernelIdeal.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 2000000 in
noncomputable def kernelRun1_A (c : Dev nD) (i : grid1.Coords) (arg2 : Memref sig .tc .vmem S512x1 .f32) (harg2 : arg2.IsWhole) (arg3 : Memref sig .tc .vmem S1x256 .f32) (harg3 : arg3.IsWhole) (arg4 : Memref sig .tc .vmem S512x4096 .bf16) (harg4 : arg4.IsWhole) (arg5 : Memref sig .tc .vmem S4096x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S4096x256 .f32) (harg8 : arg8.IsWhole) (hc0 : cond1_0 i) (hc1 : ¬cond1_1 i)
    (x0 : Vec F S512x1 .f32) (x1 : Vec F S1x256 .f32) (x2 : Vec F S512x4096 .bf16) :
    Σ' (L3 : List (View.Piece (Elt F) S4096x256 .f32)) (LS0 : List (View.Piece (Elt F) S1x256 .f32)) (LS1 : List (View.Piece (Elt F) S1x256 .f32)), { LS2 : List (View.Piece (Elt F) S4096x256 .f32) //
      ∀ (xi3 : Vec F S4096x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨[], ?_, ?_, ?_, fun xi3 E K => ?run⟩
  case run =>
    simp only [cc1__flash_kernel_eq_skeleton]; unfold cc1__flash_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Hand

end
-- ==== Proof.HandKernelIdeal.R1RunB.lean ====
/-
  The attention kernel's body at a grid point with 0 < j < 7, run symbolically on whole staging memrefs: the three
  operand blocks are read and handed back as they were, the result block's buffer is not stored into, and the three
  running buffers, found at what the point before left in them, end with this block of keys folded in. The lists of
  stores are the witness the run finds.
-/
import proofs.«152758_j53506702573897_2_alg».proof.Proof.HandKernelIdeal.R1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 2000000 in
noncomputable def kernelRun1_B (c : Dev nD) (i : grid1.Coords) (arg2 : Memref sig .tc .vmem S512x1 .f32) (harg2 : arg2.IsWhole) (arg3 : Memref sig .tc .vmem S1x256 .f32) (harg3 : arg3.IsWhole) (arg4 : Memref sig .tc .vmem S512x4096 .bf16) (harg4 : arg4.IsWhole) (arg5 : Memref sig .tc .vmem S4096x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S4096x256 .f32) (harg8 : arg8.IsWhole) (hc0 : ¬cond1_0 i) (hc1 : ¬cond1_1 i)
    (x0 : Vec F S512x1 .f32) (x1 : Vec F S1x256 .f32) (x2 : Vec F S512x4096 .bf16) (xs0 : Vec F S1x256 .f32) (xs1 : Vec F S1x256 .f32) (xs2 : Vec F S4096x256 .f32) :
    Σ' (L3 : List (View.Piece (Elt F) S4096x256 .f32)) (LS0 : List (View.Piece (Elt F) S1x256 .f32)) (LS1 : List (View.Piece (Elt F) S1x256 .f32)), { LS2 : List (View.Piece (Elt F) S4096x256 .f32) //
      ∀ (xi3 : Vec F S4096x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨[], ?_, ?_, ?_, fun xi3 E K => ?run⟩
  case run =>
    simp only [cc1__flash_kernel_eq_skeleton]; unfold cc1__flash_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Hand

end
-- ==== Proof.HandKernelIdeal.R1RunC.lean ====
/-
  The attention kernel's body at a grid point with j = 7, run symbolically on whole staging memrefs: the three operand
  blocks are read and handed back as they were, the three running buffers, found at what the point before left in
  them, end with the last block of keys folded in, and the result block's buffer, found at anything, ends holding the
  one store the body made into it — the weighted sum over the denominator under the exponential-linear unit. The
  lists of stores are the witness the run finds.
-/
import proofs.«152758_j53506702573897_2_alg».proof.Proof.HandKernelIdeal.R1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 2000000 in
noncomputable def kernelRun1_C (c : Dev nD) (i : grid1.Coords) (arg2 : Memref sig .tc .vmem S512x1 .f32) (harg2 : arg2.IsWhole) (arg3 : Memref sig .tc .vmem S1x256 .f32) (harg3 : arg3.IsWhole) (arg4 : Memref sig .tc .vmem S512x4096 .bf16) (harg4 : arg4.IsWhole) (arg5 : Memref sig .tc .vmem S4096x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S4096x256 .f32) (harg8 : arg8.IsWhole) (hc0 : ¬cond1_0 i) (hc1 : cond1_1 i)
    (x0 : Vec F S512x1 .f32) (x1 : Vec F S1x256 .f32) (x2 : Vec F S512x4096 .bf16) (xs0 : Vec F S1x256 .f32) (xs1 : Vec F S1x256 .f32) (xs2 : Vec F S4096x256 .f32) :
    Σ' (L3 : List (View.Piece (Elt F) S4096x256 .f32)) (LS0 : List (View.Piece (Elt F) S1x256 .f32)) (LS1 : List (View.Piece (Elt F) S1x256 .f32)), { LS2 : List (View.Piece (Elt F) S4096x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨?_, ?_, ?_, ?_, fun E K => ?run⟩
  case run =>
    simp only [cc1__flash_kernel_eq_skeleton]; unfold cc1__flash_kernel_skel
    simp only [k1_part1_eq_skeleton]; unfold k1_part1_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.KernelIdeal.Hand

end
-- ==== Proof.HandKernelIdeal.R1Frame.lean ====
/-
  The attention kernel over its whole grid. What the three running buffers and the result block's buffer hold after the
  body at each grid point, by recursion on the point: at j = 0 what the body leaves from nothing, afterwards what it
  leaves over the running buffers of the point before. The launch's invariant names the running buffers' contents
  from one point to the next; with it the body's triple at every point follows from the three symbolic runs.
-/
import proofs.«152758_j53506702573897_2_alg».proof.Proof.HandKernelIdeal.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## What each case leaves -/

/-- What case A leaves in the result block's buffer (nothing is stored: a placeholder nothing reads). -/
def out1_A_3 (c : Dev nD) (i : grid1.Coords) (arg2 : Memref sig .tc .vmem S512x1 .f32) (harg2 : arg2.IsWhole) (arg3 : Memref sig .tc .vmem S1x256 .f32) (harg3 : arg3.IsWhole) (arg4 : Memref sig .tc .vmem S512x4096 .bf16) (harg4 : arg4.IsWhole) (arg5 : Memref sig .tc .vmem S4096x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S4096x256 .f32) (harg8 : arg8.IsWhole) (hc0 : cond1_0 i) (hc1 : ¬cond1_1 i)
    (x0 : Vec F S512x1 .f32) (x1 : Vec F S1x256 .f32) (x2 : Vec F S512x4096 .bf16) : Vec F S4096x256 .f32 :=
  VO1_3.read (Elt F) (VO1_3.writes (Elt F) VO1_3.junk (kernelRun1_A c i arg2 harg2 arg3 harg3 arg4 harg4 arg5 harg5 arg6 harg6 arg7 harg7 arg8 harg8 hc0 hc1 x0 x1 x2).1)
/-- Case A's stores cover running buffer 0. -/
theorem scover1_A_0 (c : Dev nD) (i : grid1.Coords) (arg2 : Memref sig .tc .vmem S512x1 .f32) (harg2 : arg2.IsWhole) (arg3 : Memref sig .tc .vmem S1x256 .f32) (harg3 : arg3.IsWhole) (arg4 : Memref sig .tc .vmem S512x4096 .bf16) (harg4 : arg4.IsWhole) (arg5 : Memref sig .tc .vmem S4096x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S4096x256 .f32) (harg8 : arg8.IsWhole) (hc0 : cond1_0 i) (hc1 : ¬cond1_1 i)
    (x0 : Vec F S512x1 .f32) (x1 : Vec F S1x256 .f32) (x2 : Vec F S512x4096 .bf16) (y : S1x256.Idx) :
    ∃ pc ∈ (kernelRun1_A c i arg2 harg2 arg3 harg3 arg4 harg4 arg5 harg5 arg6 harg6 arg7 harg7 arg8 harg8 hc0 hc1 x0 x1 x2).2.1, y ∈ pc.1.set :=
  View.cover_of_tiledL (kernelRun1_A c i arg2 harg2 arg3 harg3 arg4 harg4 arg5 harg5 arg6 harg6 arg7 harg7 arg8 harg8 hc0 hc1 x0 x1 x2).2.1 S1x256.size (by sl_kernel_rfl) y
/-- What case A leaves in running buffer 0. -/
def sout1_A_0 (c : Dev nD) (i : grid1.Coords) (arg2 : Memref sig .tc .vmem S512x1 .f32) (harg2 : arg2.IsWhole) (arg3 : Memref sig .tc .vmem S1x256 .f32) (harg3 : arg3.IsWhole) (arg4 : Memref sig .tc .vmem S512x4096 .bf16) (harg4 : arg4.IsWhole) (arg5 : Memref sig .tc .vmem S4096x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S4096x256 .f32) (harg8 : arg8.IsWhole) (hc0 : cond1_0 i) (hc1 : ¬cond1_1 i)
    (x0 : Vec F S512x1 .f32) (x1 : Vec F S1x256 .f32) (x2 : Vec F S512x4096 .bf16) : Vec F S1x256 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2).2.1)
/-- Case A's stores cover running buffer 1. -/
theorem scover1_A_1 (c : Dev nD) (i : grid1.Coords) (arg2 : Memref sig .tc .vmem S512x1 .f32) (harg2 : arg2.IsWhole) (arg3 : Memref sig .tc .vmem S1x256 .f32) (harg3 : arg3.IsWhole) (arg4 : Memref sig .tc .vmem S512x4096 .bf16) (harg4 : arg4.IsWhole) (arg5 : Memref sig .tc .vmem S4096x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S4096x256 .f32) (harg8 : arg8.IsWhole) (hc0 : cond1_0 i) (hc1 : ¬cond1_1 i)
    (x0 : Vec F S512x1 .f32) (x1 : Vec F S1x256 .f32) (x2 : Vec F S512x4096 .bf16) (y : S1x256.Idx) :
    ∃ pc ∈ (kernelRun1_A c i arg2 harg2 arg3 harg3 arg4 harg4 arg5 harg5 arg6 harg6 arg7 harg7 arg8 harg8 hc0 hc1 x0 x1 x2).2.2.1, y ∈ pc.1.set :=
  View.cover_of_tiledL (kernelRun1_A c i arg2 harg2 arg3 harg3 arg4 harg4 arg5 harg5 arg6 harg6 arg7 harg7 arg8 harg8 hc0 hc1 x0 x1 x2).2.2.1 S1x256.size (by sl_kernel_rfl) y
/-- What case A leaves in running buffer 1. -/
def sout1_A_1 (c : Dev nD) (i : grid1.Coords) (arg2 : Memref sig .tc .vmem S512x1 .f32) (harg2 : arg2.IsWhole) (arg3 : Memref sig .tc .vmem S1x256 .f32) (harg3 : arg3.IsWhole) (arg4 : Memref sig .tc .vmem S512x4096 .bf16) (harg4 : arg4.IsWhole) (arg5 : Memref sig .tc .vmem S4096x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S4096x256 .f32) (harg8 : arg8.IsWhole) (hc0 : cond1_0 i) (hc1 : ¬cond1_1 i)
    (x0 : Vec F S512x1 .f32) (x1 : Vec F S1x256 .f32) (x2 : Vec F S512x4096 .bf16) : Vec F S1x256 .f32 :=
  VS1_1.read (Elt F) (VS1_1.writes (Elt F) VS1_1.junk (kernelRun1_A c i arg2 harg2 arg3 harg3 arg4 harg4 arg5 harg5 arg6 harg6 arg7 harg7 arg8 harg8 hc0 hc1 x0 x1 x2).2.2.1)
/-- Case A's stores cover running buffer 2. -/
theorem scover1_A_2 (c : Dev nD) (i : grid1.Coords) (arg2 : Memref sig .tc .vmem S512x1 .f32) (harg2 : arg2.IsWhole) (arg3 : Memref sig .tc .vmem S1x256 .f32) (harg3 : arg3.IsWhole) (arg4 : Memref sig .tc .vmem S512x4096 .bf16) (harg4 : arg4.IsWhole) (arg5 : Memref sig .tc .vmem S4096x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S4096x256 .f32) (harg8 : arg8.IsWhole) (hc0 : cond1_0 i) (hc1 : ¬cond1_1 i)
    (x0 : Vec F S512x1 .f32) (x1 : Vec F S1x256 .f32) (x2 : Vec F S512x4096 .bf16) (y : S4096x256.Idx) :
    ∃ pc ∈ (kernelRun1_A c i arg2 harg2 arg3 harg3 arg4 harg4 arg5 harg5 arg6 harg6 arg7 harg7 arg8 harg8 hc0 hc1 x0 x1 x2).2.2.2.1, y ∈ pc.1.set :=
  View.cover_of_tiledL (kernelRun1_A c i arg2 harg2 arg3 harg3 arg4 harg4 arg5 harg5 arg6 harg6 arg7 harg7 arg8 harg8 hc0 hc1 x0 x1 x2).2.2.2.1 S4096x256.size (by sl_kernel_rfl) y
/-- What case A leaves in running buffer 2. -/
def sout1_A_2 (c : Dev nD) (i : grid1.Coords) (arg2 : Memref sig .tc .vmem S512x1 .f32) (harg2 : arg2.IsWhole) (arg3 : Memref sig .tc .vmem S1x256 .f32) (harg3 : arg3.IsWhole) (arg4 : Memref sig .tc .vmem S512x4096 .bf16) (harg4 : arg4.IsWhole) (arg5 : Memref sig .tc .vmem S4096x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S4096x256 .f32) (harg8 : arg8.IsWhole) (hc0 : cond1_0 i) (hc1 : ¬cond1_1 i)
    (x0 : Vec F S512x1 .f32) (x1 : Vec F S1x256 .f32) (x2 : Vec F S512x4096 .bf16) : Vec F S4096x256 .f32 :=
  VS1_2.read (Elt F) (VS1_2.writes (Elt F) VS1_2.junk (kernelRun1_A c i arg2 harg2 arg3 harg3 arg4 harg4 arg5 harg5 arg6 harg6 arg7 harg7 arg8 harg8 hc0 hc1 x0 x1 x2).2.2.2.1)

/-- What case B leaves in the result block's buffer (nothing is stored: a placeholder nothing reads). -/
def out1_B_3 (c : Dev nD) (i : grid1.Coords) (arg2 : Memref sig .tc .vmem S512x1 .f32) (harg2 : arg2.IsWhole) (arg3 : Memref sig .tc .vmem S1x256 .f32) (harg3 : arg3.IsWhole) (arg4 : Memref sig .tc .vmem S512x4096 .bf16) (harg4 : arg4.IsWhole) (arg5 : Memref sig .tc .vmem S4096x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S4096x256 .f32) (harg8 : arg8.IsWhole) (hc0 : ¬cond1_0 i) (hc1 : ¬cond1_1 i)
    (x0 : Vec F S512x1 .f32) (x1 : Vec F S1x256 .f32) (x2 : Vec F S512x4096 .bf16) (xs0 : Vec F S1x256 .f32) (xs1 : Vec F S1x256 .f32) (xs2 : Vec F S4096x256 .f32) : Vec F S4096x256 .f32 :=
  VO1_3.read (Elt F) (VO1_3.writes (Elt F) VO1_3.junk (kernelRun1_B c i arg2 harg2 arg3 harg3 arg4 harg4 arg5 harg5 arg6 harg6 arg7 harg7 arg8 harg8 hc0 hc1 x0 x1 x2 xs0 xs1 xs2).1)
/-- Case B's stores cover running buffer 0. -/
theorem scover1_B_0 (c : Dev nD) (i : grid1.Coords) (arg2 : Memref sig .tc .vmem S512x1 .f32) (harg2 : arg2.IsWhole) (arg3 : Memref sig .tc .vmem S1x256 .f32) (harg3 : arg3.IsWhole) (arg4 : Memref sig .tc .vmem S512x4096 .bf16) (harg4 : arg4.IsWhole) (arg5 : Memref sig .tc .vmem S4096x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S4096x256 .f32) (harg8 : arg8.IsWhole) (hc0 : ¬cond1_0 i) (hc1 : ¬cond1_1 i)
    (x0 : Vec F S512x1 .f32) (x1 : Vec F S1x256 .f32) (x2 : Vec F S512x4096 .bf16) (xs0 : Vec F S1x256 .f32) (xs1 : Vec F S1x256 .f32) (xs2 : Vec F S4096x256 .f32) (y : S1x256.Idx) :
    ∃ pc ∈ (kernelRun1_B c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.1 S1x256.size (by sl_kernel_rfl) y
/-- What case B leaves in running buffer 0. -/
def sout1_B_0 (c : Dev nD) (i : grid1.Coords) (arg2 : Memref sig .tc .vmem S512x1 .f32) (harg2 : arg2.IsWhole) (arg3 : Memref sig .tc .vmem S1x256 .f32) (harg3 : arg3.IsWhole) (arg4 : Memref sig .tc .vmem S512x4096 .bf16) (harg4 : arg4.IsWhole) (arg5 : Memref sig .tc .vmem S4096x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S4096x256 .f32) (harg8 : arg8.IsWhole) (hc0 : ¬cond1_0 i) (hc1 : ¬cond1_1 i)
    (x0 : Vec F S512x1 .f32) (x1 : Vec F S1x256 .f32) (x2 : Vec F S512x4096 .bf16) (xs0 : Vec F S1x256 .f32) (xs1 : Vec F S1x256 .f32) (xs2 : Vec F S4096x256 .f32) : Vec F S1x256 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 xs0 xs1 xs2).2.1)
/-- Case B's stores cover running buffer 1. -/
theorem scover1_B_1 (c : Dev nD) (i : grid1.Coords) (arg2 : Memref sig .tc .vmem S512x1 .f32) (harg2 : arg2.IsWhole) (arg3 : Memref sig .tc .vmem S1x256 .f32) (harg3 : arg3.IsWhole) (arg4 : Memref sig .tc .vmem S512x4096 .bf16) (harg4 : arg4.IsWhole) (arg5 : Memref sig .tc .vmem S4096x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S4096x256 .f32) (harg8 : arg8.IsWhole) (hc0 : ¬cond1_0 i) (hc1 : ¬cond1_1 i)
    (x0 : Vec F S512x1 .f32) (x1 : Vec F S1x256 .f32) (x2 : Vec F S512x4096 .bf16) (xs0 : Vec F S1x256 .f32) (xs1 : Vec F S1x256 .f32) (xs2 : Vec F S4096x256 .f32) (y : S1x256.Idx) :
    ∃ pc ∈ (kernelRun1_B c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.2.1 S1x256.size (by sl_kernel_rfl) y
/-- What case B leaves in running buffer 1. -/
def sout1_B_1 (c : Dev nD) (i : grid1.Coords) (arg2 : Memref sig .tc .vmem S512x1 .f32) (harg2 : arg2.IsWhole) (arg3 : Memref sig .tc .vmem S1x256 .f32) (harg3 : arg3.IsWhole) (arg4 : Memref sig .tc .vmem S512x4096 .bf16) (harg4 : arg4.IsWhole) (arg5 : Memref sig .tc .vmem S4096x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S4096x256 .f32) (harg8 : arg8.IsWhole) (hc0 : ¬cond1_0 i) (hc1 : ¬cond1_1 i)
    (x0 : Vec F S512x1 .f32) (x1 : Vec F S1x256 .f32) (x2 : Vec F S512x4096 .bf16) (xs0 : Vec F S1x256 .f32) (xs1 : Vec F S1x256 .f32) (xs2 : Vec F S4096x256 .f32) : Vec F S1x256 .f32 :=
  VS1_1.read (Elt F) (VS1_1.writes (Elt F) VS1_1.junk (kernelRun1_B c i arg2 harg2 arg3 harg3 arg4 harg4 arg5 harg5 arg6 harg6 arg7 harg7 arg8 harg8 hc0 hc1 x0 x1 x2 xs0 xs1 xs2).2.2.1)
/-- Case B's stores cover running buffer 2. -/
theorem scover1_B_2 (c : Dev nD) (i : grid1.Coords) (arg2 : Memref sig .tc .vmem S512x1 .f32) (harg2 : arg2.IsWhole) (arg3 : Memref sig .tc .vmem S1x256 .f32) (harg3 : arg3.IsWhole) (arg4 : Memref sig .tc .vmem S512x4096 .bf16) (harg4 : arg4.IsWhole) (arg5 : Memref sig .tc .vmem S4096x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S4096x256 .f32) (harg8 : arg8.IsWhole) (hc0 : ¬cond1_0 i) (hc1 : ¬cond1_1 i)
    (x0 : Vec F S512x1 .f32) (x1 : Vec F S1x256 .f32) (x2 : Vec F S512x4096 .bf16) (xs0 : Vec F S1x256 .f32) (xs1 : Vec F S1x256 .f32) (xs2 : Vec F S4096x256 .f32) (y : S4096x256.Idx) :
    ∃ pc ∈ (kernelRun1_B c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.2.2.1 S4096x256.size (by sl_kernel_rfl) y
/-- What case B leaves in running buffer 2. -/
def sout1_B_2 (c : Dev nD) (i : grid1.Coords) (arg2 : Memref sig .tc .vmem S512x1 .f32) (harg2 : arg2.IsWhole) (arg3 : Memref sig .tc .vmem S1x256 .f32) (harg3 : arg3.IsWhole) (arg4 : Memref sig .tc .vmem S512x4096 .bf16) (harg4 : arg4.IsWhole) (arg5 : Memref sig .tc .vmem S4096x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S4096x256 .f32) (harg8 : arg8.IsWhole) (hc0 : ¬cond1_0 i) (hc1 : ¬cond1_1 i)
    (x0 : Vec F S512x1 .f32) (x1 : Vec F S1x256 .f32) (x2 : Vec F S512x4096 .bf16) (xs0 : Vec F S1x256 .f32) (xs1 : Vec F S1x256 .f32) (xs2 : Vec F S4096x256 .f32) : Vec F S4096x256 .f32 :=
  VS1_2.read (Elt F) (VS1_2.writes (Elt F) VS1_2.junk (kernelRun1_B c i arg2 harg2 arg3 harg3 arg4 harg4 arg5 harg5 arg6 harg6 arg7 harg7 arg8 harg8 hc0 hc1 x0 x1 x2 xs0 xs1 xs2).2.2.2.1)

/-- The one store at j = 7 covers the result block. -/
theorem cover1_C_3 (c : Dev nD) (i : grid1.Coords) (arg2 : Memref sig .tc .vmem S512x1 .f32) (harg2 : arg2.IsWhole) (arg3 : Memref sig .tc .vmem S1x256 .f32) (harg3 : arg3.IsWhole) (arg4 : Memref sig .tc .vmem S512x4096 .bf16) (harg4 : arg4.IsWhole) (arg5 : Memref sig .tc .vmem S4096x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S4096x256 .f32) (harg8 : arg8.IsWhole) (hc0 : ¬cond1_0 i) (hc1 : cond1_1 i)
    (x0 : Vec F S512x1 .f32) (x1 : Vec F S1x256 .f32) (x2 : Vec F S512x4096 .bf16) (xs0 : Vec F S1x256 .f32) (xs1 : Vec F S1x256 .f32) (xs2 : Vec F S4096x256 .f32) (y : S4096x256.Idx) :
    ∃ pc ∈ (kernelRun1_C c i arg2 harg2 arg3 harg3 arg4 harg4 arg5 harg5 arg6 harg6 arg7 harg7 arg8 harg8 hc0 hc1 x0 x1 x2 xs0 xs1 xs2).1, y ∈ pc.1.set :=
  View.cover_of_tiledL (kernelRun1_C c i arg2 harg2 arg3 harg3 arg4 harg4 arg5 harg5 arg6 harg6 arg7 harg7 arg8 harg8 hc0 hc1 x0 x1 x2 xs0 xs1 xs2).1 S4096x256.size (by sl_kernel_rfl) y
/-- What case C leaves in the result block's buffer. -/
def out1_C_3 (c : Dev nD) (i : grid1.Coords) (arg2 : Memref sig .tc .vmem S512x1 .f32) (harg2 : arg2.IsWhole) (arg3 : Memref sig .tc .vmem S1x256 .f32) (harg3 : arg3.IsWhole) (arg4 : Memref sig .tc .vmem S512x4096 .bf16) (harg4 : arg4.IsWhole) (arg5 : Memref sig .tc .vmem S4096x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S4096x256 .f32) (harg8 : arg8.IsWhole) (hc0 : ¬cond1_0 i) (hc1 : cond1_1 i)
    (x0 : Vec F S512x1 .f32) (x1 : Vec F S1x256 .f32) (x2 : Vec F S512x4096 .bf16) (xs0 : Vec F S1x256 .f32) (xs1 : Vec F S1x256 .f32) (xs2 : Vec F S4096x256 .f32) : Vec F S4096x256 .f32 :=
  VO1_3.read (Elt F) (VO1_3.writes (Elt F) VO1_3.junk (kernelRun1_C c i arg2 harg2 arg3 harg3 arg4 harg4 arg5 harg5 arg6 harg6 arg7 harg7 arg8 harg8 hc0 hc1 x0 x1 x2 xs0 xs1 xs2).1)
/-- Case C's stores cover running buffer 0. -/
theorem scover1_C_0 (c : Dev nD) (i : grid1.Coords) (arg2 : Memref sig .tc .vmem S512x1 .f32) (harg2 : arg2.IsWhole) (arg3 : Memref sig .tc .vmem S1x256 .f32) (harg3 : arg3.IsWhole) (arg4 : Memref sig .tc .vmem S512x4096 .bf16) (harg4 : arg4.IsWhole) (arg5 : Memref sig .tc .vmem S4096x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S4096x256 .f32) (harg8 : arg8.IsWhole) (hc0 : ¬cond1_0 i) (hc1 : cond1_1 i)
    (x0 : Vec F S512x1 .f32) (x1 : Vec F S1x256 .f32) (x2 : Vec F S512x4096 .bf16) (xs0 : Vec F S1x256 .f32) (xs1 : Vec F S1x256 .f32) (xs2 : Vec F S4096x256 .f32) (y : S1x256.Idx) :
    ∃ pc ∈ (kernelRun1_C c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.1 S1x256.size (by sl_kernel_rfl) y
/-- What case C leaves in running buffer 0. -/
def sout1_C_0 (c : Dev nD) (i : grid1.Coords) (arg2 : Memref sig .tc .vmem S512x1 .f32) (harg2 : arg2.IsWhole) (arg3 : Memref sig .tc .vmem S1x256 .f32) (harg3 : arg3.IsWhole) (arg4 : Memref sig .tc .vmem S512x4096 .bf16) (harg4 : arg4.IsWhole) (arg5 : Memref sig .tc .vmem S4096x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S4096x256 .f32) (harg8 : arg8.IsWhole) (hc0 : ¬cond1_0 i) (hc1 : cond1_1 i)
    (x0 : Vec F S512x1 .f32) (x1 : Vec F S1x256 .f32) (x2 : Vec F S512x4096 .bf16) (xs0 : Vec F S1x256 .f32) (xs1 : Vec F S1x256 .f32) (xs2 : Vec F S4096x256 .f32) : Vec F S1x256 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 xs0 xs1 xs2).2.1)
/-- Case C's stores cover running buffer 1. -/
theorem scover1_C_1 (c : Dev nD) (i : grid1.Coords) (arg2 : Memref sig .tc .vmem S512x1 .f32) (harg2 : arg2.IsWhole) (arg3 : Memref sig .tc .vmem S1x256 .f32) (harg3 : arg3.IsWhole) (arg4 : Memref sig .tc .vmem S512x4096 .bf16) (harg4 : arg4.IsWhole) (arg5 : Memref sig .tc .vmem S4096x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S4096x256 .f32) (harg8 : arg8.IsWhole) (hc0 : ¬cond1_0 i) (hc1 : cond1_1 i)
    (x0 : Vec F S512x1 .f32) (x1 : Vec F S1x256 .f32) (x2 : Vec F S512x4096 .bf16) (xs0 : Vec F S1x256 .f32) (xs1 : Vec F S1x256 .f32) (xs2 : Vec F S4096x256 .f32) (y : S1x256.Idx) :
    ∃ pc ∈ (kernelRun1_C c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.1 S1x256.size (by sl_kernel_rfl) y
/-- What case C leaves in running buffer 1. -/
def sout1_C_1 (c : Dev nD) (i : grid1.Coords) (arg2 : Memref sig .tc .vmem S512x1 .f32) (harg2 : arg2.IsWhole) (arg3 : Memref sig .tc .vmem S1x256 .f32) (harg3 : arg3.IsWhole) (arg4 : Memref sig .tc .vmem S512x4096 .bf16) (harg4 : arg4.IsWhole) (arg5 : Memref sig .tc .vmem S4096x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S4096x256 .f32) (harg8 : arg8.IsWhole) (hc0 : ¬cond1_0 i) (hc1 : cond1_1 i)
    (x0 : Vec F S512x1 .f32) (x1 : Vec F S1x256 .f32) (x2 : Vec F S512x4096 .bf16) (xs0 : Vec F S1x256 .f32) (xs1 : Vec F S1x256 .f32) (xs2 : Vec F S4096x256 .f32) : Vec F S1x256 .f32 :=
  VS1_1.read (Elt F) (VS1_1.writes (Elt F) VS1_1.junk (kernelRun1_C c i arg2 harg2 arg3 harg3 arg4 harg4 arg5 harg5 arg6 harg6 arg7 harg7 arg8 harg8 hc0 hc1 x0 x1 x2 xs0 xs1 xs2).2.2.1)
/-- Case C's stores cover running buffer 2. -/
theorem scover1_C_2 (c : Dev nD) (i : grid1.Coords) (arg2 : Memref sig .tc .vmem S512x1 .f32) (harg2 : arg2.IsWhole) (arg3 : Memref sig .tc .vmem S1x256 .f32) (harg3 : arg3.IsWhole) (arg4 : Memref sig .tc .vmem S512x4096 .bf16) (harg4 : arg4.IsWhole) (arg5 : Memref sig .tc .vmem S4096x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S4096x256 .f32) (harg8 : arg8.IsWhole) (hc0 : ¬cond1_0 i) (hc1 : cond1_1 i)
    (x0 : Vec F S512x1 .f32) (x1 : Vec F S1x256 .f32) (x2 : Vec F S512x4096 .bf16) (xs0 : Vec F S1x256 .f32) (xs1 : Vec F S1x256 .f32) (xs2 : Vec F S4096x256 .f32) (y : S4096x256.Idx) :
    ∃ pc ∈ (kernelRun1_C c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.2.1 S4096x256.size (by sl_kernel_rfl) y
/-- What case C leaves in running buffer 2. -/
def sout1_C_2 (c : Dev nD) (i : grid1.Coords) (arg2 : Memref sig .tc .vmem S512x1 .f32) (harg2 : arg2.IsWhole) (arg3 : Memref sig .tc .vmem S1x256 .f32) (harg3 : arg3.IsWhole) (arg4 : Memref sig .tc .vmem S512x4096 .bf16) (harg4 : arg4.IsWhole) (arg5 : Memref sig .tc .vmem S4096x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S4096x256 .f32) (harg8 : arg8.IsWhole) (hc0 : ¬cond1_0 i) (hc1 : cond1_1 i)
    (x0 : Vec F S512x1 .f32) (x1 : Vec F S1x256 .f32) (x2 : Vec F S512x4096 .bf16) (xs0 : Vec F S1x256 .f32) (xs1 : Vec F S1x256 .f32) (xs2 : Vec F S4096x256 .f32) : Vec F S4096x256 .f32 :=
  VS1_2.read (Elt F) (VS1_2.writes (Elt F) VS1_2.junk (kernelRun1_C c i arg2 harg2 arg3 harg3 arg4 harg4 arg5 harg5 arg6 harg6 arg7 harg7 arg8 harg8 hc0 hc1 x0 x1 x2 xs0 xs1 xs2).2.2.2.1)

section
variable (V : (c : Dev nD) → (b : Ref sig .tc) → Buf (Elt F) ((c : Thread nD τ).loc b))

/-! ## Point by point -/

/-- What the result block's buffer and the three running buffers hold after the body at position `n` of the grid's walk. -/
def outsAt1 (c : Dev nD) : (n : ℕ) → n < cfg1.N → Vec F S4096x256 .f32 × Vec F S1x256 .f32 × Vec F S1x256 .f32 × Vec F S4096x256 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩),
          sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩),
          sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩),
          sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩),
          sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩),
          sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩),
          sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2,
          sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2,
          sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2,
          sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2,
          sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2,
          sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2,
          sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)

theorem outsAt1_A (c : Dev nD) (t : Fin cfg1.N) (h0 : t.val % 8 = 0) (h1 : ¬t.val % 8 = 7) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t),
          sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t),
          sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t),
          sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
          sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
          sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
          sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
          sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
          sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
          sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The launch's invariant before position `n`: before the first point every scoped buffer at anything; afterwards
    the three running buffers at what the point before left in them. -/
def PhiS1 (c : Dev nD) : (n : ℕ) → n ≤ cfg1.N → sProp 𝕄
  | 0, _ => Pipeline.ΦA spec1 c
  | n + 1, hn => iprop(iprop(anyAt c cc0_stg0_0 ∗ anyAt c cc0_stg0_1 ∗ anyAt c cc0_stg1_0 ∗ anyAt c cc0_stg1_1 ∗ anyAt c cc0_stg2_0 ∗ anyAt c cc0_stg2_1 ∗ anyAt c cc0_scratch0
      ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(anyAt c cc0_stg0_0 ∗ anyAt c cc0_stg0_1 ∗ anyAt c cc0_stg1_0 ∗ anyAt c cc0_stg1_1 ∗ anyAt c cc0_stg2_0 ∗ anyAt c cc0_stg2_1 ∗ anyAt c cc0_scratch0
      ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r)) := rfl
theorem PhiS1_pos (c : Dev nD) (n : ℕ) (h : n ≤ cfg1.N) (hz : n ≠ 0) :
    PhiS1 V c n h = iprop(iprop(anyAt c cc0_stg0_0 ∗ anyAt c cc0_stg0_1 ∗ anyAt c cc0_stg1_0 ∗ anyAt c cc0_stg1_1 ∗ anyAt c cc0_stg2_0 ∗ anyAt c cc0_stg2_1 ∗ anyAt c cc0_scratch0
      ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)) ∗ (∃ r, prngReg c r)) := by
  cases n with
  | zero => exact absurd rfl hz
  | succ n => rfl

/-! ## The proof data -/

def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body's triple at every point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 8 = 0
  · have h1 : ¬t.val % 8 = 7 := by omega
    rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
    rw [outsAt1_A V c t h0 h1]
    unfold sout1_A_0 sout1_A_1 sout1_A_2; (try dsimp only)
    by_cases hz : t.val = 0
    · rw [PhiS1_castSucc V c t, PhiS1_zero V c _ _ hz, PhiA1_eq]
      iintro ⟨⟨⟨HR0, HR1, HR2, HR3, HR4, HR5, HR6, HS0, HS1, HS2⟩, Hg⟩, Ho, ⟨%d0, H0⟩, ⟨%d1, H1⟩, ⟨%d2, H2⟩, ⟨%d3, H3⟩⟩
      iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HR0 HR1 HR2 HR3 HR4 HR5 HR6 HS0 HS1 HS2 Hg]
      · isplitl [HR0 HR1 HR2 HR3 HR4 HR5 HR6 HS0 HS1 HS2]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HS0]
          · unfold owns; iexists _; isplitr
            swap; · iexact HS0
            ipureintro; exact View.read_writes_of_cover _ _ _ _ _ (scover1_A_0 c _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _)
          unfold owns; iexists _; isplitr
          swap; · iexact HS2
          ipureintro; exact View.read_writes_of_cover _ _ _ _ _ (scover1_A_2 c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HR0, HR1, HR2, HR3, HR4, HR5, HR6, HS0, HS1, HS2⟩, Hg⟩, Ho, ⟨%d0, H0⟩, ⟨%d1, H1⟩, ⟨%d2, H2⟩, ⟨%d3, H3⟩⟩
      iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [HR0 HR1 HR2 HR3 HR4 HR5 HR6 HS0 HS1 HS2 Hg]
      · isplitl [HR0 HR1 HR2 HR3 HR4 HR5 HR6 HS0 HS1 HS2]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HS0]
          · unfold owns; iexists _; isplitr
            swap; · iexact HS0
            ipureintro; exact View.read_writes_of_cover _ _ _ _ _ (scover1_A_0 c _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _)
          unfold owns; iexists _; isplitr
          swap; · iexact HS2
          ipureintro; exact View.read_writes_of_cover _ _ _ _ _ (scover1_A_2 c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := by omega
    by_cases h1 : t.val % 8 = 7
    · rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0 sout1_C_1 sout1_C_2; (try dsimp only)
      rw [PhiS1_castSucc V c t, PhiS1_pos V c _ _ hz]
      iintro ⟨⟨⟨HR0, HR1, HR2, HR3, HR4, HR5, HR6, HS0, HS1, HS2⟩, Hg⟩, Ho, ⟨%d0, H0⟩, ⟨%d1, H1⟩, ⟨%d2, H2⟩, ⟨%d3, H3⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [HR0 HR1 HR2 HR3 HR4 HR5 HR6 HS0 HS1 HS2 Hg]
      · isplitl [HR0 HR1 HR2 HR3 HR4 HR5 HR6 HS0 HS1 HS2]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _ _ _ _ _ _ _ _)
          unfold owns; iexists _; isplitr
          swap; · iexact HS2
          ipureintro; exact View.read_writes_of_cover _ _ _ _ _ (scover1_C_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _ _ _ _ _ _ _)
    · rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0 sout1_B_1 sout1_B_2; (try dsimp only)
      rw [PhiS1_castSucc V c t, PhiS1_pos V c _ _ hz]
      iintro ⟨⟨⟨HR0, HR1, HR2, HR3, HR4, HR5, HR6, HS0, HS1, HS2⟩, Hg⟩, Ho, ⟨%d0, H0⟩, ⟨%d1, H1⟩, ⟨%d2, H2⟩, ⟨%d3, H3⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HR0 HR1 HR2 HR3 HR4 HR5 HR6 HS0 HS1 HS2 Hg]
      · isplitl [HR0 HR1 HR2 HR3 HR4 HR5 HR6 HS0 HS1 HS2]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _)
          unfold owns; iexists _; isplitr
          swap; · iexact HS2
          ipureintro; exact View.read_writes_of_cover _ _ _ _ _ (scover1_B_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-- After any point the invariant gives the launch's own back: the running buffers' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR0, HR1, HR2, HR3, HR4, HR5, HR6, HS0, HS1, HS2⟩, Hg⟩
  isplitl [HR0 HR1 HR2 HR3 HR4 HR5 HR6 HS0 HS1 HS2]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HS0]; · iexists _; iexact HS0
    isplitl [HS1]; · iexists _; iexact HS1
    iexists _; iexact HS2
  iexact Hg

theorem Phi_last1 (c : Dev nD) : (dat1 V c).Φ (Fin.last cfg1.N) ⊢ Pipeline.ΦA spec1 c :=
  Phi_out1 V c _ (by rw [Fin.val_last]; have : cfg1.N = 128 := N_1; omega)

end

end Cert.KernelIdeal.Hand

end
-- ==== Proof.HandKernelIdeal.Run.lean ====
/-
  The whole program, from the launch to the return: two host operations, the matrix-product launch, eight host
  operations, the attention launch. The contents of every unscoped buffer are followed through the four stretches
  (a host stretch applies its operations; a launch replaces its windows' arrays by what its write-backs leave and
  keeps every other buffer). Every weakly fair execution terminates, and every final memory holds every unscoped
  buffer at the last of these contents: so the argument arrays end as launched, and the result array ends at what the
  attention launch's write-backs leave.
-/
import proofs.«152758_j53506702573897_2_alg».proof.Proof.HandKernelIdeal.R0Frame
import proofs.«152758_j53506702573897_2_alg».proof.Proof.HandKernelIdeal.R1Frame
import proofs.«152758_j53506702573897_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers' contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## No stretch writes an argument array -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (r := main_arg0) (by decide)
    _ = W1 m ρ c (Proc.devRef .tc main_arg0) := W2_of_ne m ρ c main_arg0 (by decide)
    _ = W0 m ρ c (Proc.devRef .tc main_arg0) := StableHlo.after_of_writes_sub hostOps0 _ hostOps0_writes (r := main_arg0) (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (r := main_arg1) (by decide)
    _ = W1 m ρ c (Proc.devRef .tc main_arg1) := W2_of_ne m ρ c main_arg1 (by decide)
    _ = W0 m ρ c (Proc.devRef .tc main_arg1) := StableHlo.after_of_writes_sub hostOps0 _ hostOps0_writes (r := main_arg1) (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (r := main_arg2) (by decide)
    _ = W1 m ρ c (Proc.devRef .tc main_arg2) := W2_of_ne m ρ c main_arg2 (by decide)
    _ = W0 m ρ c (Proc.devRef .tc main_arg2) := StableHlo.after_of_writes_sub hostOps0 _ hostOps0_writes (r := main_arg2) (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (r := main_arg3) (by decide)
    _ = W1 m ρ c (Proc.devRef .tc main_arg3) := W2_of_ne m ρ c main_arg3 (by decide)
    _ = W0 m ρ c (Proc.devRef .tc main_arg3) := StableHlo.after_of_writes_sub hostOps0 _ hostOps0_writes (r := main_arg3) (by decide)
    _ = m ((c : Thread nD τ).loc main_arg3) := rfl

/-! ## The proof data family and the thread state -/

abbrev adm : (p : Fin 2) → (pcfgs (F := F) p).Adm := fun p => (cfgs p).toPCfg_adm
def pdats : (p : Fin 2) → (c : Dev nD) → Dat τ (Elt F) Unit ℕ (Pipeline.UD sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every stretch: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The launches as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from Phi_last0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from Phi_last1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- Every weakly fair execution of the program from memory `m` with zero counters terminates, nothing faulting, and
    every final memory holds each unscoped buffer at the contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

/-- The run with its result named: the result array ends at what the attention launch's write-backs leave. -/
theorem run_value : θ_run defs (onTc (τ := τ) (main (F := F))) ⟨m, fun _ => 0, ρ⟩ (fun r => ∀ c : Dev nD,
      r.2.mem ((c.tc : Thread nD τ).loc main_v11) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v11 (by decide))).trans (W4_arr m ρ c 3),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

end Cert.KernelIdeal.Hand

end
-- ==== Proof.Spec.lean ====
/-
  The mathematics of the two programs, as functions on matrices of extended reals.

  A graph-attention layer: from node features h (one row per node), a weight matrix W and an attention vector a
  (two halves a1, a2), with Wh = W hᵀ, s1 = Wh a1 and s2 = Wh a2, the score of key j for query i is the leaky
  rectifier of s1 j + s2 i; query i's weights are the softmax of its scores over the keys; the layer's output at
  (n, i) is the exponential-linear unit of the weighted sum over the keys j of Wh (j, n).
-/
import Idealize.ShloMosaic.PureOps.Ideal
import Idealize.ShloMosaic.Lib.ValueIdx

noncomputable section

namespace Cert.Spec

open Idealize.ShloMosaic Idealize.ShloMosaic.ValueIdx
open scoped BigOperators

/-- An a × b matrix of extended reals, indexed by its two coordinates. -/
abbrev Mat (a b : Nat) : Type := (⟨2, ![a, b]⟩ : Shape).Idx → EReal

/-- The product W hᵀ: entry (f, n) is the sum over k of W (f, k) · h (n, k). -/
def whT (W h : Mat 4096 4096) : Mat 4096 4096 :=
  fun i => ∑ k : Fin 4096, W (ix2 (i 0) k) * h (ix2 (i 1) k)

/-- The leaky rectifier: x where x ≥ 0, the slope word times x elsewhere. -/
def lrelu (x : EReal) : EReal :=
  Scalar.select (FloatOps.cmpf (F := Ideal) (φ := .f32) .oge x (Ideal.ofBits .f32 0x00000000#32)) x (Ideal.ofBits .f32 0x3E4CCCCD#32 * x)

/-- The exponential-linear unit: x where x > 0, exp x − 1 elsewhere. -/
def elu (x : EReal) : EReal :=
  Scalar.select (FloatOps.cmpf (F := Ideal) (φ := .f32) .ogt x (Ideal.ofBits .f32 0x00000000#32)) x (Ideal.exp x - Ideal.ofBits .f32 0x3F800000#32)

/-- The score of key j for query i, from the column s1 and the row s2. -/
def score (x : Mat 4096 1) (y : Mat 1 4096) (j i : Fin 4096) : EReal :=
  lrelu (x (ix2 j 0) + y (ix2 0 i))

/-- Query i's largest score, as the fold of max from −∞ over the keys. -/
def colMax (x : Mat 4096 1) (y : Mat 1 4096) (i : Fin 4096) : EReal :=
  (Finset.univ : Finset (Fin 4096)).fold max ⊥ (fun j => score x y j i)

/-- The attention output from the column s1, the row s2 and the values v: at (n, i) the exponential-linear unit of
    (Σ_j v (j, n) · exp (score j i − max_i)) / (Σ_j exp (score j i − max_i)). -/
def attnOut (x : Mat 4096 1) (y : Mat 1 4096) (v : Mat 4096 4096) : Mat 4096 4096 :=
  fun o => elu (Ideal.div (∑ j : Fin 4096, v (ix2 j (o 0)) * Ideal.exp (score x y j (o 1) - colMax x y (o 1)))
    (∑ j : Fin 4096, Ideal.exp (score x y j (o 1) - colMax x y (o 1))))

/-- The first and second half of the attention vector. -/
def a1 (a : Mat 8192 1) (n : Fin 4096) : EReal := a (ix2 ⟨n.val, by omega⟩ 0)
def a2 (a : Mat 8192 1) (n : Fin 4096) : EReal := a (ix2 ⟨4096 + n.val, by omega⟩ 0)

/-- The reference's s1 and s2: Wh times each half of a. -/
def refS1 (h W : Mat 4096 4096) (a : Mat 8192 1) (j : Fin 4096) : EReal := ∑ n : Fin 4096, whT W h (ix2 j n) * a1 a n
def refS2 (h W : Mat 4096 4096) (a : Mat 8192 1) (j : Fin 4096) : EReal := ∑ n : Fin 4096, whT W h (ix2 j n) * a2 a n

/-- The reference's scores for query r: the leaky rectifier of s1 c + s2 r over the keys c, and their fold of max. -/
def refScore (h W : Mat 4096 4096) (a : Mat 8192 1) (r c : Fin 4096) : EReal := lrelu (refS1 h W a c + refS2 h W a r)
def refMax (h W : Mat 4096 4096) (a : Mat 8192 1) (r : Fin 4096) : EReal :=
  (Finset.univ : Finset (Fin 4096)).fold max ⊥ (fun c => refScore h W a r c)

/-- The reference's output: at (n, r) the exponential-linear unit of the softmax-weighted sum over the keys c of
    Wh (c, n), each weight a quotient exp (score − max) / Σ exp (score − max). -/
def refOut (h W : Mat 4096 4096) (a : Mat 8192 1) : Mat 4096 4096 :=
  fun o => elu (∑ c : Fin 4096,
    Ideal.div (Ideal.exp (refScore h W a (o 1) c - refMax h W a (o 1)))
      (∑ c' : Fin 4096, Ideal.exp (refScore h W a (o 1) c' - refMax h W a (o 1))) * whT W h (ix2 c (o 0)))

end Cert.Spec

end
-- ==== Proof.Glue.lean ====
/-
  The host operations around the two launches, read at an index (everything at the exact instance).
  Before the first launch the two operands are the inputs W and h rounded, which changes nothing here. Between the
  launches the host forms the two score vectors at once: the two halves of a side by side as a 4096 × 2 matrix A, then
  hᵀ A, then W (hᵀ A); column 0 is handed to the attention launch as a column, column 1, transposed, as a row. So the
  column's entry j is Σ_k W (j, k) · Σ_n h (n, k) · a1 n, and the row's entry i the same with a2.
-/
import proofs.«152758_j53506702573897_2_alg».proof.Proof.HandKernelIdeal.Run
import proofs.«152758_j53506702573897_2_alg».proof.Proof.Spec
import Idealize.ShloMosaic.Lib.StableHlo.Run
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx
open scoped BigOperators

/-! ## The two host products at an index -/

/-- The product contracting the rows of both operands: entry (k, q) is Σ_n l (n, k) · r (n, q). -/
theorem dotRows_apply (l : FVec Ideal S4096x4096 .f32) (r : FVec Ideal S4096x2 .f32) (k : Fin 4096) (q : Fin 2) :
    Host.dotGeneral (F := Ideal) dot_S4096x4096_S4096x2_S4096x2_0_0_1_1_n_n none l r (ix2 k q) = ∑ n : Fin 4096, l (ix2 n k) * r (ix2 n q) := by
  simp only [Host.dotGeneral]
  rw [Ideal.dotGeneral_apply, ← Equiv.sum_comp (contrEquiv1 dot_S4096x4096_S4096x2_S4096x2_0_0_1_1_n_n 4096 rfl rfl).symm]
  refine Finset.sum_congr rfl fun n _ => ?_
  congr 1
  · refine congrArg l (funext fun a => Fin.ext ?_)
    match a with
    | ⟨0, _⟩ => exact (DotDims.lhsIdx_val_of_single (d := dot_S4096x4096_S4096x2_S4096x2_0_0_1_1_n_n) (cl := 0) rfl _ _).trans (contrEquiv1_symm_val _ 4096 rfl rfl n)
    | ⟨1, _⟩ => rfl
  · refine congrArg r (funext fun a => Fin.ext ?_)
    match a with
    | ⟨0, _⟩ => exact (DotDims.rhsIdx_val_of_single (d := dot_S4096x4096_S4096x2_S4096x2_0_0_1_1_n_n) (cr := 0) rfl _ _).trans (contrEquiv1_symm_val _ 4096 rfl rfl n)
    | ⟨1, _⟩ => rfl

/-- The plain product: entry (j, q) is Σ_k l (j, k) · r (k, q). -/
theorem dotPlain_apply (l : FVec Ideal S4096x4096 .f32) (r : FVec Ideal S4096x2 .f32) (j : Fin 4096) (q : Fin 2) :
    Host.dotGeneral (F := Ideal) dot_S4096x4096_S4096x2_S4096x2_1_0_0_1_n_n none l r (ix2 j q) = ∑ k : Fin 4096, l (ix2 j k) * r (ix2 k q) := by
  simp only [Host.dotGeneral]
  rw [Ideal.dotGeneral_apply, ← Equiv.sum_comp (contrEquiv1 dot_S4096x4096_S4096x2_S4096x2_1_0_0_1_n_n 4096 rfl rfl).symm]
  refine Finset.sum_congr rfl fun n _ => ?_
  congr 1
  · refine congrArg l (funext fun a => Fin.ext ?_)
    match a with
    | ⟨0, _⟩ => rfl
    | ⟨1, _⟩ => exact (DotDims.lhsIdx_val_of_single (d := dot_S4096x4096_S4096x2_S4096x2_1_0_0_1_n_n) (cl := 1) rfl _ _).trans (contrEquiv1_symm_val _ 4096 rfl rfl n)
  · refine congrArg r (funext fun a => Fin.ext ?_)
    match a with
    | ⟨0, _⟩ => exact (DotDims.rhsIdx_val_of_single (d := dot_S4096x4096_S4096x2_S4096x2_1_0_0_1_n_n) (cr := 0) rfl _ _).trans (contrEquiv1_symm_val _ 4096 rfl rfl n)
    | ⟨1, _⟩ => rfl

/-! ## The two halves of a, side by side -/

/-- The 4096 × 2 matrix whose columns are the two halves of the attention vector. -/
def halves (a : FVec Ideal S8192x1 .f32) : FVec Ideal S4096x2 .f32 :=
  concatenate S4096x2 1
    [⟨S4096x1, extractStridedSlice S4096x1 ![0, 0] a slices_S8192x1_S4096x1_0_0⟩,
     ⟨S4096x1, extractStridedSlice S4096x1 ![4096, 0] a slices_S8192x1_S4096x1_4096_0⟩]
    concatenates_S4096x1_S4096x1_S4096x2_d1

theorem halves_col0 (a : FVec Ideal S8192x1 .f32) (n : Fin 4096) : halves a (ix2 n 0) = Cert.Spec.a1 a n := by
  unfold halves
  refine (concatenate_pair_apply_left (t := S4096x2) (s₁ := S4096x1) (s₂ := S4096x1) 1 _ _ concatenates_S4096x1_S4096x1_S4096x2_d1
    (ix2 n 0) rfl (ix2 n 0) (fun b => match b with | ⟨0, _⟩ => rfl | ⟨1, _⟩ => rfl)).trans ?_
  exact extractStridedSlice_apply (s := S8192x1) (t := S4096x1) _ a _ (ix2 n 0) (ix2 (⟨n.val, by omega⟩ : Fin 8192) 0)
    (fun b => match b with | ⟨0, _⟩ => (Nat.zero_add _).symm | ⟨1, _⟩ => rfl)

theorem halves_col1 (a : FVec Ideal S8192x1 .f32) (n : Fin 4096) : halves a (ix2 n 1) = Cert.Spec.a2 a n := by
  unfold halves
  refine (concatenate_pair_apply_right (t := S4096x2) (s₁ := S4096x1) (s₂ := S4096x1) 1 _ _ concatenates_S4096x1_S4096x1_S4096x2_d1
    (ix2 n 1) rfl rfl (ix2 n 0) (fun b hb => match b, hb with | ⟨0, _⟩, _ => rfl | ⟨1, _⟩, hb => absurd rfl hb) rfl).trans ?_
  exact extractStridedSlice_apply (s := S8192x1) (t := S4096x1) _ a _ (ix2 n 0) (ix2 (⟨4096 + n.val, by omega⟩ : Fin 8192) 0)
    (fun b => match b with | ⟨0, _⟩ => rfl | ⟨1, _⟩ => rfl)

/-! ## The score matrix the host forms -/

/-- W (hᵀ A), A the two halves of a side by side. -/
def hostS (h W : FVec Ideal S4096x4096 .f32) (a : FVec Ideal S8192x1 .f32) : FVec Ideal S4096x2 .f32 :=
  Host.dotGeneral (F := Ideal) dot_S4096x4096_S4096x2_S4096x2_1_0_0_1_n_n none W (Host.dotGeneral (F := Ideal) dot_S4096x4096_S4096x2_S4096x2_0_0_1_1_n_n none h (halves a))

theorem hostS_col0 (h W : FVec Ideal S4096x4096 .f32) (a : FVec Ideal S8192x1 .f32) (j : Fin 4096) :
    hostS h W a (ix2 j 0) = ∑ k : Fin 4096, W (ix2 j k) * ∑ n : Fin 4096, h (ix2 n k) * Cert.Spec.a1 a n := by
  unfold hostS
  rw [dotPlain_apply]
  refine Finset.sum_congr rfl fun k _ => ?_
  rw [dotRows_apply]
  simp only [halves_col0]

theorem hostS_col1 (h W : FVec Ideal S4096x4096 .f32) (a : FVec Ideal S8192x1 .f32) (j : Fin 4096) :
    hostS h W a (ix2 j 1) = ∑ k : Fin 4096, W (ix2 j k) * ∑ n : Fin 4096, h (ix2 n k) * Cert.Spec.a2 a n := by
  unfold hostS
  rw [dotPlain_apply]
  refine Finset.sum_congr rfl fun k _ => ?_
  rw [dotRows_apply]
  simp only [halves_col1]

/-! ## The buffers the launches are entered with -/

variable (m : (ℓ : Loc nD τ sig) → Buf (Elt Ideal) ℓ) (ρ : Dev nD → PrngReg)

/-- The three float inputs on core `c`, as matrices: the node features h, the weights W, the attention vector a. -/
abbrev argH (c : Dev nD) : FVec Ideal S4096x4096 .f32 := m ((c.tc : Thread nD τ).loc main_arg0)
abbrev argW (c : Dev nD) : FVec Ideal S4096x4096 .f32 := m ((c.tc : Thread nD τ).loc main_arg2)
abbrev argA (c : Dev nD) : FVec Ideal S8192x1 .f32 := m ((c.tc : Thread nD τ).loc main_arg3)

/-- The first launch's operands are W and h (the rounding to the narrower format is the identity here). -/
theorem V1_v0 (c : Dev nD) : V1 m ρ c main_v0 = m ((c.tc : Thread nD τ).loc main_arg2) := by
  show StableHlo.after hostOps0 (W0 m ρ c) (Proc.devRef .tc main_v0) = _
  after_results
  rfl
theorem V1_v1 (c : Dev nD) : V1 m ρ c main_v1 = m ((c.tc : Thread nD τ).loc main_arg0) := by
  show StableHlo.after hostOps0 (W0 m ρ c) (Proc.devRef .tc main_v1) = _
  after_results
  rfl

/-- The attention launch's values are what the first launch's write-backs left. -/
theorem V3_v2 (c : Dev nD) : V3 m ρ c main_v2 = (dat0 (V1 m ρ) c).arrAt 2 cfg0.N :=
  (StableHlo.after_of_writes_sub hostOps1 _ hostOps1_writes (r := main_v2) (by decide)).trans (W2_arr m ρ c 2)

/-- After the first launch the argument arrays are as launched. -/
theorem W2_arg (c : Dev nD) (r : Ref sig .tc) (h0 : r ∉ hostOps0_W) (h2 : ∀ w, Pipeline.arrRef spec0 w ≠ r) :
    W2 m ρ c (Proc.devRef .tc r) = m ((c.tc : Thread nD τ).loc r) :=
  (W2_of_ne m ρ c r h2).trans (StableHlo.after_of_writes_sub hostOps0 _ hostOps0_writes (r := r) h0)

/-- The column handed to the attention launch is column 0 of the host's score matrix. -/
theorem V3_v8 (c : Dev nD) : (V3 m ρ c main_v8 : FVec Ideal S4096x1 .f32)
    = extractStridedSlice S4096x1 ![0, 0] (hostS (argH m c) (argW m c) (argA m c)) slices_S4096x2_S4096x1_0_0 := by
  show StableHlo.after hostOps1 (W2 m ρ c) (Proc.devRef .tc main_v8) = _
  after_results
  rw [W2_arg m ρ c main_arg0 (by decide) (by decide), W2_arg m ρ c main_arg2 (by decide) (by decide), W2_arg m ρ c main_arg3 (by decide) (by decide)]
  rfl

/-- The row handed to the attention launch is column 1 of the host's score matrix, transposed. -/
theorem V3_v10 (c : Dev nD) : (V3 m ρ c main_v10 : FVec Ideal S1x4096 .f32)
    = transpose S1x4096 [1, 0] (extractStridedSlice S4096x1 ![0, 1] (hostS (argH m c) (argW m c) (argA m c)) slices_S4096x2_S4096x1_0_1) transposes_S4096x1_S1x4096_1_0 := by
  show StableHlo.after hostOps1 (W2 m ρ c) (Proc.devRef .tc main_v10) = _
  after_results
  rw [W2_arg m ρ c main_arg0 (by decide) (by decide), W2_arg m ρ c main_arg2 (by decide) (by decide), W2_arg m ρ c main_arg3 (by decide) (by decide)]
  rfl

theorem V3_v8_apply (c : Dev nD) (j : Fin 4096) : (V3 m ρ c main_v8 : FVec Ideal S4096x1 .f32) (ix2 j 0)
    = ∑ k : Fin 4096, argW m c (ix2 j k)
        * ∑ n : Fin 4096, argH m c (ix2 n k) * Cert.Spec.a1 (argA m c) n := by
  rw [V3_v8]
  refine (extractStridedSlice_apply _ _ _ _ (ix2 j (0 : Fin 2)) (fun b => match b with | ⟨0, _⟩ => (Nat.zero_add _).symm | ⟨1, _⟩ => rfl)).trans ?_
  exact hostS_col0 _ _ _ j

theorem V3_v10_apply (c : Dev nD) (i : Fin 4096) : (V3 m ρ c main_v10 : FVec Ideal S1x4096 .f32) (ix2 0 i)
    = ∑ k : Fin 4096, argW m c (ix2 i k)
        * ∑ n : Fin 4096, argH m c (ix2 n k) * Cert.Spec.a2 (argA m c) n := by
  rw [V3_v10]
  refine (transpose_ix2_apply _ _ (0 : Fin 1) i).trans ?_
  refine (extractStridedSlice_apply _ _ _ _ (ix2 i (1 : Fin 2)) (fun b => match b with | ⟨0, _⟩ => (Nat.zero_add _).symm | ⟨1, _⟩ => rfl)).trans ?_
  exact hostS_col1 _ _ _ i

end Cert.KernelIdeal.Hand

end
-- ==== Proof.LibOnlineSoftmax.lean ====
/-
  The online (blockwise, rescaled) softmax accumulation on the extended reals equals the plain
  softmax-weighted sum.

  A row of n · w real scores t and values v is read as n blocks of w entries. The accumulation keeps a
  running maximum m, a denominator l and an accumulator a, from (−∞, 0, 0); a block with scores S and
  values V moves them to
    m' = max m (max_j S j),   l' = exp (m − m') · l + Σ_j exp (S j − m'),
    a' = exp (m − m') · a + Σ_j exp (S j − m') · V j.
  After k ≥ 1 blocks the state is a real reference point μ with l = Σ exp (t − μ) and
  a = Σ exp (t − μ) · v over the entries of those blocks: the first block starts from exp (−∞) = 0, and a
  later one rescales by exp (μ − μ') · exp (t − μ) = exp (t − μ'). The quotient a / l does not depend on
  the reference point, so after all n blocks it is the softmax-weighted sum Σ_s (exp (t s − M) / Σ exp (t − M)) · v s
  taken at the row's maximum M.
-/
import Idealize.ShloMosaic.PureOps.Ideal

noncomputable section

namespace Cert.OnlineSoftmax

open Idealize.ShloMosaic
open scoped BigOperators

variable {n w : ℕ}

/-- One block: from the running maximum m, denominator l and accumulator a to the next. -/
def step (S Vv : Fin w → EReal) (st : EReal × EReal × EReal) : EReal × EReal × EReal :=
  (max st.1 ((Finset.univ : Finset (Fin w)).fold max ⊥ S),
   Ideal.exp (st.1 - max st.1 ((Finset.univ : Finset (Fin w)).fold max ⊥ S)) * st.2.1 + ∑ j : Fin w, Ideal.exp (S j - max st.1 ((Finset.univ : Finset (Fin w)).fold max ⊥ S)),
   Ideal.exp (st.1 - max st.1 ((Finset.univ : Finset (Fin w)).fold max ⊥ S)) * st.2.2 + ∑ j : Fin w, Ideal.exp (S j - max st.1 ((Finset.univ : Finset (Fin w)).fold max ⊥ S)) * Vv j)

/-- The state after the first k blocks, from (⊥, 0, 0). -/
def run (S Vv : Fin n → Fin w → EReal) : (k : ℕ) → k ≤ n → EReal × EReal × EReal
  | 0, _ => (⊥, 0, 0)
  | k + 1, h => step (S ⟨k, h⟩) (Vv ⟨k, h⟩) (run S Vv k (Nat.le_of_succ_le h))

/-- The coercion of a finite sum of reals is the sum of the coercions. -/
theorem coe_sum {ι : Type*} (s : Finset ι) (f : ι → ℝ) :
    ((∑ i ∈ s, f i : ℝ) : EReal) = ∑ i ∈ s, (f i : EReal) := by
  classical
  refine Finset.induction_on s (by simp) fun a s ha ih => ?_
  rw [Finset.sum_insert ha, Finset.sum_insert ha, EReal.coe_add, ih]

/-- A fold of `max` from `⊥` over a nonempty finite family of reals is a real. -/
theorem fold_max_coe {ι : Type*} (s : Finset ι) (hs : s.Nonempty) (f : ι → ℝ) :
    ∃ x : ℝ, s.fold max ⊥ (fun i => (f i : EReal)) = (x : EReal) := by
  obtain ⟨a, ha⟩ := hs
  have h1 : s.fold max ⊥ (fun i => (f i : EReal)) ≠ ⊤ := by
    apply ne_of_lt
    rw [Finset.fold_max_lt]
    exact ⟨bot_lt_top, fun i _ => EReal.coe_lt_top _⟩
  have h2 : s.fold max ⊥ (fun i => (f i : EReal)) ≠ ⊥ := by
    apply ne_of_gt
    apply lt_of_lt_of_le (EReal.bot_lt_coe (f a))
    rw [Finset.le_fold_max]
    exact Or.inr ⟨a, ha, le_rfl⟩
  exact ⟨_, (EReal.coe_toReal h1 h2).symm⟩

/-- The coercion preserves `max`. -/
theorem coe_max (a b : ℝ) : ((max a b : ℝ) : EReal) = max (a : EReal) (b : EReal) :=
  EReal.coe_strictMono.monotone.map_max

/-- The first block, from the initial state. -/
theorem step_init (s u : Fin w → ℝ) (x : ℝ)
    (hx : (Finset.univ : Finset (Fin w)).fold max ⊥ (fun j => (s j : EReal)) = x) :
    step (fun j => (s j : EReal)) (fun j => (u j : EReal)) (⊥, 0, 0)
      = ((x : EReal), ((∑ j, Real.exp (s j - x) : ℝ) : EReal), ((∑ j, Real.exp (s j - x) * u j : ℝ) : EReal)) := by
  unfold step
  simp only [hx, bot_le, max_eq_right, EReal.bot_sub, Ideal.exp_bot, mul_zero, zero_add, ← EReal.coe_sub,
    Ideal.exp_coe, ← EReal.coe_mul, ← coe_sum]

/-- A later block, from a state of reals. -/
theorem step_coe (s u : Fin w → ℝ) (x μ L A : ℝ)
    (hx : (Finset.univ : Finset (Fin w)).fold max ⊥ (fun j => (s j : EReal)) = x) :
    step (fun j => (s j : EReal)) (fun j => (u j : EReal)) ((μ : EReal), (L : EReal), (A : EReal))
      = (((max μ x : ℝ) : EReal),
         ((Real.exp (μ - max μ x) * L + ∑ j, Real.exp (s j - max μ x) : ℝ) : EReal),
         ((Real.exp (μ - max μ x) * A + ∑ j, Real.exp (s j - max μ x) * u j : ℝ) : EReal)) := by
  unfold step
  simp only [hx, ← coe_max, ← EReal.coe_sub, Ideal.exp_coe, ← EReal.coe_mul, ← coe_sum, ← EReal.coe_add]

/-- The indices of the first k blocks. -/
def pre (n k : ℕ) : Finset (Fin n) := Finset.univ.filter fun i => i.val < k

/-- The first k + 1 blocks are block k and the first k blocks. -/
theorem pre_succ {k : ℕ} (h : k + 1 ≤ n) : pre n (k + 1) = insert ⟨k, h⟩ (pre n k) := by
  ext i
  simp only [pre, Finset.mem_filter, Finset.mem_univ, true_and, Finset.mem_insert, Fin.ext_iff]
  omega

/-- Block k is not among the first k blocks. -/
theorem not_mem_pre {k : ℕ} (h : k + 1 ≤ n) : (⟨k, h⟩ : Fin n) ∉ pre n k := by
  simp [pre]

/-- There is no block before the first. -/
theorem pre_zero : pre n 0 = ∅ := by
  simp [pre]

/-- The first n blocks are all of them. -/
theorem pre_self : pre n n = Finset.univ := by
  ext i; simp [pre]

/-- Moving the reference point of a sum of weighted exponentials from μ to μ'. -/
theorem rescale {ι : Type*} (s : Finset ι) (f g : ι → ℝ) (μ μ' : ℝ) :
    Real.exp (μ - μ') * ∑ i ∈ s, Real.exp (f i - μ) * g i = ∑ i ∈ s, Real.exp (f i - μ') * g i := by
  rw [Finset.mul_sum]
  refine Finset.sum_congr rfl fun i _ => ?_
  rw [← mul_assoc, ← Real.exp_add]
  congr 2
  ring

/-- Moving the reference point of a sum of exponentials from μ to μ'. -/
theorem rescale_one {ι : Type*} (s : Finset ι) (f : ι → ℝ) (μ μ' : ℝ) :
    Real.exp (μ - μ') * ∑ i ∈ s, Real.exp (f i - μ) = ∑ i ∈ s, Real.exp (f i - μ') := by
  simpa using rescale s f (fun _ => 1) μ μ'

/-- After k ≥ 1 blocks of reals the state is a real reference point μ together with the sums, over the
    entries of those blocks, of exp (t − μ) and of exp (t − μ) · v. -/
theorem run_coe (t v : Fin n → Fin w → ℝ) (hw : 0 < w) : ∀ (k : ℕ) (h : k ≤ n), 0 < k →
    ∃ μ : ℝ, run (fun i j => (t i j : EReal)) (fun i j => (v i j : EReal)) k h
      = ((μ : EReal),
         ((∑ p ∈ pre n k ×ˢ (Finset.univ : Finset (Fin w)), Real.exp (t p.1 p.2 - μ) : ℝ) : EReal),
         ((∑ p ∈ pre n k ×ˢ (Finset.univ : Finset (Fin w)), Real.exp (t p.1 p.2 - μ) * v p.1 p.2 : ℝ) : EReal)) := by
  intro k
  induction k with
  | zero => intro _ h0; exact absurd h0 (lt_irrefl 0)
  | succ k ih =>
    intro h _
    haveI : Nonempty (Fin w) := ⟨⟨0, hw⟩⟩
    obtain ⟨x, hx⟩ := fold_max_coe (Finset.univ : Finset (Fin w)) Finset.univ_nonempty (t ⟨k, h⟩)
    have ins : ∀ F : Fin n × Fin w → ℝ, ∑ p ∈ pre n (k + 1) ×ˢ (Finset.univ : Finset (Fin w)), F p
        = ∑ j, F (⟨k, h⟩, j) + ∑ p ∈ pre n k ×ˢ (Finset.univ : Finset (Fin w)), F p := by
      intro F
      rw [pre_succ h, Finset.sum_product, Finset.sum_insert (not_mem_pre h), Finset.sum_product]
    rcases Nat.eq_zero_or_pos k with rfl | hk
    · refine ⟨x, ?_⟩
      show step _ _ (⊥, 0, 0) = _
      rw [step_init _ _ x hx, ins, ins, pre_zero]
      simp
    · obtain ⟨μ, hμ⟩ := ih (Nat.le_of_succ_le h) hk
      refine ⟨max μ x, ?_⟩
      show step _ _ (run _ _ k _) = _
      rw [hμ, step_coe _ _ x μ _ _ hx, rescale_one, rescale, ins, ins]
      exact Prod.ext rfl (Prod.ext (congrArg Real.toEReal (add_comm _ _)) (congrArg Real.toEReal (add_comm _ _)))

/-- The online accumulation over all blocks, divided by its denominator and scaled, is the
    softmax-weighted sum: both are the quotient of Σ exp (t − μ) · v by Σ exp (t − μ), which does not
    depend on the real reference point μ. -/
theorem final (hn : 0 < n) (hw : 0 < w) (T Vv : Fin (n * w) → EReal) (hT : ∀ s, ∃ x : ℝ, T s = (x : EReal)) (hV : ∀ s, ∃ x : ℝ, Vv s = (x : EReal)) (c : EReal) (hc : ∃ x : ℝ, c = (x : EReal)) :
    ((run (fun i j => T (finProdFinEquiv (i, j))) (fun i j => Vv (finProdFinEquiv (i, j))) n le_rfl).2.2
        * Ideal.div 1 (run (fun i j => T (finProdFinEquiv (i, j))) (fun i j => Vv (finProdFinEquiv (i, j))) n le_rfl).2.1) * c
      = ∑ s : Fin (n * w), (Ideal.div (Ideal.exp (T s - (Finset.univ : Finset (Fin (n * w))).fold max ⊥ T))
            (∑ s' : Fin (n * w), Ideal.exp (T s' - (Finset.univ : Finset (Fin (n * w))).fold max ⊥ T)) * c) * Vv s := by
  choose τ hτ using hT
  choose ν hν using hV
  obtain ⟨γ, rfl⟩ := hc
  obtain rfl : T = fun s => (τ s : EReal) := funext hτ
  obtain rfl : Vv = fun s => (ν s : EReal) := funext hν
  haveI : Nonempty (Fin (n * w)) := ⟨⟨0, Nat.mul_pos hn hw⟩⟩
  obtain ⟨M, hM⟩ := fold_max_coe (Finset.univ : Finset (Fin (n * w))) Finset.univ_nonempty τ
  obtain ⟨μ, hμ⟩ := run_coe (fun i j => τ (finProdFinEquiv (i, j))) (fun i j => ν (finProdFinEquiv (i, j))) hw n le_rfl hn
  have tot : ∀ F : Fin (n * w) → ℝ,
      ∑ p ∈ pre n n ×ˢ (Finset.univ : Finset (Fin w)), F (finProdFinEquiv (p.1, p.2)) = ∑ s, F s := by
    intro F
    rw [pre_self, Finset.univ_product_univ]
    exact Equiv.sum_comp finProdFinEquiv F
  have LMpos : 0 < ∑ s, Real.exp (τ s - M) :=
    Finset.sum_pos (fun s _ => Real.exp_pos _) Finset.univ_nonempty
  have Lμ : ∑ p ∈ pre n n ×ˢ (Finset.univ : Finset (Fin w)), Real.exp (τ (finProdFinEquiv (p.1, p.2)) - μ)
      = Real.exp (M - μ) * ∑ s, Real.exp (τ s - M) := by
    rw [tot (fun s => Real.exp (τ s - μ)), rescale_one]
  have Aμ : ∑ p ∈ pre n n ×ˢ (Finset.univ : Finset (Fin w)),
        Real.exp (τ (finProdFinEquiv (p.1, p.2)) - μ) * ν (finProdFinEquiv (p.1, p.2))
      = Real.exp (M - μ) * ∑ s, Real.exp (τ s - M) * ν s := by
    rw [tot (fun s => Real.exp (τ s - μ) * ν s), rescale]
  beta_reduce
  rw [hμ]
  dsimp only
  rw [Lμ, Aμ, hM, Ideal.div_coe (mul_pos (Real.exp_pos _) LMpos).ne']
  have rhs : ∀ s, (Ideal.div (Ideal.exp ((τ s : EReal) - (M : EReal))) (∑ s', Ideal.exp ((τ s' : EReal) - (M : EReal))) * (γ : EReal)) * (ν s : EReal)
      = ((Real.exp (τ s - M) * ν s * ((1 / ∑ s', Real.exp (τ s' - M)) * γ) : ℝ) : EReal) := by
    intro s
    simp only [← EReal.coe_sub, Ideal.exp_coe, ← coe_sum]
    rw [Ideal.div_coe LMpos.ne', ← EReal.coe_mul, ← EReal.coe_mul, ← EReal.coe_mul]
    congr 1
    ring
  simp only [rhs]
  rw [← coe_sum, one_mul, ← EReal.coe_mul, ← EReal.coe_mul, ← Finset.sum_mul]
  congr 1
  have e0 : Real.exp (M - μ) ≠ 0 := (Real.exp_pos _).ne'
  field_simp

/-- The f32 word 0x3F800000 denotes the extended real 1. -/
theorem one_word : Ideal.ofBits .f32 0x3F800000#32 = 1 := by
  simp [Ideal.ofBits, Ideal.ieee]
  rw [← EReal.coe_mul, ← EReal.coe_one]
  congr 1
  norm_num

/-- The f32 word 0x3D000000 denotes a real. -/
theorem scale_real : ∃ x : ℝ, Ideal.ofBits .f32 0x3D000000#32 = (x : EReal) := by
  simp [Ideal.ofBits, Ideal.ieee]
  exact ⟨_, (EReal.coe_mul _ _).symm⟩

end Cert.OnlineSoftmax
-- ==== Proof.Bridge.lean ====
/-
  Real arithmetic behind the two programs' agreement.

  On real-valued inputs every intermediate is a real: the product W hᵀ, the two score vectors, the scores (the leaky
  rectifier of a real is a real), the largest score, the exponentials and their sum. Two rearrangements join the
  programs. The kernel forms s = W (hᵀ a) where the reference forms (W hᵀ) a: a double sum exchanged. The kernel
  divides the weighted sum by the denominator once where the reference divides every weight: (Σ_c v_c E_c) / S =
  Σ_c (E_c / S) v_c for a real S ≠ 0.
-/
import proofs.«152758_j53506702573897_2_alg».proof.Proof.Spec
import proofs.«152758_j53506702573897_2_alg».proof.Proof.LibOnlineSoftmax

noncomputable section

namespace Cert.Spec

open Idealize.ShloMosaic Idealize.ShloMosaic.ValueIdx
open scoped BigOperators

/-- Every entry is a real number. -/
def IsReal {ι : Type} (f : ι → EReal) : Prop := ∀ i, ∃ r : ℝ, f i = (r : EReal)

/-- The slope word of the leaky rectifier denotes a real. -/
theorem slope_real : ∃ x : ℝ, Ideal.ofBits .f32 0x3E4CCCCD#32 = (x : EReal) := by
  simp [Ideal.ofBits, Ideal.ieee]
  exact ⟨_, (EReal.coe_mul _ _).symm⟩

/-- The leaky rectifier of a real is a real. -/
theorem lrelu_real (x : ℝ) : ∃ r : ℝ, lrelu (x : EReal) = (r : EReal) := by
  obtain ⟨s, hs⟩ := slope_real
  unfold lrelu Scalar.select
  split
  · exact ⟨x, rfl⟩
  · exact ⟨s * x, by rw [hs, EReal.coe_mul]⟩

/-- W hᵀ of real matrices is real, entry by entry the real sum. -/
theorem whT_coe (Wr hr : (⟨2, ![4096, 4096]⟩ : Shape).Idx → ℝ) (i : (⟨2, ![4096, 4096]⟩ : Shape).Idx) :
    whT (fun i => (Wr i : EReal)) (fun i => (hr i : EReal)) i = ((∑ k : Fin 4096, Wr (ix2 (i 0) k) * hr (ix2 (i 1) k) : ℝ) : EReal) := by
  unfold whT
  simp only [← EReal.coe_mul, ← Cert.OnlineSoftmax.coe_sum]

/-- The kernel's order of the two contractions against the reference's: W (hᵀ b) = (W hᵀ) b on reals. -/
theorem contract_swap (W h : Mat 4096 4096) (b : Fin 4096 → EReal) (hW : IsReal W) (hh : IsReal h) (hb : IsReal b) (j : Fin 4096) :
    (∑ k : Fin 4096, W (ix2 j k) * ∑ n : Fin 4096, h (ix2 n k) * b n) = ∑ n : Fin 4096, whT W h (ix2 j n) * b n := by
  choose Wr hWr using hW
  choose hr hhr using hh
  choose br hbr using hb
  have eW : W = fun i => (Wr i : EReal) := funext hWr
  have eh : h = fun i => (hr i : EReal) := funext hhr
  have eb : b = fun i => (br i : EReal) := funext hbr
  subst eW eh eb
  simp only [whT_coe, ← EReal.coe_mul, ← Cert.OnlineSoftmax.coe_sum]
  refine congrArg _ ?_
  simp only [Finset.mul_sum, Finset.sum_mul]
  rw [Finset.sum_comm]
  refine Finset.sum_congr rfl fun n _ => Finset.sum_congr rfl fun k _ => ?_
  show Wr (ix2 j k) * (hr (ix2 n k) * br n) = Wr (ix2 j k) * hr (ix2 n k) * br n
  ring

/-- Dividing the weighted sum once is dividing every weight: for real scores s and real values v, with M the largest
    score, (Σ_j v_j · exp (s_j − M)) / (Σ_j exp (s_j − M)) = Σ_c (exp (s_c − M) / Σ_c' exp (s_c' − M)) · v_c. -/
theorem div_sum_eq_sum_div (sc v : Fin 4096 → EReal) (hs : IsReal sc) (hv : IsReal v) :
    Ideal.div (∑ j : Fin 4096, v j * Ideal.exp (sc j - (Finset.univ : Finset (Fin 4096)).fold max ⊥ sc))
        (∑ j : Fin 4096, Ideal.exp (sc j - (Finset.univ : Finset (Fin 4096)).fold max ⊥ sc))
      = ∑ c : Fin 4096, Ideal.div (Ideal.exp (sc c - (Finset.univ : Finset (Fin 4096)).fold max ⊥ sc))
          (∑ c' : Fin 4096, Ideal.exp (sc c' - (Finset.univ : Finset (Fin 4096)).fold max ⊥ sc)) * v c := by
  choose s hsr using hs
  choose ν hνr using hv
  have es : sc = fun i => (s i : EReal) := funext hsr
  have ev : v = fun i => (ν i : EReal) := funext hνr
  subst es ev
  obtain ⟨μ, hμ⟩ := Cert.OnlineSoftmax.fold_max_coe (Finset.univ : Finset (Fin 4096)) Finset.univ_nonempty s
  rw [hμ]
  simp only [← EReal.coe_sub, Ideal.exp_coe, ← EReal.coe_mul, ← Cert.OnlineSoftmax.coe_sum]
  have hS : (∑ j : Fin 4096, Real.exp (s j - μ)) ≠ 0 :=
    ne_of_gt (Finset.sum_pos (fun j _ => Real.exp_pos _) Finset.univ_nonempty)
  simp only [Ideal.div_coe hS, ← EReal.coe_mul, ← Cert.OnlineSoftmax.coe_sum]
  refine congrArg _ ?_
  rw [Finset.sum_mul]
  refine Finset.sum_congr rfl fun c _ => ?_
  ring

/-- A one-column matrix and a one-row matrix are determined by their one free coordinate. -/
theorem col_ix (x : Mat 4096 1) (i : (⟨2, ![4096, 1]⟩ : Shape).Idx) : x i = x (ix2 (i 0) 0) := by
  refine congrArg x ?_
  funext d
  match d with
  | ⟨0, _⟩ => rfl
  | ⟨1, _⟩ => exact (Subsingleton.elim (α := Fin 1) _ _)
theorem row_ix (y : Mat 1 4096) (i : (⟨2, ![1, 4096]⟩ : Shape).Idx) : y i = y (ix2 0 (i 1)) := by
  refine congrArg y ?_
  funext d
  match d with
  | ⟨0, _⟩ => exact (Subsingleton.elim (α := Fin 1) _ _)
  | ⟨1, _⟩ => rfl

/-- A finite sum of products of reals is a real. -/
theorem sum_mul_real {n : Nat} (f g : Fin n → EReal) (hf : IsReal f) (hg : IsReal g) : ∃ r : ℝ, (∑ k : Fin n, f k * g k) = (r : EReal) := by
  choose fr hfr using hf
  choose gr hgr using hg
  exact ⟨∑ k : Fin n, fr k * gr k, by simp only [hfr, hgr, ← EReal.coe_mul, ← Cert.OnlineSoftmax.coe_sum]⟩

/-- W hᵀ of real matrices is real. -/
theorem whT_real (W h : Mat 4096 4096) (hW : IsReal W) (hh : IsReal h) : IsReal (whT W h) :=
  fun i => sum_mul_real (fun k => W (ix2 (i 0) k)) (fun k => h (ix2 (i 1) k)) (fun k => hW _) (fun k => hh _)

/-- The two halves of a real attention vector are real. -/
theorem a1_real (a : Mat 8192 1) (ha : IsReal a) : IsReal (a1 a) := fun n => ha _
theorem a2_real (a : Mat 8192 1) (ha : IsReal a) : IsReal (a2 a) := fun n => ha _

/-- The reference's score vectors are real on real inputs. -/
theorem refS1_real (h W : Mat 4096 4096) (a : Mat 8192 1) (hh : IsReal h) (hW : IsReal W) (ha : IsReal a) : IsReal (refS1 h W a) :=
  fun j => sum_mul_real (fun n => whT W h (ix2 j n)) (a1 a) (fun n => whT_real W h hW hh _) (a1_real a ha)
theorem refS2_real (h W : Mat 4096 4096) (a : Mat 8192 1) (hh : IsReal h) (hW : IsReal W) (ha : IsReal a) : IsReal (refS2 h W a) :=
  fun j => sum_mul_real (fun n => whT W h (ix2 j n)) (a2 a) (fun n => whT_real W h hW hh _) (a2_real a ha)

/-- THE BRIDGE. On real inputs, the attention output computed from a column x holding s1 and a row y holding s2 (as
    the kernel's host code forms them, s = W (hᵀ a)) with values W hᵀ is the reference's output. -/
theorem attnOut_eq_refOut (h W : Mat 4096 4096) (a : Mat 8192 1) (hh : IsReal h) (hW : IsReal W) (ha : IsReal a)
    (x : Mat 4096 1) (y : Mat 1 4096)
    (hx : ∀ j : Fin 4096, x (ix2 j 0) = ∑ k : Fin 4096, W (ix2 j k) * ∑ n : Fin 4096, h (ix2 n k) * a1 a n)
    (hy : ∀ i : Fin 4096, y (ix2 0 i) = ∑ k : Fin 4096, W (ix2 i k) * ∑ n : Fin 4096, h (ix2 n k) * a2 a n) :
    attnOut x y (whT W h) = refOut h W a := by
  have hx' : ∀ j, x (ix2 j 0) = refS1 h W a j := fun j => (hx j).trans (contract_swap W h (a1 a) hW hh (a1_real a ha) j)
  have hy' : ∀ i, y (ix2 0 i) = refS2 h W a i := fun i => (hy i).trans (contract_swap W h (a2 a) hW hh (a2_real a ha) i)
  have hsc : ∀ j i, score x y j i = refScore h W a i j := fun j i => by
    unfold score refScore; rw [hx', hy']
  have key : ∀ n i : Fin 4096, attnOut x y (whT W h) (ix2 n i) = refOut h W a (ix2 n i) := fun n i => by
    have hM : colMax x y i = refMax h W a i := by
      unfold colMax refMax
      exact congrArg (fun f : Fin 4096 → EReal => Finset.fold max ⊥ f Finset.univ) (funext fun j => hsc j i)
    show elu (Ideal.div (∑ j : Fin 4096, whT W h (ix2 j n) * Ideal.exp (score x y j i - colMax x y i))
          (∑ j : Fin 4096, Ideal.exp (score x y j i - colMax x y i)))
        = elu (∑ c : Fin 4096, Ideal.div (Ideal.exp (refScore h W a i c - refMax h W a i))
            (∑ c' : Fin 4096, Ideal.exp (refScore h W a i c' - refMax h W a i)) * whT W h (ix2 c n))
    simp only [hsc, hM]
    refine congrArg elu ?_
    have hsr : IsReal (fun c => refScore h W a i c) := fun c => by
      obtain ⟨p, hp⟩ := refS1_real h W a hh hW ha c
      obtain ⟨q, hq⟩ := refS2_real h W a hh hW ha i
      show ∃ r : ℝ, lrelu (refS1 h W a c + refS2 h W a i) = (r : EReal)
      rw [hp, hq, ← EReal.coe_add]; exact lrelu_real _
    have hvr : IsReal (fun c => whT W h (ix2 c n)) := fun c => whT_real W h hW hh _
    exact div_sum_eq_sum_div (fun c => refScore h W a i c) (fun c => whT W h (ix2 c n)) hsr hvr
  funext o
  rw [eq_ix2 o]
  exact key (o 0) (o 1)

/-- The column and the row the kernel's host code forms are real on real inputs. -/
theorem col_real (h W : Mat 4096 4096) (b : Fin 4096 → EReal) (hh : IsReal h) (hW : IsReal W) (hb : IsReal b)
    (x : Mat 4096 1) (hx : ∀ j : Fin 4096, x (ix2 j 0) = ∑ k : Fin 4096, W (ix2 j k) * ∑ n : Fin 4096, h (ix2 n k) * b n) : IsReal x := fun i => by
  have hj : ∀ j : Fin 4096, ∃ r : ℝ, x (ix2 j 0) = (r : EReal) := fun j => by
    rw [hx j]
    exact sum_mul_real (fun k => W (ix2 j k)) (fun k => ∑ n : Fin 4096, h (ix2 n k) * b n) (fun k => hW _)
      (fun k => sum_mul_real (fun n => h (ix2 n k)) b (fun n => hh _) hb)
  obtain ⟨r, hr⟩ := hj (i 0)
  exact ⟨r, (col_ix x i).trans hr⟩
theorem row_real (h W : Mat 4096 4096) (b : Fin 4096 → EReal) (hh : IsReal h) (hW : IsReal W) (hb : IsReal b)
    (y : Mat 1 4096) (hy : ∀ i : Fin 4096, y (ix2 0 i) = ∑ k : Fin 4096, W (ix2 i k) * ∑ n : Fin 4096, h (ix2 n k) * b n) : IsReal y := fun i => by
  have hj : ∀ j : Fin 4096, ∃ r : ℝ, y (ix2 0 j) = (r : EReal) := fun j => by
    rw [hy j]
    exact sum_mul_real (fun k => W (ix2 j k)) (fun k => ∑ n : Fin 4096, h (ix2 n k) * b n) (fun k => hW _)
      (fun k => sum_mul_real (fun n => h (ix2 n k)) b (fun n => hh _) hb)
  obtain ⟨r, hr⟩ := hj (i 1)
  exact ⟨r, (row_ix y i).trans hr⟩

end Cert.Spec

end
-- ==== Proof.Finite.lean ====
/-
  From the precondition to real numbers. The precondition says of each float input that every entry's absolute value
  is below +∞ (an "all" over the array); an extended real whose absolute value is below +∞ is a real.
-/
import proofs.«152758_j53506702573897_2_alg».proof.Pre_finite_inputs
import proofs.«152758_j53506702573897_2_alg».proof.Proof.Bridge
import Idealize.ShloMosaic.Lib.ReduceAll
import Idealize.ShloMosaic.Lib.ValueIdx

noncomputable section

namespace Cert.Spec

open Idealize.ShloMosaic Idealize.ShloMosaic.ValueIdx

/-- An extended real whose absolute value is strictly below the word for +∞ is a real. -/
theorem real_of_abs_lt (x : EReal)
    (h : Ideal.cmp .olt (max x (-x)) (Ideal.ofBits .f32 0x7F800000#32) = 1#1) : ∃ r : ℝ, x = (r : EReal) := by
  have hinf : Ideal.ofBits .f32 0x7F800000#32 = (⊤ : EReal) := by simp [Ideal.ofBits, Ideal.ieee]
  rw [hinf] at h
  induction x using EReal.rec with
  | bot => simp [Ideal.cmp] at h
  | coe r => exact ⟨r, rfl⟩
  | top => simp [Ideal.cmp] at h

instance : Subsingleton Cert.Pre_finite_inputs.S_.Idx := ⟨fun a b => funext fun d => d.elim0⟩

/-- The precondition, all ones, makes the three float inputs real-valued. -/
theorem real_of_pre [Cert.Pre_finite_inputs.Facts] (x0 : FVec Ideal Cert.Pre_finite_inputs.S4096x4096 .f32) (x1 : IVec Cert.Pre_finite_inputs.S4096x4096 32)
    (x2 : FVec Ideal Cert.Pre_finite_inputs.S4096x4096 .f32) (x3 : FVec Ideal Cert.Pre_finite_inputs.S8192x1 .f32)
    (h : Cert.Pre_finite_inputs.fn (F := Ideal) x0 x1 x2 x3 = fun _ => 1#1) :
    IsReal x0 ∧ IsReal x2 ∧ IsReal x3 := by
  have h0 := congrFun h ix0
  dsimp only [Cert.Pre_finite_inputs.fn] at h0
  obtain ⟨h02, h3⟩ := IntOp.andi_eq_one.1 h0
  obtain ⟨h0', h2⟩ := IntOp.andi_eq_one.1 h02
  have e0 := Host.reduce_andi_all _ _ _ _ _ h0'
  have e2 := Host.reduce_andi_all _ _ _ _ _ h2
  have e3 := Host.reduce_andi_all _ _ _ _ _ h3
  exact ⟨fun i => real_of_abs_lt _ (e0 i), fun i => real_of_abs_lt _ (e2 i), fun i => real_of_abs_lt _ (e3 i)⟩

end Cert.Spec

end
-- ==== Proof.Value.R0Pieces.lean ====
/-
  The matrix-product kernel's stored values, named. At a grid point with k = 0 the accumulator ends holding the
  zero block plus the product of the two operand blocks; at a point with k = 1 it ends holding what the point before
  left plus the product, and the result block's buffer ends holding that sum rounded. Each is the body's payload
  function of the blocks read: the loads read whole buffers, the last store covers its buffer.
-/
import proofs.«152758_j53506702573897_2_alg».proof.Proof.HandKernelIdeal.R0Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offsets of a whole-buffer rectangle, however spelt. -/
theorem hz2 : (![0, 0] : Fin 2 → Nat) = fun _ => 0 := funext fun a => by fin_cases a <;> rfl

/-- At k = 0 the accumulator is cleared, read back, and ends at zero plus the product of the two blocks. -/
theorem sout0_A_0_eq (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i)
    (x0 : Vec F S1024x2048 .bf16) (x1 : Vec F S1024x2048 .bf16) :
    sout0_A_0 c i arg3 harg3 arg4 harg4 arg5 harg5 arg6 harg6 hc0 hc1 x0 x1 = k0_pay2 (k0_pay1 (F := F)) x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S1024x1024) hz2, View.readCov_unit_zero (S := S1024x1024) _ hz2]
  simp only [View.readAt_eq_ld, harg3.read_unread, harg4.read_unread, View.ld_unit_zero (S := S1024x2048) hz2]

/-- At k = 1 the accumulator, found at `xs0`, ends at `xs0` plus the product of the two blocks. -/
theorem sout0_B_0_eq (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 : Vec F S1024x2048 .bf16) (x1 : Vec F S1024x2048 .bf16) (xs0 : Vec F S1024x1024 .f32) :
    sout0_B_0 c i arg3 harg3 arg4 harg4 arg5 harg5 arg6 harg6 hc0 hc1 x0 x1 xs0 = k0_pay2 xs0 x0 x1 := by
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  rw [View.canon_unit_zero hz2]
  simp only [View.readAt_eq_ld, harg3.read_unread, harg4.read_unread, harg6.read_unread, View.ld_unit_zero (S := S1024x2048) hz2, View.ld_unit_zero (S := S1024x1024) hz2]

/-- At k = 1 the result block's buffer ends at the accumulator's final contents, rounded. -/
theorem out0_B_2_eq (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 : Vec F S1024x2048 .bf16) (x1 : Vec F S1024x2048 .bf16) (xs0 : Vec F S1024x1024 .f32) :
    out0_B_2 c i arg3 harg3 arg4 harg4 arg5 harg5 arg6 harg6 hc0 hc1 x0 x1 xs0 = k0_pay3 (k0_pay2 xs0 x0 x1) := by
  unfold out0_B_2
  rw [View.read_writes_eq_canon _ _ _ (cover0_B_2 c i arg3 harg3 arg4 harg4 arg5 harg5 arg6 harg6 hc0 hc1 x0 x1 xs0)]
  unfold kernelRun0_B
  dsimp only
  sl_unfold_words
  rw [View.canon_unit_zero hz2]
  rw [View.readCov_unit_zero (S := S1024x1024) _ hz2]
  simp only [View.readAt_eq_ld, harg3.read_unread, harg4.read_unread, harg6.read_unread, View.ld_unit_zero (S := S1024x2048) hz2, View.ld_unit_zero (S := S1024x1024) hz2]

end Cert.KernelIdeal.Hand

end
-- ==== Proof.Value.R0Payload.lean ====
/-
  The matrix-product kernel's stored values read entry by entry, over the extended reals. The cleared accumulator is
  zero everywhere; one step adds to the accumulator's entry (p, q) the sum over the 2048 columns k of the two operand
  blocks of (first block) (p, k) · (second block) (q, k) — the matrix unit contracts the second axis of both; the
  rounding to bf16 is the identity at the ideal values.
-/
import proofs.«152758_j53506702573897_2_alg».proof.Proof.Gen.KernelIdeal.Skeleton
import Idealize.ShloMosaic.PureOps.Ideal.Laws
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

/-- The cleared accumulator is zero at every entry. -/
theorem k0_pay1_apply (j : S1024x1024.Idx) : (k0_pay1 (F := Ideal) : S1024x1024.Idx → EReal) j = 0 := by
  unfold k0_pay1
  refine (congrFun (shapeCast_self _ _) j).trans ?_
  exact Ideal.ofBits_zero_f32

/-- The matrix unit's product of two 1024 × 2048 blocks contracting the second axis of both, into zero: entry (p, q)
    is the sum over k of (first) (p, k) · (second) (q, k). -/
theorem matmul_apply_ix (x0 x1 : FVec Ideal S1024x2048 .bf16) (p q : Fin 1024) :
    (matmul dot_S1024x2048_S1024x2048_S1024x1024_1_1_0_0_n_n none x0 x1 (constant (F := Ideal) S1024x1024 .f32 0x00000000#32) : S1024x1024.Idx → EReal) (ix2 p q)
      = ∑ k : Fin 2048, x0 (ix2 p k) * x1 (ix2 q k) := by
  show FloatOps.matmul _ none x0 x1 _ (ix2 p q) = _
  rw [Ideal.matmul_constant_zero_apply,
    ← Equiv.sum_comp (contrEquiv1 dot_S1024x2048_S1024x2048_S1024x1024_1_1_0_0_n_n 2048 rfl rfl).symm]
  refine Finset.sum_congr rfl fun k _ => ?_
  have ck := contrEquiv1_symm_val dot_S1024x2048_S1024x2048_S1024x1024_1_1_0_0_n_n 2048 rfl rfl k
  have l2 : dot_S1024x2048_S1024x2048_S1024x1024_1_1_0_0_n_n.lhsIdx (ix2 p q)
      ((contrEquiv1 dot_S1024x2048_S1024x2048_S1024x1024_1_1_0_0_n_n 2048 rfl rfl).symm k) = ix2 p k := by
    funext ax; apply Fin.ext
    match ax with
    | ⟨0, _⟩ => simp [DotDims.lhsIdx, dot_S1024x2048_S1024x2048_S1024x1024_1_1_0_0_n_n]; rfl
    | ⟨1, _⟩ => simp [DotDims.lhsIdx, dot_S1024x2048_S1024x2048_S1024x1024_1_1_0_0_n_n]; exact ck
  have r2 : dot_S1024x2048_S1024x2048_S1024x1024_1_1_0_0_n_n.rhsIdx (ix2 p q)
      ((contrEquiv1 dot_S1024x2048_S1024x2048_S1024x1024_1_1_0_0_n_n 2048 rfl rfl).symm k) = ix2 q k := by
    funext ax; apply Fin.ext
    match ax with
    | ⟨0, _⟩ => simp [DotDims.rhsIdx, dot_S1024x2048_S1024x2048_S1024x1024_1_1_0_0_n_n]; rfl
    | ⟨1, _⟩ => simp [DotDims.rhsIdx, dot_S1024x2048_S1024x2048_S1024x1024_1_1_0_0_n_n]; exact ck
  rw [l2, r2]

/-- One step: the accumulator's entry plus the product's entry. -/
theorem k0_pay2_apply (xs : Vec Ideal S1024x1024 .f32) (x0 x1 : Vec Ideal S1024x2048 .bf16) (p q : Fin 1024) :
    (k0_pay2 xs x0 x1 : S1024x1024.Idx → EReal) (ix2 p q) = xs (ix2 p q) + ∑ k : Fin 2048, x0 (ix2 p k) * x1 (ix2 q k) := by
  unfold k0_pay2
  refine (congrFun (shapeCast_self _ _) (ix2 p q)).trans ?_
  refine (addf_apply _ _ _).trans ?_
  refine congrArg (xs (ix2 p q) + ·) ?_
  refine Eq.trans ?_ (matmul_apply_ix x0 x1 p q)
  refine congrFun ?_ (ix2 p q)
  refine congrArg₂ (fun a b => matmul dot_S1024x2048_S1024x2048_S1024x1024_1_1_0_0_n_n none a b (constant (F := Ideal) S1024x1024 .f32 0x00000000#32)) (shapeCast_self _ _) (shapeCast_self _ _)

/-- Rounding to bf16 changes nothing at the ideal values. -/
theorem k0_pay3_apply (v : Vec Ideal S1024x1024 .f32) (j : S1024x1024.Idx) :
    (k0_pay3 v : S1024x1024.Idx → EReal) j = v j := by
  unfold k0_pay3
  rfl

end Cert.KernelIdeal.Hand

end
-- ==== Proof.Value.R0Blocks.lean ====
/-
  The matrix-product kernel's result, block by block. A grid point t has coordinates (i, j, k) = (t / 8, (t / 2) % 4,
  t % 2). The first operand's block at t is rows 1024 i .. and columns 2048 k .. of W, the second's is rows 1024 j ..
  and columns 2048 k .. of h, the result's is rows 1024 i .. and columns 1024 j .. of the result array. After a point
  with k = 0 the accumulator's entry (p, q) is 0 plus the sum over the first 2048 columns of W (1024 i + p, ·) ·
  h (1024 j + q, ·); after the next point (k = 1, the same i and j) the sum over the last 2048 columns has been added,
  and that is what is written back: the entry (1024 i + p, 1024 j + q) of W hᵀ, the sum over all 4096 columns split
  into its two halves.
-/
import proofs.«152758_j53506702573897_2_alg».proof.Proof.Value.R0Pieces
import proofs.«152758_j53506702573897_2_alg».proof.Proof.Value.R0Payload
import proofs.«152758_j53506702573897_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

/-- A sum over 4096 columns is the sum over the first 2048 plus the sum over the last 2048. -/
theorem sum_halves (f : Fin 4096 → EReal) :
    ∑ k : Fin 4096, f k
      = (0 + ∑ k : Fin 2048, f ⟨k.val, by omega⟩) + ∑ k : Fin 2048, f ⟨2048 + k.val, by omega⟩ := by
  rw [zero_add]
  exact Fin.sum_univ_add (a := 2048) (b := 2048) f

/-- Two steps from the cleared accumulator, rounded, entry by entry. -/
theorem two_steps_apply (a0 b0 a1 b1 : Vec Ideal S1024x2048 .bf16) (p q : Fin 1024) :
    (k0_pay3 (k0_pay2 (k0_pay2 (k0_pay1 (F := Ideal)) a0 b0) a1 b1) : S1024x1024.Idx → EReal) (ix2 p q)
      = (0 + ∑ k : Fin 2048, a0 (ix2 p k) * b0 (ix2 q k)) + ∑ k : Fin 2048, a1 (ix2 p k) * b1 (ix2 q k) := by
  refine (k0_pay3_apply _ _).trans ?_
  refine (k0_pay2_apply _ a1 b1 p q).trans ?_
  refine congrArg (· + ∑ k : Fin 2048, a1 (ix2 p k) * b1 (ix2 q k)) ?_
  refine (k0_pay2_apply _ a0 b0 p q).trans ?_
  exact congrArg (· + ∑ k : Fin 2048, a0 (ix2 p k) * b0 (ix2 q k)) (k0_pay1_apply _)

/-- The printed index maps over the grid: which block of its array each window is on at point t. -/
theorem idx_facts0 : ∀ t : Fin cfg0.N,
    win0_0.index t (0 : Fin 2) = t.val / 8 ∧ win0_0.index t (1 : Fin 2) = t.val % 2
    ∧ win0_1.index t (0 : Fin 2) = (t.val / 2) % 4 ∧ win0_1.index t (1 : Fin 2) = t.val % 2
    ∧ win0_2.index t (0 : Fin 2) = t.val / 8 ∧ win0_2.index t (1 : Fin 2) = (t.val / 2) % 4 :=
  (by decide +kernel : ∀ t : Fin grid0.N, _)

section
variable {F : FTy → Type} [FloatOps F]
variable (V : (c : Dev nD) → (b : Ref sig .tc) → Buf (Elt F) ((c : Thread nD τ).loc b))

/-- The first operand's block at point t, entry (p, k): W at row 1024 (t / 8) + p, column 2048 (t % 2) + k. -/
theorem iblk0_0_apply (c : Dev nD) (t : Fin cfg0.N) (p : Fin 1024) (k : Fin 2048) (r s : Fin 4096)
    (hr : r.val = 1024 * (t.val / 8) + p.val) (hs : s.val = 2048 * (t.val % 2) + k.val) :
    (iblk0 V c 0 t : Vec F S1024x2048 .bf16) (ix2 p k) = (V c main_v0 : S4096x4096.Idx → Elt F .bf16) (ix2 r s) := by
  obtain ⟨e0, e1, -, -, -, -⟩ := idx_facts0 t
  unfold iblk0
  rw [View.read_apply]
  show V c main_v0 _ = V c main_v0 _
  refine congrArg (V c main_v0) (funext fun a => Fin.ext ?_)
  match a with
  | ⟨0, _⟩ => show win0_0.index t (0 : Fin 2) * 1024 + 1 * p.val = r.val; omega
  | ⟨1, _⟩ => show win0_0.index t (1 : Fin 2) * 2048 + 1 * k.val = s.val; omega

/-- The second operand's block at point t, entry (q, k): h at row 1024 ((t / 2) % 4) + q, column 2048 (t % 2) + k. -/
theorem iblk0_1_apply (c : Dev nD) (t : Fin cfg0.N) (q : Fin 1024) (k : Fin 2048) (r s : Fin 4096)
    (hr : r.val = 1024 * ((t.val / 2) % 4) + q.val) (hs : s.val = 2048 * (t.val % 2) + k.val) :
    (iblk0 V c 1 t : Vec F S1024x2048 .bf16) (ix2 q k) = (V c main_v1 : S4096x4096.Idx → Elt F .bf16) (ix2 r s) := by
  obtain ⟨-, -, e2, e3, -, -⟩ := idx_facts0 t
  unfold iblk0
  rw [View.read_apply]
  show V c main_v1 _ = V c main_v1 _
  refine congrArg (V c main_v1) (funext fun a => Fin.ext ?_)
  match a with
  | ⟨0, _⟩ => show win0_1.index t (0 : Fin 2) * 1024 + 1 * q.val = r.val; omega
  | ⟨1, _⟩ => show win0_1.index t (1 : Fin 2) * 2048 + 1 * k.val = s.val; omega

/-- After a point with k = 0 the accumulator holds one step from the cleared accumulator over the point's blocks. -/
theorem acc_even (c : Dev nD) (t : Fin cfg0.N) (h0 : t.val % 2 = 0) :
    (outsAt0 V c t.val t.isLt).2 = k0_pay2 (k0_pay1 (F := F)) (iblk0 V c 0 t) (iblk0 V c 1 t) := by
  have h1 : ¬t.val % 2 = 1 := by omega
  rw [outsAt0_A V c t h0 h1]
  dsimp only
  exact sout0_A_0_eq c (grid0.coords t) (ms0_0 t) (hs0_0 t) (ms0_1 t) (hs0_1 t) (ms0_2 t) (hs0_2 t)
      scM0_0 (Memref.isWhole_whole _) ((hcond0_0 t).mpr h0) (fun h => h1 ((hcond0_1 t).mp h)) (iblk0 V c 0 t) (iblk0 V c 1 t)

/-- After a point with k = 1 the result block's buffer holds two steps from the cleared accumulator, rounded: over
    the blocks of the point before, then over the point's own. -/
theorem out_odd (c : Dev nD) (t : Fin cfg0.N) (h1 : t.val % 2 = 1) :
    (outsAt0 V c t.val t.isLt).1
      = k0_pay3 (k0_pay2 (k0_pay2 (k0_pay1 (F := F))
          (iblk0 V c 0 ⟨t.val - 1, Nat.lt_of_le_of_lt (Nat.sub_le _ _) t.isLt⟩) (iblk0 V c 1 ⟨t.val - 1, Nat.lt_of_le_of_lt (Nat.sub_le _ _) t.isLt⟩))
          (iblk0 V c 0 t) (iblk0 V c 1 t)) := by
  have h0 : ¬t.val % 2 = 0 := by omega
  rw [outsAt0_B V c t h0 h1]
  dsimp only
  refine (out0_B_2_eq c (grid0.coords t) (ms0_0 t) (hs0_0 t) (ms0_1 t) (hs0_1 t) (ms0_2 t) (hs0_2 t)
      scM0_0 (Memref.isWhole_whole _) (fun h => h0 ((hcond0_0 t).mp h)) ((hcond0_1 t).mpr h1) (iblk0 V c 0 t) (iblk0 V c 1 t)
      (outsAt0 V c (t.val - 1) (Nat.lt_of_le_of_lt (Nat.sub_le _ _) t.isLt)).2).trans ?_
  rw [acc_even V c ⟨t.val - 1, Nat.lt_of_le_of_lt (Nat.sub_le _ _) t.isLt⟩ (by dsimp only; omega)]

end

end Cert.KernelIdeal.Hand

end
-- ==== Proof.Value.R0Value.lean ====
/-
  The value of the first launch: when it ends, the result array holds the product W hᵀ. Every point with k = 1
  writes back its block, and that block is the block of W hᵀ at rows 1024 i .. and columns 1024 j ..: its entry
  (p, q) is the sum over the first 2048 columns (gathered at the point before, k = 0) plus the sum over the last
  2048 (gathered at the point itself), which is the sum over all 4096 columns. The sixteen blocks written back
  cover the array: entry (r, s) lies in the block of the point ((r / 1024) · 4 + s / 1024) · 2 + 1.
-/
import proofs.«152758_j53506702573897_2_alg».proof.Proof.Value.R0Blocks
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

/-- An entry of W hᵀ, its sum over the 4096 columns split into the two halves. -/
theorem whT_halves (W H : Cert.Spec.Mat 4096 4096) (r s : Fin 4096) :
    Cert.Spec.whT W H (ix2 r s)
      = (0 + ∑ k : Fin 2048, W (ix2 r ⟨k.val, by omega⟩) * H (ix2 s ⟨k.val, by omega⟩))
        + ∑ k : Fin 2048, W (ix2 r ⟨2048 + k.val, by omega⟩) * H (ix2 s ⟨2048 + k.val, by omega⟩) := by
  unfold Cert.Spec.whT
  exact sum_halves (fun k => W (ix2 r k) * H (ix2 s k))

/-- Two steps over blocks that are the two column halves of rows r of W and s of h leave entry (r, s) of W hᵀ. -/
theorem block_entry (W H : Cert.Spec.Mat 4096 4096) (a0 b0 a1 b1 : Vec Ideal S1024x2048 .bf16)
    (p q : Fin 1024) (r s : Fin 4096)
    (ha0 : ∀ k : Fin 2048, a0 (ix2 p k) = W (ix2 r ⟨k.val, by omega⟩))
    (hb0 : ∀ k : Fin 2048, b0 (ix2 q k) = H (ix2 s ⟨k.val, by omega⟩))
    (ha1 : ∀ k : Fin 2048, a1 (ix2 p k) = W (ix2 r ⟨2048 + k.val, by omega⟩))
    (hb1 : ∀ k : Fin 2048, b1 (ix2 q k) = H (ix2 s ⟨2048 + k.val, by omega⟩)) :
    (k0_pay3 (k0_pay2 (k0_pay2 (k0_pay1 (F := Ideal)) a0 b0) a1 b1) : S1024x1024.Idx → EReal) (ix2 p q)
      = Cert.Spec.whT W H (ix2 r s) := by
  rw [whT_halves, two_steps_apply]
  simp only [ha0, hb0, ha1, hb1]

section
variable (V : (c : Dev nD) → (b : Ref sig .tc) → Buf (Elt Ideal) ((c : Thread nD τ).loc b))

/-- What a point with k = 1 writes back is its block of W hᵀ. -/
theorem flushed0_2_eq (c : Dev nD) (t : Fin cfg0.N) (hf : (cfg0.win 2).flush t = true) :
    (dat0 V c).flushed 2 t
      = ((cfg0.win 2).blk t).view.read (Elt Ideal) (Cert.Spec.whT (V c main_v0) (V c main_v1)) := by
  have h1 : t.val % 2 = 1 := (flush0_2 t).mp hf
  have hN : t.val < 32 := lt_of_lt_of_eq t.isLt (show cfg0.N = 32 from N_0)
  obtain ⟨-, -, -, -, e4, e5⟩ := idx_facts0 t
  show (cfg0.win 2).cut (grid0.coords t) ((dat0 V c).after 2 t) = _
  rw [after0_2, out_odd V c t h1]
  funext j
  obtain ⟨p, q, rfl⟩ : ∃ (p q : Fin 1024), j = ix2 p q := ⟨j 0, j 1, eq_ix2 j⟩
  rw [View.read_apply]
  have hp : p.val < 1024 := p.isLt
  have hq : q.val < 1024 := q.isLt
  obtain ⟨r, hr⟩ : ∃ r : Fin 4096, r.val = 1024 * (t.val / 8) + p.val := ⟨⟨1024 * (t.val / 8) + p.val, by omega⟩, rfl⟩
  obtain ⟨s, hs⟩ : ∃ s : Fin 4096, s.val = 1024 * ((t.val / 2) % 4) + q.val := ⟨⟨1024 * ((t.val / 2) % 4) + q.val, by omega⟩, rfl⟩
  have hemb : ((cfg0.win 2).blk t).view.emb (ix2 p q) = (ix2 r s : S4096x4096.Idx) := by
    funext a; apply Fin.ext
    match a with
    | ⟨0, _⟩ => show win0_2.index t (0 : Fin 2) * 1024 + 1 * p.val = r.val; omega
    | ⟨1, _⟩ => show win0_2.index t (1 : Fin 2) * 1024 + 1 * q.val = s.val; omega
  show (k0_pay3 (k0_pay2 (k0_pay2 (k0_pay1 (F := Ideal)) (iblk0 V c 0 ⟨t.val - 1, Nat.lt_of_le_of_lt (Nat.sub_le _ _) t.isLt⟩) (iblk0 V c 1 ⟨t.val - 1, Nat.lt_of_le_of_lt (Nat.sub_le _ _) t.isLt⟩)) (iblk0 V c 0 t) (iblk0 V c 1 t)) : S1024x1024.Idx → EReal) (ix2 p q)
    = Cert.Spec.whT (V c main_v0) (V c main_v1) (((cfg0.win 2).blk t).view.emb (ix2 p q))
  rw [hemb]
  refine block_entry (V c main_v0) (V c main_v1) (iblk0 V c 0 ⟨t.val - 1, Nat.lt_of_le_of_lt (Nat.sub_le _ _) t.isLt⟩) (iblk0 V c 1 ⟨t.val - 1, Nat.lt_of_le_of_lt (Nat.sub_le _ _) t.isLt⟩) (iblk0 V c 0 t) (iblk0 V c 1 t)
    p q r s (fun k => ?_) (fun k => ?_) (fun k => ?_) (fun k => ?_)
  · exact iblk0_0_apply V c ⟨t.val - 1, Nat.lt_of_le_of_lt (Nat.sub_le _ _) t.isLt⟩ p k r ⟨k.val, by omega⟩ (by first | (dsimp only; omega) | omega) (by first | (dsimp only; omega) | omega)
  · exact iblk0_1_apply V c ⟨t.val - 1, Nat.lt_of_le_of_lt (Nat.sub_le _ _) t.isLt⟩ q k s ⟨k.val, by omega⟩ (by first | (dsimp only; omega) | omega) (by first | (dsimp only; omega) | omega)
  · exact iblk0_0_apply V c t p k r ⟨2048 + k.val, by omega⟩ (by first | (dsimp only; omega) | omega) (by first | (dsimp only; omega) | omega)
  · exact iblk0_1_apply V c t q k s ⟨2048 + k.val, by omega⟩ (by first | (dsimp only; omega) | omega) (by first | (dsimp only; omega) | omega)

/-- An entry of the array lies in point t's result block iff each coordinate is in the block's range on its axis. -/
theorem mem_blk0_2 (t : Fin cfg0.N) (i : S4096x4096.Idx) :
    i ∈ ((cfg0.win 2).blk t).view.set
      ↔ ∀ a : Fin 2, win0_2.index t a * S1024x1024.size a ≤ (i a).val ∧ (i a).val < win0_2.index t a * S1024x1024.size a + S1024x1024.size a := by
  show i ∈ ((View.whole main_v2).slice (win0_2.rect t)).set ↔ _
  rw [View.set_slice_whole, Rect.mem_set_unit]
  exact Iff.rfl

/-- The blocks written back cover the array: entry (r, s) is in the block of the point with i = r / 1024,
    j = s / 1024 and k = 1. -/
theorem cover0_2 (i : S4096x4096.Idx) :
    ∃ t : Fin cfg0.N, (cfg0.win 2).flush t = true ∧ i ∈ ((cfg0.win 2).blk t).view.set := by
  have hi0 : (i 0).val < 4096 := (i 0).isLt
  have hi1 : (i 1).val < 4096 := (i 1).isLt
  have hN : cfg0.N = 32 := N_0
  obtain ⟨t, ht⟩ : ∃ t : Fin cfg0.N, t.val = (((i 0).val / 1024) * 4 + (i 1).val / 1024) * 2 + 1 :=
    ⟨⟨(((i 0).val / 1024) * 4 + (i 1).val / 1024) * 2 + 1, by rw [hN]; omega⟩, rfl⟩
  obtain ⟨-, -, -, -, e4, e5⟩ := idx_facts0 t
  refine ⟨t, (flush0_2 t).mpr (by omega), ?_⟩
  rw [mem_blk0_2]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- When the first launch ends the result array holds W hᵀ. -/
theorem arr0_value (c : Dev nD) :
    ((dat0 (F := Ideal) V c).arrAt 2 cfg0.N : S4096x4096.Idx → EReal) = Cert.Spec.whT (V c main_v0) (V c main_v1) :=
  (dat0 V c).arrAt_eq_of_cover 2 (Cert.Spec.whT (V c main_v0) (V c main_v1)) (flushed0_2_eq V c) cover0_2

end

end Cert.KernelIdeal.Hand

end
-- ==== Proof.Value.R1Blocks.lean ====
import proofs.«152758_j53506702573897_2_alg».proof.Proof.HandKernelIdeal.R1Frame
import proofs.«152758_j53506702573897_2_alg».proof.Proof.Spec
import Idealize.ShloMosaic.Lib.Pipeline.Value
import Idealize.ShloMosaic.PureOps.Ideal
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx

/-! The operand blocks of a grid point, read off their arrays: at position t of the grid's walk the key block is
    t mod 8 and the query block is t div 8. -/

/-- The printed index maps over the grid: the column's and the values' blocks move with the key block, the row's and
    the result's with the query block. -/
theorem idx_facts1 : ∀ t : Fin cfg1.N,
    win1_0.index t (0 : Fin 2) = t.val % 8 ∧ win1_0.index t (1 : Fin 2) = 0
    ∧ win1_1.index t (0 : Fin 2) = 0 ∧ win1_1.index t (1 : Fin 2) = t.val / 8
    ∧ win1_2.index t (0 : Fin 2) = t.val % 8 ∧ win1_2.index t (1 : Fin 2) = 0
    ∧ win1_3.index t (0 : Fin 2) = 0 ∧ win1_3.index t (1 : Fin 2) = t.val / 8 :=
  (by decide +kernel : ∀ t : Fin grid1.N, _)

section
variable (V : (c : Dev nD) → (b : Ref sig .tc) → Buf (Elt Ideal) ((c : Thread nD τ).loc b))

/-- The column's block at point t, entry r: the column at key 512 · (t mod 8) + r. -/
theorem iblk0_apply (c : Dev nD) (t : Fin cfg1.N) (r : Fin 512) (z : Fin 1) (hlt : 512 * (t.val % 8) + r.val < 4096) :
    (iblk1 V c 0 t : Vec Ideal S512x1 .f32) (ix2 r z)
      = (V c main_v8 : Cert.Spec.Mat 4096 1) (ix2 (⟨512 * (t.val % 8) + r.val, hlt⟩ : Fin 4096) (0 : Fin 1)) := by
  obtain ⟨e0, e1, -⟩ := idx_facts1 t
  unfold iblk1
  rw [View.read_apply]
  show V c main_v8 _ = V c main_v8 _
  congr 1
  funext a
  apply Fin.ext
  match a with
  | ⟨0, _⟩ => show win1_0.index t (0 : Fin 2) * 512 + 1 * r.val = 512 * (t.val % 8) + r.val; rw [e0]; omega
  | ⟨1, _⟩ => show win1_0.index t (1 : Fin 2) * 1 + 1 * z.val = 0; rw [e1]; have := z.isLt; omega

/-- The row's block at point t, lane i: the row at query 256 · (t div 8) + i. -/
theorem iblk1_apply (c : Dev nD) (t : Fin cfg1.N) (z : Fin 1) (i : Fin 256) (hlt : 256 * (t.val / 8) + i.val < 4096) :
    (iblk1 V c 1 t : Vec Ideal S1x256 .f32) (ix2 z i)
      = (V c main_v10 : Cert.Spec.Mat 1 4096) (ix2 (0 : Fin 1) (⟨256 * (t.val / 8) + i.val, hlt⟩ : Fin 4096)) := by
  obtain ⟨-, -, e0, e1, -⟩ := idx_facts1 t
  unfold iblk1
  rw [View.read_apply]
  show V c main_v10 _ = V c main_v10 _
  congr 1
  funext a
  apply Fin.ext
  match a with
  | ⟨0, _⟩ => show win1_1.index t (0 : Fin 2) * 1 + 1 * z.val = 0; rw [e0]; have := z.isLt; omega
  | ⟨1, _⟩ => show win1_1.index t (1 : Fin 2) * 256 + 1 * i.val = 256 * (t.val / 8) + i.val; rw [e1]; omega

/-- The values' block at point t, entry (r, n): the values at key 512 · (t mod 8) + r, column n. -/
theorem iblk2_apply (c : Dev nD) (t : Fin cfg1.N) (r : Fin 512) (n : Fin 4096) (hlt : 512 * (t.val % 8) + r.val < 4096) :
    (iblk1 V c 2 t : Vec Ideal S512x4096 .bf16) (ix2 r n)
      = (V c main_v2 : Cert.Spec.Mat 4096 4096) (ix2 (⟨512 * (t.val % 8) + r.val, hlt⟩ : Fin 4096) n) := by
  obtain ⟨-, -, -, -, e0, e1, -⟩ := idx_facts1 t
  unfold iblk1
  rw [View.read_apply]
  show V c main_v2 _ = V c main_v2 _
  congr 1
  funext a
  apply Fin.ext
  match a with
  | ⟨0, _⟩ => show win1_2.index t (0 : Fin 2) * 512 + 1 * r.val = 512 * (t.val % 8) + r.val; rw [e0]; omega
  | ⟨1, _⟩ => show win1_2.index t (1 : Fin 2) * 4096 + 1 * n.val = n.val; rw [e1]; omega

end

end Cert.KernelIdeal.Hand

end
-- ==== Proof.Value.R1PieceA.lean ====
import proofs.«152758_j53506702573897_2_alg».proof.Proof.HandKernelIdeal.R1Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! What the body leaves in the three running buffers at the first block of keys: the arithmetic of one block applied
    to the operand blocks and the reset values (−∞ for the maximum, 0 for the denominator and the weighted sum). -/

theorem hz2A : (![0, 0] : Fin 2 → Nat) = fun _ => 0 := funext fun a => by fin_cases a <;> rfl

/-- The running maximum after the first block. -/
theorem sout1_A_0_eq (c : Dev nD) (i : grid1.Coords) (arg2 : Memref sig .tc .vmem S512x1 .f32) (harg2 : arg2.IsWhole) (arg3 : Memref sig .tc .vmem S1x256 .f32) (harg3 : arg3.IsWhole) (arg4 : Memref sig .tc .vmem S512x4096 .bf16) (harg4 : arg4.IsWhole) (arg5 : Memref sig .tc .vmem S4096x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S4096x256 .f32) (harg8 : arg8.IsWhole) (hc0 : cond1_0 i) (hc1 : ¬cond1_1 i) (x0 : Vec F S512x1 .f32) (x1 : Vec F S1x256 .f32) (x2 : Vec F S512x4096 .bf16) :
    sout1_A_0 c i arg2 harg2 arg3 harg3 arg4 harg4 arg5 harg5 arg6 harg6 arg7 harg7 arg8 harg8 hc0 hc1 x0 x1 x2 = k1_pay2 (k1_pay8 x0 x1 k1_pay4) := by
  unfold sout1_A_0
  rw [View.read_writes_eq_canon _ _ _ (scover1_A_0 c i arg2 harg2 arg3 harg3 arg4 harg4 arg5 harg5 arg6 harg6 arg7 harg7 arg8 harg8 hc0 hc1 x0 x1 x2)]
  unfold kernelRun1_A
  dsimp only
  sl_unfold_words
  rw [View.canon_cons_unit_zero (S := S1x256) hz2A]
  simp only [View.readCov_unit_zero (S := S1x256) _ hz2A, View.readAt_eq_ld, harg2.read_unread, harg3.read_unread, harg4.read_unread, harg6.read_unread, harg7.read_unread, harg8.read_unread,
    View.ld_unit_zero (S := S512x1) hz2A, View.ld_unit_zero (S := S1x256) hz2A, View.ld_unit_zero (S := S512x4096) hz2A,
    View.ld_unit_zero (S := S4096x256) hz2A]

/-- The running denominator after the first block. -/
theorem sout1_A_1_eq (c : Dev nD) (i : grid1.Coords) (arg2 : Memref sig .tc .vmem S512x1 .f32) (harg2 : arg2.IsWhole) (arg3 : Memref sig .tc .vmem S1x256 .f32) (harg3 : arg3.IsWhole) (arg4 : Memref sig .tc .vmem S512x4096 .bf16) (harg4 : arg4.IsWhole) (arg5 : Memref sig .tc .vmem S4096x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S4096x256 .f32) (harg8 : arg8.IsWhole) (hc0 : cond1_0 i) (hc1 : ¬cond1_1 i) (x0 : Vec F S512x1 .f32) (x1 : Vec F S1x256 .f32) (x2 : Vec F S512x4096 .bf16) :
    sout1_A_1 c i arg2 harg2 arg3 harg3 arg4 harg4 arg5 harg5 arg6 harg6 arg7 harg7 arg8 harg8 hc0 hc1 x0 x1 x2 = k1_pay11 x0 x1 k1_pay4 k1_pay4 k1_pay5 := by
  unfold sout1_A_1
  rw [View.read_writes_eq_canon _ _ _ (scover1_A_1 c i arg2 harg2 arg3 harg3 arg4 harg4 arg5 harg5 arg6 harg6 arg7 harg7 arg8 harg8 hc0 hc1 x0 x1 x2)]
  unfold kernelRun1_A
  dsimp only
  sl_unfold_words
  rw [View.canon_cons_unit_zero (S := S1x256) hz2A]
  simp only [View.readCov_unit_zero (S := S1x256) _ hz2A, View.readAt_eq_ld, harg2.read_unread, harg3.read_unread, harg4.read_unread, harg6.read_unread, harg7.read_unread, harg8.read_unread,
    View.ld_unit_zero (S := S512x1) hz2A, View.ld_unit_zero (S := S1x256) hz2A, View.ld_unit_zero (S := S512x4096) hz2A,
    View.ld_unit_zero (S := S4096x256) hz2A]

/-- The running weighted sum after the first block. -/
theorem sout1_A_2_eq (c : Dev nD) (i : grid1.Coords) (arg2 : Memref sig .tc .vmem S512x1 .f32) (harg2 : arg2.IsWhole) (arg3 : Memref sig .tc .vmem S1x256 .f32) (harg3 : arg3.IsWhole) (arg4 : Memref sig .tc .vmem S512x4096 .bf16) (harg4 : arg4.IsWhole) (arg5 : Memref sig .tc .vmem S4096x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S4096x256 .f32) (harg8 : arg8.IsWhole) (hc0 : cond1_0 i) (hc1 : ¬cond1_1 i) (x0 : Vec F S512x1 .f32) (x1 : Vec F S1x256 .f32) (x2 : Vec F S512x4096 .bf16) :
    sout1_A_2 c i arg2 harg2 arg3 harg3 arg4 harg4 arg5 harg5 arg6 harg6 arg7 harg7 arg8 harg8 hc0 hc1 x0 x1 x2
      = k1_pay1 (k1_pay9 x0 x1 k1_pay4 k1_pay4) (k1_pay12 x2) (k1_pay13 x0 x1 k1_pay4) k1_pay6 := by
  unfold sout1_A_2
  rw [View.read_writes_eq_canon _ _ _ (scover1_A_2 c i arg2 harg2 arg3 harg3 arg4 harg4 arg5 harg5 arg6 harg6 arg7 harg7 arg8 harg8 hc0 hc1 x0 x1 x2)]
  unfold kernelRun1_A
  dsimp only
  sl_unfold_words
  rw [View.canon_cons_unit_zero (S := S4096x256) hz2A]
  simp only [View.readCov_unit_zero (S := S1x256) _ hz2A, View.readCov_unit_zero (S := S4096x256) _ hz2A, View.readAt_eq_ld, harg2.read_unread, harg3.read_unread, harg4.read_unread, harg6.read_unread, harg7.read_unread, harg8.read_unread,
    View.ld_unit_zero (S := S512x1) hz2A, View.ld_unit_zero (S := S1x256) hz2A, View.ld_unit_zero (S := S512x4096) hz2A,
    View.ld_unit_zero (S := S4096x256) hz2A]

end Cert.KernelIdeal.Hand

end
-- ==== Proof.Value.R1PieceB.lean ====
import proofs.«152758_j53506702573897_2_alg».proof.Proof.HandKernelIdeal.R1Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! What the body leaves in the three running buffers at a middle point (neither the first nor the last block of
    keys), as the arithmetic of one block applied to the operand blocks and the running buffers' contents. -/

theorem hz2B : (![0, 0] : Fin 2 → Nat) = fun _ => 0 := funext fun a => by fin_cases a <;> rfl

/-- The running maximum after a middle point. -/
theorem sout1_B_0_eq (c : Dev nD) (i : grid1.Coords) (arg2 : Memref sig .tc .vmem S512x1 .f32) (harg2 : arg2.IsWhole) (arg3 : Memref sig .tc .vmem S1x256 .f32) (harg3 : arg3.IsWhole) (arg4 : Memref sig .tc .vmem S512x4096 .bf16) (harg4 : arg4.IsWhole) (arg5 : Memref sig .tc .vmem S4096x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S4096x256 .f32) (harg8 : arg8.IsWhole) (hc0 : ¬cond1_0 i) (hc1 : ¬cond1_1 i) (x0 : Vec F S512x1 .f32) (x1 : Vec F S1x256 .f32) (x2 : Vec F S512x4096 .bf16) (xs0 : Vec F S1x256 .f32) (xs1 : Vec F S1x256 .f32) (xs2 : Vec F S4096x256 .f32) :
    sout1_B_0 c i arg2 harg2 arg3 harg3 arg4 harg4 arg5 harg5 arg6 harg6 arg7 harg7 arg8 harg8 hc0 hc1 x0 x1 x2 xs0 xs1 xs2 = k1_pay2 (k1_pay8 x0 x1 xs0) := by
  unfold sout1_B_0
  rw [View.read_writes_eq_canon _ _ _ (scover1_B_0 c i arg2 harg2 arg3 harg3 arg4 harg4 arg5 harg5 arg6 harg6 arg7 harg7 arg8 harg8 hc0 hc1 x0 x1 x2 xs0 xs1 xs2)]
  unfold kernelRun1_B
  dsimp only
  sl_unfold_words
  rw [View.canon_unit_zero hz2B]
  simp only [View.readAt_eq_ld, harg2.read_unread, harg3.read_unread, harg6.read_unread,
    View.ld_unit_zero (S := S512x1) hz2B, View.ld_unit_zero (S := S1x256) hz2B]

/-- The running denominator after a middle point. -/
theorem sout1_B_1_eq (c : Dev nD) (i : grid1.Coords) (arg2 : Memref sig .tc .vmem S512x1 .f32) (harg2 : arg2.IsWhole) (arg3 : Memref sig .tc .vmem S1x256 .f32) (harg3 : arg3.IsWhole) (arg4 : Memref sig .tc .vmem S512x4096 .bf16) (harg4 : arg4.IsWhole) (arg5 : Memref sig .tc .vmem S4096x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S4096x256 .f32) (harg8 : arg8.IsWhole) (hc0 : ¬cond1_0 i) (hc1 : ¬cond1_1 i) (x0 : Vec F S512x1 .f32) (x1 : Vec F S1x256 .f32) (x2 : Vec F S512x4096 .bf16) (xs0 : Vec F S1x256 .f32) (xs1 : Vec F S1x256 .f32) (xs2 : Vec F S4096x256 .f32) :
    sout1_B_1 c i arg2 harg2 arg3 harg3 arg4 harg4 arg5 harg5 arg6 harg6 arg7 harg7 arg8 harg8 hc0 hc1 x0 x1 x2 xs0 xs1 xs2 = k1_pay11 x0 x1 xs0 xs0 xs1 := by
  unfold sout1_B_1
  rw [View.read_writes_eq_canon _ _ _ (scover1_B_1 c i arg2 harg2 arg3 harg3 arg4 harg4 arg5 harg5 arg6 harg6 arg7 harg7 arg8 harg8 hc0 hc1 x0 x1 x2 xs0 xs1 xs2)]
  unfold kernelRun1_B
  dsimp only
  sl_unfold_words
  rw [View.canon_unit_zero hz2B]
  simp only [View.readAt_eq_ld, harg2.read_unread, harg3.read_unread, harg6.read_unread, harg7.read_unread,
    View.ld_unit_zero (S := S512x1) hz2B, View.ld_unit_zero (S := S1x256) hz2B]

/-- The running weighted sum after a middle point. -/
theorem sout1_B_2_eq (c : Dev nD) (i : grid1.Coords) (arg2 : Memref sig .tc .vmem S512x1 .f32) (harg2 : arg2.IsWhole) (arg3 : Memref sig .tc .vmem S1x256 .f32) (harg3 : arg3.IsWhole) (arg4 : Memref sig .tc .vmem S512x4096 .bf16) (harg4 : arg4.IsWhole) (arg5 : Memref sig .tc .vmem S4096x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S4096x256 .f32) (harg8 : arg8.IsWhole) (hc0 : ¬cond1_0 i) (hc1 : ¬cond1_1 i) (x0 : Vec F S512x1 .f32) (x1 : Vec F S1x256 .f32) (x2 : Vec F S512x4096 .bf16) (xs0 : Vec F S1x256 .f32) (xs1 : Vec F S1x256 .f32) (xs2 : Vec F S4096x256 .f32) :
    sout1_B_2 c i arg2 harg2 arg3 harg3 arg4 harg4 arg5 harg5 arg6 harg6 arg7 harg7 arg8 harg8 hc0 hc1 x0 x1 x2 xs0 xs1 xs2
      = k1_pay1 (k1_pay9 x0 x1 xs0 xs0) (k1_pay12 x2) (k1_pay13 x0 x1 xs0) xs2 := by
  unfold sout1_B_2
  rw [View.read_writes_eq_canon _ _ _ (scover1_B_2 c i arg2 harg2 arg3 harg3 arg4 harg4 arg5 harg5 arg6 harg6 arg7 harg7 arg8 harg8 hc0 hc1 x0 x1 x2 xs0 xs1 xs2)]
  unfold kernelRun1_B
  dsimp only
  sl_unfold_words
  rw [View.canon_unit_zero hz2B]
  simp only [View.readAt_eq_ld, harg2.read_unread, harg3.read_unread, harg4.read_unread, harg6.read_unread, harg8.read_unread,
    View.ld_unit_zero (S := S512x1) hz2B, View.ld_unit_zero (S := S1x256) hz2B, View.ld_unit_zero (S := S512x4096) hz2B,
    View.ld_unit_zero (S := S4096x256) hz2B]

end Cert.KernelIdeal.Hand

end
-- ==== Proof.Value.R1PieceC.lean ====
import proofs.«152758_j53506702573897_2_alg».proof.Proof.HandKernelIdeal.R1Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! What the body leaves at the last block of keys: the three running buffers as at a middle point, and in the result
    block's buffer the exponential-linear unit of the weighted sum over the denominator, both as just updated. -/

theorem hz2C : (![0, 0] : Fin 2 → Nat) = fun _ => 0 := funext fun a => by fin_cases a <;> rfl

/-- The running maximum after the last block. -/
theorem sout1_C_0_eq (c : Dev nD) (i : grid1.Coords) (arg2 : Memref sig .tc .vmem S512x1 .f32) (harg2 : arg2.IsWhole) (arg3 : Memref sig .tc .vmem S1x256 .f32) (harg3 : arg3.IsWhole) (arg4 : Memref sig .tc .vmem S512x4096 .bf16) (harg4 : arg4.IsWhole) (arg5 : Memref sig .tc .vmem S4096x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S4096x256 .f32) (harg8 : arg8.IsWhole) (hc0 : ¬cond1_0 i) (hc1 : cond1_1 i) (x0 : Vec F S512x1 .f32) (x1 : Vec F S1x256 .f32) (x2 : Vec F S512x4096 .bf16) (xs0 : Vec F S1x256 .f32) (xs1 : Vec F S1x256 .f32) (xs2 : Vec F S4096x256 .f32) :
    sout1_C_0 c i arg2 harg2 arg3 harg3 arg4 harg4 arg5 harg5 arg6 harg6 arg7 harg7 arg8 harg8 hc0 hc1 x0 x1 x2 xs0 xs1 xs2 = k1_pay2 (k1_pay8 x0 x1 xs0) := by
  unfold sout1_C_0
  rw [View.read_writes_eq_canon _ _ _ (scover1_C_0 c i arg2 harg2 arg3 harg3 arg4 harg4 arg5 harg5 arg6 harg6 arg7 harg7 arg8 harg8 hc0 hc1 x0 x1 x2 xs0 xs1 xs2)]
  unfold kernelRun1_C
  dsimp only
  sl_unfold_words
  rw [View.canon_unit_zero hz2C]
  simp only [View.readAt_eq_ld, harg2.read_unread, harg3.read_unread, harg4.read_unread, harg6.read_unread, harg7.read_unread, harg8.read_unread,
    View.ld_unit_zero (S := S512x1) hz2C, View.ld_unit_zero (S := S1x256) hz2C, View.ld_unit_zero (S := S512x4096) hz2C,
    View.ld_unit_zero (S := S4096x256) hz2C]

/-- The running denominator after the last block. -/
theorem sout1_C_1_eq (c : Dev nD) (i : grid1.Coords) (arg2 : Memref sig .tc .vmem S512x1 .f32) (harg2 : arg2.IsWhole) (arg3 : Memref sig .tc .vmem S1x256 .f32) (harg3 : arg3.IsWhole) (arg4 : Memref sig .tc .vmem S512x4096 .bf16) (harg4 : arg4.IsWhole) (arg5 : Memref sig .tc .vmem S4096x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S4096x256 .f32) (harg8 : arg8.IsWhole) (hc0 : ¬cond1_0 i) (hc1 : cond1_1 i) (x0 : Vec F S512x1 .f32) (x1 : Vec F S1x256 .f32) (x2 : Vec F S512x4096 .bf16) (xs0 : Vec F S1x256 .f32) (xs1 : Vec F S1x256 .f32) (xs2 : Vec F S4096x256 .f32) :
    sout1_C_1 c i arg2 harg2 arg3 harg3 arg4 harg4 arg5 harg5 arg6 harg6 arg7 harg7 arg8 harg8 hc0 hc1 x0 x1 x2 xs0 xs1 xs2 = k1_pay11 x0 x1 xs0 xs0 xs1 := by
  unfold sout1_C_1
  rw [View.read_writes_eq_canon _ _ _ (scover1_C_1 c i arg2 harg2 arg3 harg3 arg4 harg4 arg5 harg5 arg6 harg6 arg7 harg7 arg8 harg8 hc0 hc1 x0 x1 x2 xs0 xs1 xs2)]
  unfold kernelRun1_C
  dsimp only
  sl_unfold_words
  rw [View.canon_unit_zero hz2C]
  simp only [View.readAt_eq_ld, harg2.read_unread, harg3.read_unread, harg4.read_unread, harg6.read_unread, harg7.read_unread, harg8.read_unread,
    View.ld_unit_zero (S := S512x1) hz2C, View.ld_unit_zero (S := S1x256) hz2C, View.ld_unit_zero (S := S512x4096) hz2C,
    View.ld_unit_zero (S := S4096x256) hz2C]

/-- The running weighted sum after the last block. -/
theorem sout1_C_2_eq (c : Dev nD) (i : grid1.Coords) (arg2 : Memref sig .tc .vmem S512x1 .f32) (harg2 : arg2.IsWhole) (arg3 : Memref sig .tc .vmem S1x256 .f32) (harg3 : arg3.IsWhole) (arg4 : Memref sig .tc .vmem S512x4096 .bf16) (harg4 : arg4.IsWhole) (arg5 : Memref sig .tc .vmem S4096x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S4096x256 .f32) (harg8 : arg8.IsWhole) (hc0 : ¬cond1_0 i) (hc1 : cond1_1 i) (x0 : Vec F S512x1 .f32) (x1 : Vec F S1x256 .f32) (x2 : Vec F S512x4096 .bf16) (xs0 : Vec F S1x256 .f32) (xs1 : Vec F S1x256 .f32) (xs2 : Vec F S4096x256 .f32) :
    sout1_C_2 c i arg2 harg2 arg3 harg3 arg4 harg4 arg5 harg5 arg6 harg6 arg7 harg7 arg8 harg8 hc0 hc1 x0 x1 x2 xs0 xs1 xs2
      = k1_pay1 (k1_pay9 x0 x1 xs0 xs0) (k1_pay12 x2) (k1_pay13 x0 x1 xs0) xs2 := by
  unfold sout1_C_2
  rw [View.read_writes_eq_canon _ _ _ (scover1_C_2 c i arg2 harg2 arg3 harg3 arg4 harg4 arg5 harg5 arg6 harg6 arg7 harg7 arg8 harg8 hc0 hc1 x0 x1 x2 xs0 xs1 xs2)]
  unfold kernelRun1_C
  dsimp only
  sl_unfold_words
  rw [View.canon_unit_zero hz2C]
  simp only [View.readAt_eq_ld, harg2.read_unread, harg3.read_unread, harg4.read_unread, harg6.read_unread, harg7.read_unread, harg8.read_unread,
    View.ld_unit_zero (S := S512x1) hz2C, View.ld_unit_zero (S := S1x256) hz2C, View.ld_unit_zero (S := S512x4096) hz2C,
    View.ld_unit_zero (S := S4096x256) hz2C]

/-- The result block after the last block of keys. -/
theorem out1_C_3_eq (c : Dev nD) (i : grid1.Coords) (arg2 : Memref sig .tc .vmem S512x1 .f32) (harg2 : arg2.IsWhole) (arg3 : Memref sig .tc .vmem S1x256 .f32) (harg3 : arg3.IsWhole) (arg4 : Memref sig .tc .vmem S512x4096 .bf16) (harg4 : arg4.IsWhole) (arg5 : Memref sig .tc .vmem S4096x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S4096x256 .f32) (harg8 : arg8.IsWhole) (hc0 : ¬cond1_0 i) (hc1 : cond1_1 i) (x0 : Vec F S512x1 .f32) (x1 : Vec F S1x256 .f32) (x2 : Vec F S512x4096 .bf16) (xs0 : Vec F S1x256 .f32) (xs1 : Vec F S1x256 .f32) (xs2 : Vec F S4096x256 .f32) :
    out1_C_3 c i arg2 harg2 arg3 harg3 arg4 harg4 arg5 harg5 arg6 harg6 arg7 harg7 arg8 harg8 hc0 hc1 x0 x1 x2 xs0 xs1 xs2
      = k1_pay3 (k1_pay1 (k1_pay9 x0 x1 xs0 xs0) (k1_pay12 x2) (k1_pay13 x0 x1 xs0) xs2) (k1_pay11 x0 x1 xs0 xs0 xs1) := by
  unfold out1_C_3
  rw [View.read_writes_eq_canon _ _ _ (cover1_C_3 c i arg2 harg2 arg3 harg3 arg4 harg4 arg5 harg5 arg6 harg6 arg7 harg7 arg8 harg8 hc0 hc1 x0 x1 x2 xs0 xs1 xs2)]
  unfold kernelRun1_C
  dsimp only
  sl_unfold_words
  rw [View.canon_unit_zero hz2C]
  simp only [View.readCov_unit_zero (S := S1x256) _ hz2C, View.readCov_unit_zero (S := S4096x256) _ hz2C, View.readAt_eq_ld, harg2.read_unread, harg3.read_unread, harg4.read_unread, harg6.read_unread, harg7.read_unread, harg8.read_unread,
    View.ld_unit_zero (S := S512x1) hz2C, View.ld_unit_zero (S := S1x256) hz2C, View.ld_unit_zero (S := S512x4096) hz2C,
    View.ld_unit_zero (S := S4096x256) hz2C]

end Cert.KernelIdeal.Hand

end
-- ==== Proof.Value.R1Outs.lean ====
import proofs.«152758_j53506702573897_2_alg».proof.Proof.Value.R1PieceA
import proofs.«152758_j53506702573897_2_alg».proof.Proof.Value.R1PieceB
import proofs.«152758_j53506702573897_2_alg».proof.Proof.Value.R1PieceC
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! What the three running buffers and the result block's buffer hold after each grid point, as the arithmetic of one
    block applied to the point's operand blocks and to what the point before left: at the first block of keys from
    the reset values, afterwards from the running buffers. -/

section
variable (V : (c : Dev nD) → (b : Ref sig .tc) → Buf (Elt Ideal) ((c : Thread nD τ).loc b))

/-- After a point at the first block of keys. -/
theorem outs_A (c : Dev nD) (t : Fin cfg1.N) (h0 : t.val % 8 = 0) (h1 : ¬t.val % 8 = 7) :
    (outsAt1 V c t.val t.isLt).2.1 = k1_pay2 (F := Ideal) (k1_pay8 (F := Ideal) (iblk1 V c 0 t) (iblk1 V c 1 t) (k1_pay4 (F := Ideal)))
    ∧ (outsAt1 V c t.val t.isLt).2.2.1 = k1_pay11 (F := Ideal) (iblk1 V c 0 t) (iblk1 V c 1 t) (k1_pay4 (F := Ideal)) (k1_pay4 (F := Ideal)) (k1_pay5 (F := Ideal))
    ∧ (outsAt1 V c t.val t.isLt).2.2.2 = k1_pay1 (F := Ideal) (k1_pay9 (F := Ideal) (iblk1 V c 0 t) (iblk1 V c 1 t) (k1_pay4 (F := Ideal)) (k1_pay4 (F := Ideal))) (k1_pay12 (F := Ideal) (iblk1 V c 2 t)) (k1_pay13 (F := Ideal) (iblk1 V c 0 t) (iblk1 V c 1 t) (k1_pay4 (F := Ideal))) (k1_pay6 (F := Ideal)) := by
  rw [outsAt1_A V c t h0 h1]
  dsimp only
  refine ⟨?_, ?_, ?_⟩
  · exact sout1_A_0_eq (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)
  · exact sout1_A_1_eq (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)
  · exact sout1_A_2_eq (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)

/-- After a point at a middle block of keys. -/
theorem outs_B (c : Dev nD) (t : Fin cfg1.N) (h0 : ¬t.val % 8 = 0) (h1 : ¬t.val % 8 = 7) :
    (outsAt1 V c t.val t.isLt).2.1 = k1_pay2 (F := Ideal) (k1_pay8 (F := Ideal) (iblk1 V c 0 t) (iblk1 V c 1 t) (outsAt1 V c (t.val - 1) (Nat.lt_of_le_of_lt (Nat.sub_le _ _) t.isLt)).2.1)
    ∧ (outsAt1 V c t.val t.isLt).2.2.1 = k1_pay11 (F := Ideal) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.1 (outsAt1 V c (t.val - 1) (Nat.lt_of_le_of_lt (Nat.sub_le _ _) t.isLt)).2.2.1
    ∧ (outsAt1 V c t.val t.isLt).2.2.2 = k1_pay1 (F := Ideal) (k1_pay9 (F := Ideal) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.1) (k1_pay12 (F := Ideal) (iblk1 V c 2 t)) (k1_pay13 (F := Ideal) (iblk1 V c 0 t) (iblk1 V c 1 t) (outsAt1 V c (t.val - 1) (Nat.lt_of_le_of_lt (Nat.sub_le _ _) t.isLt)).2.1) (outsAt1 V c (t.val - 1) (Nat.lt_of_le_of_lt (Nat.sub_le _ _) t.isLt)).2.2.2 := by
  rw [outsAt1_B V c t h0 h1]
  dsimp only
  refine ⟨?_, ?_, ?_⟩
  · exact sout1_B_0_eq (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2
  · exact sout1_B_1_eq (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2
  · exact sout1_B_2_eq (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2

/-- After a point at the last block of keys: the running buffers, and the result block. -/
theorem outs_C (c : Dev nD) (t : Fin cfg1.N) (h0 : ¬t.val % 8 = 0) (h1 : t.val % 8 = 7) :
    ((outsAt1 V c t.val t.isLt).2.1 = k1_pay2 (F := Ideal) (k1_pay8 (F := Ideal) (iblk1 V c 0 t) (iblk1 V c 1 t) (outsAt1 V c (t.val - 1) (Nat.lt_of_le_of_lt (Nat.sub_le _ _) t.isLt)).2.1)
    ∧ (outsAt1 V c t.val t.isLt).2.2.1 = k1_pay11 (F := Ideal) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.1 (outsAt1 V c (t.val - 1) (Nat.lt_of_le_of_lt (Nat.sub_le _ _) t.isLt)).2.2.1
    ∧ (outsAt1 V c t.val t.isLt).2.2.2 = k1_pay1 (F := Ideal) (k1_pay9 (F := Ideal) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.1) (k1_pay12 (F := Ideal) (iblk1 V c 2 t)) (k1_pay13 (F := Ideal) (iblk1 V c 0 t) (iblk1 V c 1 t) (outsAt1 V c (t.val - 1) (Nat.lt_of_le_of_lt (Nat.sub_le _ _) t.isLt)).2.1) (outsAt1 V c (t.val - 1) (Nat.lt_of_le_of_lt (Nat.sub_le _ _) t.isLt)).2.2.2)
    ∧ (outsAt1 V c t.val t.isLt).1 = k1_pay3 (F := Ideal) (k1_pay1 (F := Ideal) (k1_pay9 (F := Ideal) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.1) (k1_pay12 (F := Ideal) (iblk1 V c 2 t)) (k1_pay13 (F := Ideal) (iblk1 V c 0 t) (iblk1 V c 1 t) (outsAt1 V c (t.val - 1) (Nat.lt_of_le_of_lt (Nat.sub_le _ _) t.isLt)).2.1) (outsAt1 V c (t.val - 1) (Nat.lt_of_le_of_lt (Nat.sub_le _ _) t.isLt)).2.2.2) (k1_pay11 (F := Ideal) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.1 (outsAt1 V c (t.val - 1) (Nat.lt_of_le_of_lt (Nat.sub_le _ _) t.isLt)).2.2.1) := by
  rw [outsAt1_C V c t h0 h1]
  dsimp only
  refine ⟨⟨?_, ?_, ?_⟩, ?_⟩
  · exact sout1_C_0_eq (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2
  · exact sout1_C_1_eq (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2
  · exact sout1_C_2_eq (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2
  · exact out1_C_3_eq (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2

end

end Cert.KernelIdeal.Hand

end
-- ==== Proof.Value.R1Pay.lean ====
/-
  One block's arithmetic read at an index, over the extended reals: the scores of a block of keys, the running
  maximum, the rescaling factor, the running denominator, the running weighted sum and the result entry.
-/
import proofs.«152758_j53506702573897_2_alg».proof.Proof.Gen.KernelIdeal.Skeleton
import proofs.«152758_j53506702573897_2_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.ValueIdx
open scoped BigOperators

/-! ## Layout -/

/-- A column [a, 1] broadcast to [a, b] reads, at (p, c), the column at p. -/
theorem bcastCol_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [b] viewed as the row [1, b] reads, at (0, c), the vector at c. -/
theorem castRow_apply {α : Type} {b : ℕ} (v : (⟨1, ![b]⟩ : Shape).Idx → α) (h : (⟨1, ![b]⟩ : Shape).ShapeCasts ⟨2, ![1, b]⟩)
    (c : Fin b) : shapeCast ⟨2, ![1, b]⟩ v h (ix2 (0 : Fin 1) c) = v (ix1 c) := by
  refine shapeCast_apply v h (ix2 (0 : Fin 1) c) (ix1 c) ?_
  rw [Shape.rowMajor_val_one, Shape.rowMajor_val_two]
  show c.val = 0 * b + c.val
  omega

/-- The index of the block of scores over lane c with key r inserted on the reduced axis is (r, c). -/
theorem lift_col (c : Fin 256) (r : Fin 512) :
    reduces_S512x256_S256.lift (ix1 c) r = (ix2 r c : S512x256.Idx) := by
  funext ax
  match ax with
  | ⟨0, _⟩ => exact Fin.ext rfl
  | ⟨1, _⟩ => exact Fin.ext rfl

/-! ## The scores of a block -/

/-- The block's score of key r for lane c: the leaky rectifier of the column's entry plus the row's. -/
theorem pay7_apply (x0 : Vec Ideal S512x1 .f32) (x1 : Vec Ideal S1x256 .f32) (r : Fin 512) (c : Fin 256) :
    k1_pay7 (F := Ideal) x0 x1 (ix2 r c) = Cert.Spec.lrelu (x0 (ix2 r (0 : Fin 1)) + x1 (ix2 (0 : Fin 1) c)) := by
  have e0 : broadcastTo S512x256 x0 broadcasts_S512x1_S512x256 (ix2 r c) = x0 (ix2 r (0 : Fin 1)) :=
    bcastCol_apply x0 broadcasts_S512x1_S512x256 r c
  have e1 : broadcastTo S512x256 x1 broadcasts_S1x256_S512x256 (ix2 r c) = x1 (ix2 (0 : Fin 1) c) :=
    broadcastTo_1b_ab_apply x1 broadcasts_S1x256_S512x256 r c
  unfold k1_pay7 Cert.Spec.lrelu
  simp only [shapeCast_self]
  show Scalar.select (FloatOps.cmpf .oge (broadcastTo S512x256 x0 broadcasts_S512x1_S512x256 (ix2 r c) + broadcastTo S512x256 x1 broadcasts_S1x256_S512x256 (ix2 r c)) (Ideal.ofBits .f32 0x00000000#32))
      (broadcastTo S512x256 x0 broadcasts_S512x1_S512x256 (ix2 r c) + broadcastTo S512x256 x1 broadcasts_S1x256_S512x256 (ix2 r c))
      (Ideal.ofBits .f32 0x3E4CCCCD#32 * (broadcastTo S512x256 x0 broadcasts_S512x1_S512x256 (ix2 r c) + broadcastTo S512x256 x1 broadcasts_S1x256_S512x256 (ix2 r c))) = _
  rw [e0, e1]

/-- The −∞ word denotes the bottom of the extended reals. -/
theorem neg_inf_word : Ideal.ofBits .f32 0xFF800000#32 = ⊥ := by simp [Ideal.ofBits, Ideal.ieee]

/-- A column maximum of a block of scores: the fold of max from −∞ over the block's keys. -/
theorem colMax_apply (src : FVec Ideal S512x256 .f32) (c : Fin 256) :
    multiReduction .maximumf [0] S256 src 0xFF800000#32 reduces_S512x256_S256 (.inl rfl) rfl (ix1 c)
      = (Finset.univ : Finset (Fin 512)).fold max ⊥ (fun r => src (ix2 r c)) := by
  refine (Ideal.multiReduction_maximumf_single src 0xFF800000#32 reduces_S512x256_S256 (.inl rfl) rfl (ix1 c)).trans ?_
  show (Finset.univ : Finset (Fin 512)).fold max (Ideal.ofBits .f32 0xFF800000#32) (fun r => src (reduces_S512x256_S256.lift (ix1 c) r)) = _
  rw [neg_inf_word]
  exact congrArg (fun f => (Finset.univ : Finset (Fin 512)).fold max ⊥ f) (funext fun r => congrArg src (lift_col c r))

/-- A column sum of a block: the sum over the block's keys. -/
theorem colSum_apply (src : FVec Ideal S512x256 .f32) (c : Fin 256) :
    multiReduction .add [0] S256 src 0x00000000#32 reduces_S512x256_S256 (.inl rfl) rfl (ix1 c)
      = ∑ r : Fin 512, src (ix2 r c) := by
  refine (Ideal.multiReduction_add_single src 0x00000000#32 reduces_S512x256_S256 (.inl rfl) rfl (ix1 c)).trans ?_
  show ∑ r : Fin 512, src (reduces_S512x256_S256.lift (ix1 c) r) = _
  exact Finset.sum_congr rfl fun r _ => congrArg src (lift_col c r)

/-! ## The running maximum, the rescaling factor and the weights -/

/-- A store's cast to its own shape changes nothing. -/
theorem pay2_eq (v : FVec Ideal S1x256 .f32) : k1_pay2 (F := Ideal) v = v := shapeCast_self v _
theorem pay12_eq (v : Vec Ideal S512x4096 .bf16) : k1_pay12 (F := Ideal) v = v := shapeCast_self v _

/-- The new running maximum of lane c: the old one against the block's column maximum. -/
theorem pay8_apply (x0 : Vec Ideal S512x1 .f32) (x1 : Vec Ideal S1x256 .f32) (m : Vec Ideal S1x256 .f32) (c : Fin 256) :
    k1_pay8 (F := Ideal) x0 x1 m (ix2 (0 : Fin 1) c)
      = max (m (ix2 (0 : Fin 1) c)) ((Finset.univ : Finset (Fin 512)).fold max ⊥
          (fun r => Cert.Spec.lrelu (x0 (ix2 r (0 : Fin 1)) + x1 (ix2 (0 : Fin 1) c)))) := by
  unfold k1_pay8
  show max (m (ix2 (0 : Fin 1) c)) (shapeCast S1x256 (multiReduction .maximumf [0] S256 (k1_pay7 (F := Ideal) x0 x1) 0xFF800000#32 reduces_S512x256_S256 (.inl rfl) rfl) shapeCasts_S256_S1x256 (ix2 (0 : Fin 1) c)) = _
  rw [castRow_apply, colMax_apply]
  simp only [pay7_apply]

/-- The rescaling factor of lane c. -/
theorem pay9_apply (x0 : Vec Ideal S512x1 .f32) (x1 : Vec Ideal S1x256 .f32) (m m' : Vec Ideal S1x256 .f32) (c : Fin 256) :
    k1_pay9 (F := Ideal) x0 x1 m m' (ix2 (0 : Fin 1) c)
      = Ideal.exp (m' (ix2 (0 : Fin 1) c) - k1_pay8 (F := Ideal) x0 x1 m (ix2 (0 : Fin 1) c)) := rfl

/-- The weight of key r for lane c. -/
theorem pay10_apply (x0 : Vec Ideal S512x1 .f32) (x1 : Vec Ideal S1x256 .f32) (m : Vec Ideal S1x256 .f32) (r : Fin 512) (c : Fin 256) :
    k1_pay10 (F := Ideal) x0 x1 m (ix2 r c)
      = Ideal.exp (Cert.Spec.lrelu (x0 (ix2 r (0 : Fin 1)) + x1 (ix2 (0 : Fin 1) c)) - k1_pay8 (F := Ideal) x0 x1 m (ix2 (0 : Fin 1) c)) := by
  unfold k1_pay10
  show Ideal.exp (k1_pay7 (F := Ideal) x0 x1 (ix2 r c) - broadcastTo S512x256 (k1_pay8 (F := Ideal) x0 x1 m) broadcasts_S1x256_S512x256 (ix2 r c)) = _
  rw [broadcastTo_1b_ab_apply, pay7_apply]

theorem pay13_apply (x0 : Vec Ideal S512x1 .f32) (x1 : Vec Ideal S1x256 .f32) (m : Vec Ideal S1x256 .f32) (r : Fin 512) (c : Fin 256) :
    k1_pay13 (F := Ideal) x0 x1 m (ix2 r c) = k1_pay10 (F := Ideal) x0 x1 m (ix2 r c) := rfl

/-- The new running denominator of lane c. -/
theorem pay11_apply (x0 : Vec Ideal S512x1 .f32) (x1 : Vec Ideal S1x256 .f32) (m m' l : Vec Ideal S1x256 .f32) (c : Fin 256) :
    k1_pay11 (F := Ideal) x0 x1 m m' l (ix2 (0 : Fin 1) c)
      = k1_pay9 (F := Ideal) x0 x1 m m' (ix2 (0 : Fin 1) c) * l (ix2 (0 : Fin 1) c)
        + ∑ r : Fin 512, k1_pay10 (F := Ideal) x0 x1 m (ix2 r c) := by
  unfold k1_pay11
  simp only [shapeCast_self]
  show k1_pay9 (F := Ideal) x0 x1 m m' (ix2 (0 : Fin 1) c) * l (ix2 (0 : Fin 1) c)
      + shapeCast S1x256 (multiReduction .add [0] S256 (k1_pay10 (F := Ideal) x0 x1 m) 0x00000000#32 reduces_S512x256_S256 (.inl rfl) rfl) shapeCasts_S256_S1x256 (ix2 (0 : Fin 1) c) = _
  rw [castRow_apply, colSum_apply]

/-! ## The product contracting the block's keys -/

theorem dot_lhs_1 (j : S4096x256.Idx) (k : dot_S512x4096_S512x256_S4096x256_0_0_1_1_n_n.contr.Idx) :
    (dot_S512x4096_S512x256_S4096x256_0_0_1_1_n_n.lhsIdx j k 1 : ℕ) = j 0 := by
  simp [DotDims.lhsIdx, dot_S512x4096_S512x256_S4096x256_0_0_1_1_n_n]; rfl
theorem dot_rhs_1 (j : S4096x256.Idx) (k : dot_S512x4096_S512x256_S4096x256_0_0_1_1_n_n.contr.Idx) :
    (dot_S512x4096_S512x256_S4096x256_0_0_1_1_n_n.rhsIdx j k 1 : ℕ) = j 1 := by
  simp [DotDims.rhsIdx, dot_S512x4096_S512x256_S4096x256_0_0_1_1_n_n]; rfl

/-- The product of the value block and the weight block at (n, c): the sum over the block's keys. -/
theorem blockDot_apply (lhs : FVec Ideal S512x4096 .bf16) (rhs : FVec Ideal S512x256 .bf16) (n : Fin 4096) (c : Fin 256) :
    matmul dot_S512x4096_S512x256_S4096x256_0_0_1_1_n_n none lhs rhs (constant S4096x256 .f32 0x00000000#32) (ix2 n c)
      = ∑ r : Fin 512, lhs (ix2 r n) * rhs (ix2 r c) := by
  refine (Ideal.matmul_constant_zero_apply dot_S512x4096_S512x256_S4096x256_0_0_1_1_n_n none lhs rhs (ix2 n c)).trans ?_
  rw [← Equiv.sum_comp (contrEquiv1 dot_S512x4096_S512x256_S4096x256_0_0_1_1_n_n 512 rfl rfl).symm]
  refine Finset.sum_congr rfl fun r _ => ?_
  have hl : dot_S512x4096_S512x256_S4096x256_0_0_1_1_n_n.lhsIdx (ix2 n c)
      ((contrEquiv1 dot_S512x4096_S512x256_S4096x256_0_0_1_1_n_n 512 rfl rfl).symm r) = (ix2 r n : S512x4096.Idx) := by
    funext ax
    match ax with
    | ⟨0, _⟩ => exact Fin.ext ((dot_S512x4096_S512x256_S4096x256_0_0_1_1_n_n.lhsIdx_val_of_single rfl _ _).trans
        (contrEquiv1_symm_val dot_S512x4096_S512x256_S4096x256_0_0_1_1_n_n 512 rfl rfl r))
    | ⟨1, _⟩ => exact Fin.ext (dot_lhs_1 _ _)
  have hr : dot_S512x4096_S512x256_S4096x256_0_0_1_1_n_n.rhsIdx (ix2 n c)
      ((contrEquiv1 dot_S512x4096_S512x256_S4096x256_0_0_1_1_n_n 512 rfl rfl).symm r) = (ix2 r c : S512x256.Idx) := by
    funext ax
    match ax with
    | ⟨0, _⟩ => exact Fin.ext ((dot_S512x4096_S512x256_S4096x256_0_0_1_1_n_n.rhsIdx_val_of_single rfl _ _).trans
        (contrEquiv1_symm_val dot_S512x4096_S512x256_S4096x256_0_0_1_1_n_n 512 rfl rfl r))
    | ⟨1, _⟩ => exact Fin.ext (dot_rhs_1 _ _)
  rw [hl, hr]

/-- The new running weighted sum at (n, c). -/
theorem pay1_apply (f : FVec Ideal S1x256 .f32) (lhs : FVec Ideal S512x4096 .bf16) (rhs : FVec Ideal S512x256 .bf16)
    (acc : Vec Ideal S4096x256 .f32) (n : Fin 4096) (c : Fin 256) :
    k1_pay1 (F := Ideal) f lhs rhs acc (ix2 n c)
      = f (ix2 (0 : Fin 1) c) * acc (ix2 n c) + ∑ r : Fin 512, lhs (ix2 r n) * rhs (ix2 r c) := by
  unfold k1_pay1
  simp only [shapeCast_self]
  show broadcastTo S4096x256 f broadcasts_S1x256_S4096x256 (ix2 n c) * acc (ix2 n c)
      + matmul dot_S512x4096_S512x256_S4096x256_0_0_1_1_n_n none lhs rhs (constant S4096x256 .f32 0x00000000#32) (ix2 n c) = _
  rw [broadcastTo_1b_ab_apply, blockDot_apply]

/-! ## The result entry and the reset values -/

/-- The result at (n, c): the exponential-linear unit of the weighted sum over the denominator. -/
theorem pay3_apply (acc : Vec Ideal S4096x256 .f32) (l : Vec Ideal S1x256 .f32) (n : Fin 4096) (c : Fin 256) :
    k1_pay3 (F := Ideal) acc l (ix2 n c) = Cert.Spec.elu (Ideal.div (acc (ix2 n c)) (l (ix2 (0 : Fin 1) c))) := by
  have e : broadcastTo S4096x256 l broadcasts_S1x256_S4096x256 (ix2 n c) = l (ix2 (0 : Fin 1) c) :=
    broadcastTo_1b_ab_apply l broadcasts_S1x256_S4096x256 n c
  unfold k1_pay3 Cert.Spec.elu
  show Scalar.select (FloatOps.cmpf .ogt (Ideal.div (acc (ix2 n c)) (broadcastTo S4096x256 l broadcasts_S1x256_S4096x256 (ix2 n c))) (Ideal.ofBits .f32 0x00000000#32))
      (Ideal.div (acc (ix2 n c)) (broadcastTo S4096x256 l broadcasts_S1x256_S4096x256 (ix2 n c)))
      (Ideal.exp (Ideal.div (acc (ix2 n c)) (broadcastTo S4096x256 l broadcasts_S1x256_S4096x256 (ix2 n c))) - Ideal.ofBits .f32 0x3F800000#32) = _
  rw [e]

theorem pay4_apply (j : S1x256.Idx) : k1_pay4 (F := Ideal) j = ⊥ := by
  unfold k1_pay4
  simp only [shapeCast_self]
  exact neg_inf_word
theorem pay5_apply (j : S1x256.Idx) : k1_pay5 (F := Ideal) j = 0 := by
  unfold k1_pay5
  simp only [shapeCast_self]
  exact Ideal.ofBits_zero_f32
theorem pay6_apply (j : S4096x256.Idx) : k1_pay6 (F := Ideal) j = 0 := by
  unfold k1_pay6
  simp only [shapeCast_self]
  exact Ideal.ofBits_zero_f32

end Cert.KernelIdeal.Hand

end
-- ==== Proof.Value.R1Step.lean ====
/-
  One grid point's arithmetic, entry by entry, is one step of the online softmax accumulation: for a result entry
  (n, c) the running maximum and denominator of lane c and the running weighted sum at (n, c) move, over a block of
  keys, as the accumulation's state moves over the block's scores for lane c and the block's values in column n.
-/
import proofs.«152758_j53506702573897_2_alg».proof.Proof.Value.R1Pay
import proofs.«152758_j53506702573897_2_alg».proof.Proof.LibOnlineSoftmax

set_option maxRecDepth 16384

noncomputable section

namespace Cert.KernelIdeal.Hand

open Cert.KernelIdeal Cert.KernelIdeal.Gen
open Idealize.ShloMosaic Idealize.ShloMosaic.ValueIdx
open scoped BigOperators

/-- The three running buffers after a block, read at lane c and entry (n, c), are the step of the accumulation from
    their contents before it. -/
theorem block_step (x0 : Vec Ideal S512x1 .f32) (x1 : Vec Ideal S1x256 .f32) (x2 : Vec Ideal S512x4096 .bf16)
    (m l : Vec Ideal S1x256 .f32) (acc : Vec Ideal S4096x256 .f32) (n : Fin 4096) (c : Fin 256) :
    ((k1_pay2 (F := Ideal) (k1_pay8 (F := Ideal) x0 x1 m) (ix2 (0 : Fin 1) c),
      k1_pay11 (F := Ideal) x0 x1 m m l (ix2 (0 : Fin 1) c),
      k1_pay1 (F := Ideal) (k1_pay9 (F := Ideal) x0 x1 m m) (k1_pay12 (F := Ideal) x2) (k1_pay13 (F := Ideal) x0 x1 m) acc (ix2 n c))
        : EReal × EReal × EReal)
      = Cert.OnlineSoftmax.step (fun r : Fin 512 => Cert.Spec.lrelu (x0 (ix2 r (0 : Fin 1)) + x1 (ix2 (0 : Fin 1) c)))
          (fun r : Fin 512 => x2 (ix2 r n)) (m (ix2 (0 : Fin 1) c), l (ix2 (0 : Fin 1) c), acc (ix2 n c)) := by
  unfold Cert.OnlineSoftmax.step
  refine Prod.ext ?_ (Prod.ext ?_ ?_)
  · show k1_pay2 (F := Ideal) (k1_pay8 (F := Ideal) x0 x1 m) (ix2 (0 : Fin 1) c) = _
    rw [pay2_eq, pay8_apply]
  · show k1_pay11 (F := Ideal) x0 x1 m m l (ix2 (0 : Fin 1) c) = _
    rw [pay11_apply, pay9_apply]
    simp only [pay10_apply, pay8_apply]
  · show k1_pay1 (F := Ideal) (k1_pay9 (F := Ideal) x0 x1 m m) (k1_pay12 (F := Ideal) x2) (k1_pay13 (F := Ideal) x0 x1 m) acc (ix2 n c) = _
    rw [pay1_apply, pay9_apply, pay12_eq]
    simp only [pay13_apply, pay10_apply, pay8_apply]
    exact congrArg _ (Finset.sum_congr rfl fun r _ => mul_comm _ _)

/-- The reset values, read at lane c and entry (n, c), are the accumulation's initial state. -/
theorem reset_state (n : Fin 4096) (c : Fin 256) :
    ((k1_pay4 (F := Ideal) (ix2 (0 : Fin 1) c), k1_pay5 (F := Ideal) (ix2 (0 : Fin 1) c), k1_pay6 (F := Ideal) (ix2 n c))
        : EReal × EReal × EReal) = (⊥, 0, 0) := by
  rw [pay4_apply, pay5_apply, pay6_apply]

end Cert.KernelIdeal.Hand

end
-- ==== Proof.Value.R1Softmax.lean ====
/-
  The quotient form of the online softmax accumulation, and the reality of the scores.

  After all the blocks of a row of real scores t and real values v the running accumulator divided by the running
  denominator is (Σ v · exp (t − M)) / (Σ exp (t − M)) at the row's maximum M: both are the quotient of
  Σ exp (t − μ) · v by Σ exp (t − μ), which does not depend on the real reference point μ.
-/
import proofs.«152758_j53506702573897_2_alg».proof.Proof.LibOnlineSoftmax
import proofs.«152758_j53506702573897_2_alg».proof.Proof.Spec

noncomputable section

namespace Cert.OnlineSoftmax

open Idealize.ShloMosaic
open scoped BigOperators

variable {n w : ℕ}

/-- The accumulator over the denominator after all n blocks is the quotient of the weighted sum of the exponentials
    by their sum, both taken at the fold of max of the scores. The row is indexed by any finite type in bijection
    with the pairs (block, entry in the block). -/
theorem run_quot {ι : Type*} [Fintype ι] (hn : 0 < n) (hw : 0 < w) (e : Fin n × Fin w ≃ ι) (T Vv : ι → EReal)
    (hT : ∀ s, ∃ x : ℝ, T s = (x : EReal)) (hV : ∀ s, ∃ x : ℝ, Vv s = (x : EReal)) :
    Ideal.div (run (fun i j => T (e (i, j))) (fun i j => Vv (e (i, j))) n le_rfl).2.2
        (run (fun i j => T (e (i, j))) (fun i j => Vv (e (i, j))) n le_rfl).2.1
      = Ideal.div (∑ s : ι, Vv s * Ideal.exp (T s - (Finset.univ : Finset ι).fold max ⊥ T))
          (∑ s : ι, Ideal.exp (T s - (Finset.univ : Finset ι).fold max ⊥ T)) := by
  choose τ hτ using hT
  choose ν hν using hV
  obtain rfl : T = fun s => (τ s : EReal) := funext hτ
  obtain rfl : Vv = fun s => (ν s : EReal) := funext hν
  haveI : Nonempty ι := ⟨e (⟨0, hn⟩, ⟨0, hw⟩)⟩
  obtain ⟨M, hM⟩ := fold_max_coe (Finset.univ : Finset ι) Finset.univ_nonempty τ
  obtain ⟨μ, hμ⟩ := run_coe (fun i j => τ (e (i, j))) (fun i j => ν (e (i, j))) hw n le_rfl hn
  have tot : ∀ G : ι → ℝ,
      ∑ p ∈ pre n n ×ˢ (Finset.univ : Finset (Fin w)), G (e (p.1, p.2)) = ∑ s, G s := by
    intro G
    rw [pre_self, Finset.univ_product_univ]
    exact Equiv.sum_comp e G
  have LMpos : 0 < ∑ s, Real.exp (τ s - M) :=
    Finset.sum_pos (fun s _ => Real.exp_pos _) Finset.univ_nonempty
  have Lμ : ∑ p ∈ pre n n ×ˢ (Finset.univ : Finset (Fin w)), Real.exp (τ (e (p.1, p.2)) - μ)
      = Real.exp (M - μ) * ∑ s, Real.exp (τ s - M) := by
    rw [tot (fun s => Real.exp (τ s - μ)), rescale_one]
  have Aμ : ∑ p ∈ pre n n ×ˢ (Finset.univ : Finset (Fin w)),
        Real.exp (τ (e (p.1, p.2)) - μ) * ν (e (p.1, p.2))
      = Real.exp (M - μ) * ∑ s, Real.exp (τ s - M) * ν s := by
    rw [tot (fun s => Real.exp (τ s - μ) * ν s), rescale]
  beta_reduce
  rw [hμ]
  dsimp only
  rw [Lμ, Aμ, hM, Ideal.div_coe (mul_pos (Real.exp_pos _) LMpos).ne']
  simp only [← EReal.coe_sub, Ideal.exp_coe, ← EReal.coe_mul, ← coe_sum]
  rw [Ideal.div_coe LMpos.ne', ← EReal.coe_mul]
  congr 1
  have hA : ∑ s, ν s * Real.exp (τ s - M) = ∑ s, Real.exp (τ s - M) * ν s :=
    Finset.sum_congr rfl fun _ _ => mul_comm _ _
  rw [hA]
  have e0 : Real.exp (M - μ) ≠ 0 := (Real.exp_pos _).ne'
  have e1 : ∑ s, Real.exp (τ s - M) ≠ 0 := LMpos.ne'
  field_simp

/-- The leaky rectifier of a real is a real. -/
theorem lrelu_real (r : ℝ) : ∃ x : ℝ, Cert.Spec.lrelu (r : EReal) = (x : EReal) := by
  obtain ⟨s, hs⟩ : ∃ s : ℝ, Ideal.ofBits .f32 0x3E4CCCCD#32 = (s : EReal) := by
    simp [Ideal.ofBits, Ideal.ieee]
    exact ⟨_, (EReal.coe_mul _ _).symm⟩
  unfold Cert.Spec.lrelu Scalar.select
  split_ifs
  · exact ⟨r, rfl⟩
  · exact ⟨s * r, by rw [hs, EReal.coe_mul]⟩

end Cert.OnlineSoftmax

end
-- ==== Proof.Value.R1Inv.lean ====
/-
  The invariant of the attention kernel's grid walk: after the point at key block k of a query block, the running
  maximum and denominator of a lane and the running weighted sum at an entry of that lane are the state of the online
  softmax accumulation after k + 1 blocks of that query's scores and of the values' column. At the last key block the
  result entry is the exponential-linear unit of the accumulated sum over the accumulated denominator.
-/
import proofs.«152758_j53506702573897_2_alg».proof.Proof.Value.R1Blocks
import proofs.«152758_j53506702573897_2_alg».proof.Proof.Value.R1Outs
import proofs.«152758_j53506702573897_2_alg».proof.Proof.Value.R1Step
import proofs.«152758_j53506702573897_2_alg».proof.Proof.Value.R1Softmax

set_option maxRecDepth 16384

noncomputable section

namespace Cert.KernelIdeal.Hand

open Cert.KernelIdeal Cert.KernelIdeal.Gen
open Idealize.ShloMosaic Idealize.ShloMosaic.TcCoe
open Idealize.ShloMosaic.ValueIdx
open Idealize.ShloMosaic.Pipeline (Dat Cfg Window)
open scoped BigOperators

/-- The keys as eight blocks of 512: key 512 · k + r is entry r of block k. -/
abbrev keyEquiv : Fin 8 × Fin 512 ≃ Fin 4096 := finProdFinEquiv

theorem keyEquiv_val (k : Fin 8) (r : Fin 512) : (keyEquiv (k, r)).val = r.val + 512 * k.val := rfl

/-- A step over a block whose scores and values are block k's, from the state after k blocks, is the state after
    k + 1 blocks. -/
theorem step_eq_run (S Vv : Fin 8 → Fin 512 → EReal) (k : ℕ) (hk : k + 1 ≤ 8) (s v : Fin 512 → EReal)
    (st : EReal × EReal × EReal) (hs : s = S ⟨k, hk⟩) (hv : v = Vv ⟨k, hk⟩)
    (hst : st = Cert.OnlineSoftmax.run S Vv k (Nat.le_of_succ_le hk)) :
    Cert.OnlineSoftmax.step s v st = Cert.OnlineSoftmax.run S Vv (k + 1) hk := by
  subst hs hv hst; rfl

/-- Three buffers read at a lane and an entry, when the buffers are equal. -/
theorem st_congr {m m' l l' : Vec Ideal S1x256 .f32} {a a' : Vec Ideal S4096x256 .f32} (h0 : m = m') (h1 : l = l') (h2 : a = a')
    (n : Fin 4096) (i : Fin 256) :
    ((m (ix2 (0 : Fin 1) i), l (ix2 (0 : Fin 1) i), a (ix2 n i)) : EReal × EReal × EReal)
      = (m' (ix2 (0 : Fin 1) i), l' (ix2 (0 : Fin 1) i), a' (ix2 n i)) := by
  subst h0 h1 h2; rfl

section
variable (V : (c : Dev nD) → (b : Ref sig .tc) → Buf (Elt Ideal) ((c : Thread nD τ).loc b))

/-- Query q's scores, by block of keys. -/
abbrev scoreBlk (c : Dev nD) (q : Fin 4096) : Fin 8 → Fin 512 → EReal :=
  fun k r => Cert.Spec.score (V c main_v8) (V c main_v10) (keyEquiv (k, r)) q
/-- Column n of the values, by block of keys. -/
abbrev valBlk (c : Dev nD) (n : Fin 4096) : Fin 8 → Fin 512 → EReal :=
  fun k r => (V c main_v2 : Cert.Spec.Mat 4096 4096) (ix2 (keyEquiv (k, r)) n)

/-- The scores the body computes at point t for lane i are block t mod 8 of the scores of query 256 · (t div 8) + i. -/
theorem blk_scores (c : Dev nD) (t : Fin cfg1.N) (x0 : Vec Ideal S512x1 .f32) (x1 : Vec Ideal S1x256 .f32)
    (hx0 : x0 = iblk1 V c 0 t) (hx1 : x1 = iblk1 V c 1 t) (i : Fin 256) (q : Fin 4096) (k : ℕ) (hk : k + 1 ≤ 8)
    (hq : q.val = 256 * (t.val / 8) + i.val) (hk' : t.val % 8 = k) :
    (fun r : Fin 512 => Cert.Spec.lrelu (x0 (ix2 r (0 : Fin 1)) + x1 (ix2 (0 : Fin 1) i)))
      = scoreBlk V c q ⟨k, hk⟩ := by
  funext r
  subst hx0 hx1
  have hr : 512 * (t.val % 8) + r.val < 4096 := by have := r.isLt; omega
  have hi : 256 * (t.val / 8) + i.val < 4096 := by rw [← hq]; exact q.isLt
  rw [iblk0_apply V c t r (0 : Fin 1) hr, iblk1_apply V c t (0 : Fin 1) i hi]
  have e1 : (⟨512 * (t.val % 8) + r.val, hr⟩ : Fin 4096) = keyEquiv (⟨k, hk⟩, r) := Fin.ext (by rw [keyEquiv_val]; show 512 * (t.val % 8) + r.val = r.val + 512 * k; omega)
  have e2 : (⟨256 * (t.val / 8) + i.val, hi⟩ : Fin 4096) = q := Fin.ext hq.symm
  rw [e1, e2]
  rfl

/-- The values the body reads at point t in column n are block t mod 8 of the values' column n. -/
theorem blk_vals (c : Dev nD) (t : Fin cfg1.N) (x2 : Vec Ideal S512x4096 .bf16) (hx2 : x2 = iblk1 V c 2 t)
    (n : Fin 4096) (k : ℕ) (hk : k + 1 ≤ 8) (hk' : t.val % 8 = k) :
    (fun r : Fin 512 => x2 (ix2 r n)) = valBlk V c n ⟨k, hk⟩ := by
  funext r
  subst hx2
  have hr : 512 * (t.val % 8) + r.val < 4096 := by have := r.isLt; omega
  rw [iblk2_apply V c t r n hr]
  have e1 : (⟨512 * (t.val % 8) + r.val, hr⟩ : Fin 4096) = keyEquiv (⟨k, hk⟩, r) := Fin.ext (by rw [keyEquiv_val]; show 512 * (t.val % 8) + r.val = r.val + 512 * k; omega)
  rw [e1]

/-- After the point at position p of the grid's walk, key block p mod 8 of query block p div 8: the running buffers
    at lane i and entry (n, i) are the accumulation's state after p mod 8 + 1 blocks. -/
theorem run_inv (c : Dev nD) : ∀ (p : ℕ) (hp : p < cfg1.N) (n : Fin 4096) (i : Fin 256) (q : Fin 4096) (k : ℕ) (hk : k + 1 ≤ 8),
    q.val = 256 * (p / 8) + i.val → p % 8 = k →
    (((outsAt1 V c p hp).2.1 (ix2 (0 : Fin 1) i), (outsAt1 V c p hp).2.2.1 (ix2 (0 : Fin 1) i), (outsAt1 V c p hp).2.2.2 (ix2 n i)) : EReal × EReal × EReal)
      = Cert.OnlineSoftmax.run (scoreBlk V c q) (valBlk V c n) (k + 1) hk := by
  intro p
  induction p with
  | zero =>
    intro hp n i q k hk hq hk'
    obtain rfl : k = 0 := by omega
    obtain ⟨e0, e1, e2⟩ := outs_A V c ⟨0, hp⟩ rfl (by show ¬(0 % 8 = 7); decide)
    refine (st_congr e0 e1 e2 n i).trans ?_
    refine (block_step _ _ _ _ _ _ n i).trans ?_
    exact step_eq_run (scoreBlk V c q) (valBlk V c n) 0 hk _ _ _
      (blk_scores V c ⟨0, hp⟩ _ _ rfl rfl i q 0 hk hq rfl) (blk_vals V c ⟨0, hp⟩ _ rfl n 0 hk rfl) (reset_state n i)
  | succ p ih =>
    intro hp n i q k hk hq hk'
    have hN : cfg1.N = 128 := N_1
    by_cases h0 : (p + 1) % 8 = 0
    · obtain rfl : k = 0 := by omega
      obtain ⟨e0, e1, e2⟩ := outs_A V c ⟨p + 1, hp⟩ h0 (by show ¬(p + 1) % 8 = 7; omega)
      refine (st_congr e0 e1 e2 n i).trans ?_
      refine (block_step _ _ _ _ _ _ n i).trans ?_
      exact step_eq_run (scoreBlk V c q) (valBlk V c n) 0 hk _ _ _
        (blk_scores V c ⟨p + 1, hp⟩ _ _ rfl rfl i q 0 hk hq h0) (blk_vals V c ⟨p + 1, hp⟩ _ rfl n 0 hk h0) (reset_state n i)
    · obtain ⟨k', rfl⟩ : ∃ k', k = k' + 1 := ⟨k - 1, by omega⟩
      have hq' : q.val = 256 * (p / 8) + i.val := by rw [hq]; omega
      have hpk : p % 8 = k' := by omega
      have ih' := ih (Nat.lt_of_succ_lt hp) n i q k' (Nat.le_of_succ_le hk) hq' hpk
      by_cases h1 : (p + 1) % 8 = 7
      · obtain ⟨⟨e0, e1, e2⟩, -⟩ := outs_C V c ⟨p + 1, hp⟩ h0 h1
        refine (st_congr e0 e1 e2 n i).trans ?_
        refine (block_step _ _ _ _ _ _ n i).trans ?_
        exact step_eq_run (scoreBlk V c q) (valBlk V c n) (k' + 1) hk _ _ _
          (blk_scores V c ⟨p + 1, hp⟩ _ _ rfl rfl i q (k' + 1) hk hq hk') (blk_vals V c ⟨p + 1, hp⟩ _ rfl n (k' + 1) hk hk') ih'
      · obtain ⟨e0, e1, e2⟩ := outs_B V c ⟨p + 1, hp⟩ h0 h1
        refine (st_congr e0 e1 e2 n i).trans ?_
        refine (block_step _ _ _ _ _ _ n i).trans ?_
        exact step_eq_run (scoreBlk V c q) (valBlk V c n) (k' + 1) hk _ _ _
          (blk_scores V c ⟨p + 1, hp⟩ _ _ rfl rfl i q (k' + 1) hk hq hk') (blk_vals V c ⟨p + 1, hp⟩ _ rfl n (k' + 1) hk hk') ih'

/-- The result block's entry (n, i) at a point at the last key block: the exponential-linear unit of the accumulated
    weighted sum over the accumulated denominator, after all eight blocks. -/
theorem out_entry (c : Dev nD) (t : Fin cfg1.N) (h7 : t.val % 8 = 7) (n : Fin 4096) (i : Fin 256) (q : Fin 4096)
    (hq : q.val = 256 * (t.val / 8) + i.val) :
    (outsAt1 V c t.val t.isLt).1 (ix2 n i)
      = Cert.Spec.elu (Ideal.div (Cert.OnlineSoftmax.run (scoreBlk V c q) (valBlk V c n) 8 le_rfl).2.2
          (Cert.OnlineSoftmax.run (scoreBlk V c q) (valBlk V c n) 8 le_rfl).2.1) := by
  have h0 : ¬t.val % 8 = 0 := by omega
  obtain ⟨⟨e0, e1, e2⟩, e3⟩ := outs_C V c t h0 h7
  have hinv := run_inv V c t.val t.isLt n i q 7 le_rfl hq h7
  have hinv' := (st_congr e0 e1 e2 n i).symm.trans hinv
  rw [e3, pay3_apply]
  exact congrArg₂ (fun a b : EReal => Cert.Spec.elu (Ideal.div a b)) (congrArg (fun s : EReal × EReal × EReal => s.2.2) hinv')
    (congrArg (fun s : EReal × EReal × EReal => s.2.1) hinv')

end

end Cert.KernelIdeal.Hand

end
-- ==== Proof.Value.R1Value.lean ====
/-
  The value of the attention launch: its result array ends holding the attention output of the column, the row and
  the values the launch is entered with. Every result entry (n, q) is written once, at the last key block of q's
  query block, with the exponential-linear unit of the online accumulation's quotient over all eight key blocks,
  which for real scores and values is the quotient of the softmax sums at the column maximum.
-/
import proofs.«152758_j53506702573897_2_alg».proof.Proof.Value.R1Inv

set_option maxRecDepth 16384

noncomputable section

namespace Cert.KernelIdeal.Hand

open Cert.KernelIdeal Cert.KernelIdeal.Gen
open Idealize.ShloMosaic Idealize.ShloMosaic.TcCoe
open Idealize.ShloMosaic.ValueIdx
open Idealize.ShloMosaic.Pipeline (Dat Cfg Window)
open scoped BigOperators

section
variable (V : (c : Dev nD) → (b : Ref sig .tc) → Buf (Elt Ideal) ((c : Thread nD τ).loc b))

/-- The accumulated quotient of query q and column n over all eight key blocks is the attention output's quotient. -/
theorem quot_eq (c : Dev nD)
    (hx : ∀ i, ∃ r : ℝ, (V c main_v8 : Cert.Spec.Mat 4096 1) i = (r : EReal))
    (hy : ∀ i, ∃ r : ℝ, (V c main_v10 : Cert.Spec.Mat 1 4096) i = (r : EReal))
    (hv : ∀ i, ∃ r : ℝ, (V c main_v2 : Cert.Spec.Mat 4096 4096) i = (r : EReal)) (n q : Fin 4096) :
    Cert.Spec.elu (Ideal.div (Cert.OnlineSoftmax.run (scoreBlk V c q) (valBlk V c n) 8 le_rfl).2.2
        (Cert.OnlineSoftmax.run (scoreBlk V c q) (valBlk V c n) 8 le_rfl).2.1)
      = Cert.Spec.attnOut (V c main_v8) (V c main_v10) (V c main_v2) (ix2 n q) := by
  have hT : ∀ s : Fin 4096, ∃ x : ℝ, Cert.Spec.score (V c main_v8) (V c main_v10) s q = (x : EReal) := by
    intro s
    obtain ⟨a, ha⟩ := hx (ix2 s (0 : Fin 1))
    obtain ⟨b, hb⟩ := hy (ix2 (0 : Fin 1) q)
    unfold Cert.Spec.score
    rw [ha, hb, ← EReal.coe_add]
    exact Cert.OnlineSoftmax.lrelu_real (a + b)
  have hV : ∀ s : Fin 4096, ∃ x : ℝ, (V c main_v2 : Cert.Spec.Mat 4096 4096) (ix2 s n) = (x : EReal) := fun s => hv (ix2 s n)
  have h := Cert.OnlineSoftmax.run_quot (n := 8) (w := 512) (by decide) (by decide) keyEquiv
    (fun s : Fin 4096 => Cert.Spec.score (V c main_v8) (V c main_v10) s q)
    (fun s : Fin 4096 => (V c main_v2 : Cert.Spec.Mat 4096 4096) (ix2 s n)) hT hV
  exact congrArg Cert.Spec.elu h

/-- What a point at the last key block writes back is its block of the attention output. -/
theorem flushed1_eq (c : Dev nD)
    (hx : ∀ i, ∃ r : ℝ, (V c main_v8 : Cert.Spec.Mat 4096 1) i = (r : EReal))
    (hy : ∀ i, ∃ r : ℝ, (V c main_v10 : Cert.Spec.Mat 1 4096) i = (r : EReal))
    (hv : ∀ i, ∃ r : ℝ, (V c main_v2 : Cert.Spec.Mat 4096 4096) i = (r : EReal))
    (t : Fin cfg1.N) (hf : (cfg1.win 3).flush t = true) :
    (dat1 (F := Ideal) V c).flushed 3 t
      = ((cfg1.win 3).blk t).view.read (Elt Ideal) (Cert.Spec.attnOut (V c main_v8) (V c main_v10) (V c main_v2)) := by
  have h7 : t.val % 8 = 7 := (flush1_3 t).mp hf
  have hN : cfg1.N = 128 := N_1
  obtain ⟨-, -, -, -, -, -, e0, e1⟩ := idx_facts1 t
  show (cfg1.win 3).cut (grid1.coords t) ((dat1 (F := Ideal) V c).after 3 t) = _
  rw [after1_3]
  funext j
  rw [View.read_apply]
  have hj0 : (j 0).val < 4096 := (j 0).isLt
  have hj1 : (j 1).val < 256 := (j 1).isLt
  have ht : t.val < 128 := hN ▸ t.isLt
  have hq : 256 * (t.val / 8) + (j 1).val < 4096 := by omega
  have hemb : ((cfg1.win 3).blk t).view.emb j = (ix2 (⟨(j 0).val, hj0⟩ : Fin 4096) (⟨256 * (t.val / 8) + (j 1).val, hq⟩ : Fin 4096) : S4096x4096.Idx) := by
    funext a
    apply Fin.ext
    match a with
    | ⟨0, _⟩ => show win1_3.index t (0 : Fin 2) * 4096 + 1 * (j 0).val = (j 0).val; rw [e0]; omega
    | ⟨1, _⟩ => show win1_3.index t (1 : Fin 2) * 256 + 1 * (j 1).val = 256 * (t.val / 8) + (j 1).val; rw [e1]; omega
  rw [hemb, ← quot_eq V c hx hy hv]
  have hjj : j = (ix2 (⟨(j 0).val, hj0⟩ : Fin 4096) (⟨(j 1).val, hj1⟩ : Fin 256) : S4096x256.Idx) := by
    funext a
    match a with
    | ⟨0, _⟩ => rfl
    | ⟨1, _⟩ => rfl
  exact (congrArg (outsAt1 V c t.val t.isLt).1 hjj).trans
    (out_entry V c t h7 ⟨(j 0).val, hj0⟩ ⟨(j 1).val, hj1⟩ ⟨256 * (t.val / 8) + (j 1).val, hq⟩ rfl)

/-- The result array after the launch is the attention output. -/
theorem arr1_value (V : (c : Dev nD) → (b : Ref sig .tc) → Buf (Elt Ideal) ((c : Thread nD τ).loc b)) (c : Dev nD)
    (hx : ∀ i, ∃ r : ℝ, (V c main_v8 : Cert.Spec.Mat 4096 1) i = (r : EReal))
    (hy : ∀ i, ∃ r : ℝ, (V c main_v10 : Cert.Spec.Mat 1 4096) i = (r : EReal))
    (hv : ∀ i, ∃ r : ℝ, (V c main_v2 : Cert.Spec.Mat 4096 4096) i = (r : EReal)) :
    ((dat1 (F := Ideal) V c).arrAt 3 cfg1.N : S4096x4096.Idx → EReal)
      = Cert.Spec.attnOut (V c main_v8) (V c main_v10) (V c main_v2) := by
  have hN : cfg1.N = 128 := N_1
  refine (dat1 (F := Ideal) V c).arrAt_eq_of_cover 3 (Cert.Spec.attnOut (V c main_v8) (V c main_v10) (V c main_v2))
    (fun t hf => flushed1_eq V c hx hy hv t hf) fun i => ?_
  have hi0 : (i 0 : ℕ) < 4096 := (i 0).isLt
  have hi1 : (i 1 : ℕ) < 4096 := (i 1).isLt
  have htl : (i 1 : ℕ) / 256 * 8 + 7 < cfg1.N := by rw [hN]; omega
  obtain ⟨-, -, -, -, -, -, e0, e1⟩ := idx_facts1 ⟨(i 1 : ℕ) / 256 * 8 + 7, htl⟩
  refine ⟨⟨(i 1 : ℕ) / 256 * 8 + 7, htl⟩, (flush1_3 _).mpr (by show ((i 1 : ℕ) / 256 * 8 + 7) % 8 = 7; omega), ?_⟩
  show i ∈ ((View.whole main_v11).slice (win1_3.rect ⟨(i 1 : ℕ) / 256 * 8 + 7, htl⟩)).set
  rw [View.set_slice_whole, Rect.mem_set_unit]
  intro a
  match a with
  | ⟨0, _⟩ =>
    show win1_3.index ⟨(i 1 : ℕ) / 256 * 8 + 7, htl⟩ (0 : Fin 2) * 4096 ≤ (i 0 : ℕ) ∧ (i 0 : ℕ) < win1_3.index ⟨(i 1 : ℕ) / 256 * 8 + 7, htl⟩ (0 : Fin 2) * 4096 + 4096
    rw [e0]; omega
  | ⟨1, _⟩ =>
    show win1_3.index ⟨(i 1 : ℕ) / 256 * 8 + 7, htl⟩ (1 : Fin 2) * 256 ≤ (i 1 : ℕ) ∧ (i 1 : ℕ) < win1_3.index ⟨(i 1 : ℕ) / 256 * 8 + 7, htl⟩ (1 : Fin 2) * 256 + 256
    rw [e1]
    show ((i 1 : ℕ) / 256 * 8 + 7) / 8 * 256 ≤ (i 1 : ℕ) ∧ (i 1 : ℕ) < ((i 1 : ℕ) / 256 * 8 + 7) / 8 * 256 + 256
    omega

end

end Cert.KernelIdeal.Hand

end
-- ==== Proof.Ref.Ops.lean ====
/-
  The reference program as a list of operations. Its @main is a straight line of forty-nine tensor operations
  once the two outlined functions (the leaky rectifier and the exponential-linear unit, each a comparison, a scaled
  or exponentiated branch and a select) are written out at their call sites over the calls' own buffers: twenty-seven
  operations of @main itself, seven of the rectifier and fifteen of the exponential-linear unit. Every operation
  touches only device buffers, and no buffer or semaphore of the program is scoped.
-/
import proofs.«152758_j53506702573897_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's 49 operations, in order: its own twenty-seven and, at each call, the callee's written out. -/
abbrev ops : List (HloOp τ sig (Elt F)) :=
  [ unary main_arg0 main_v0 ((transpose S4096x4096 [1, 0] · transposes_S4096x4096_S4096x4096_1_0) : (⟨S4096x4096, .f32⟩ : BufTy).Contents (Elt F) → (⟨S4096x4096, .f32⟩ : BufTy).Contents (Elt F)),
    binary main_arg2 main_v0 main_v1 ((fun l r => Host.dotGeneral dot_S4096x4096_S4096x4096_S4096x4096_1_0_0_1_n_n none l r) : (⟨S4096x4096, .f32⟩ : BufTy).Contents (Elt F) → (⟨S4096x4096, .f32⟩ : BufTy).Contents (Elt F) → (⟨S4096x4096, .f32⟩ : BufTy).Contents (Elt F)),
    unary main_arg3 main_v2 ((extractStridedSlice S4096x1 ![0, 0] · slices_S8192x1_S4096x1_0_0) : (⟨S8192x1, .f32⟩ : BufTy).Contents (Elt F) → (⟨S4096x1, .f32⟩ : BufTy).Contents (Elt F)),
    binary main_v1 main_v2 main_v3 ((fun l r => Host.dotGeneral dot_S4096x4096_S4096x1_S4096x1_1_0_0_1_n_n none l r) : (⟨S4096x4096, .f32⟩ : BufTy).Contents (Elt F) → (⟨S4096x1, .f32⟩ : BufTy).Contents (Elt F) → (⟨S4096x1, .f32⟩ : BufTy).Contents (Elt F)),
    unary main_arg3 main_v4 ((extractStridedSlice S4096x1 ![4096, 0] · slices_S8192x1_S4096x1_4096_0) : (⟨S8192x1, .f32⟩ : BufTy).Contents (Elt F) → (⟨S4096x1, .f32⟩ : BufTy).Contents (Elt F)),
    binary main_v1 main_v4 main_v5 ((fun l r => Host.dotGeneral dot_S4096x4096_S4096x1_S4096x1_1_0_0_1_n_n none l r) : (⟨S4096x4096, .f32⟩ : BufTy).Contents (Elt F) → (⟨S4096x1, .f32⟩ : BufTy).Contents (Elt F) → (⟨S4096x1, .f32⟩ : BufTy).Contents (Elt F)),
    unary main_v3 main_v6 ((transpose S1x4096 [1, 0] · transposes_S4096x1_S1x4096_1_0) : (⟨S4096x1, .f32⟩ : BufTy).Contents (Elt F) → (⟨S1x4096, .f32⟩ : BufTy).Contents (Elt F)),
    unary main_v6 main_v7 (broadcastInDim S4096x4096 ![0, 1] bcast_S1x4096_S4096x4096_0_1 : (⟨S1x4096, .f32⟩ : BufTy).Contents (Elt F) → (⟨S4096x4096, .f32⟩ : BufTy).Contents (Elt F)),
    unary main_v5 main_v8 (broadcastInDim S4096x4096 ![0, 1] bcast_S4096x1_S4096x4096_0_1 : (⟨S4096x1, .f32⟩ : BufTy).Contents (Elt F) → (⟨S4096x4096, .f32⟩ : BufTy).Contents (Elt F)),
    binary main_v7 main_v8 main_v9 (addf : (⟨S4096x4096, .f32⟩ : BufTy).Contents (Elt F) → (⟨S4096x4096, .f32⟩ : BufTy).Contents (Elt F) → (⟨S4096x4096, .f32⟩ : BufTy).Contents (Elt F)),
    nullary main_cst (constant S_ .f32 0x3E4CCCCD#32),
    nullary main_call0_cst (constant S_ .f32 0x00000000#32),
    unary main_call0_cst main_call0_v0 (broadcastInDim S4096x4096 ![] bcast_S_S4096x4096 : (⟨S_, .f32⟩ : BufTy).Contents (Elt F) → (⟨S4096x4096, .f32⟩ : BufTy).Contents (Elt F)),
    binary main_v9 main_call0_v0 main_call0_v1 (cmpf .oge : (⟨S4096x4096, .f32⟩ : BufTy).Contents (Elt F) → (⟨S4096x4096, .f32⟩ : BufTy).Contents (Elt F) → (⟨S4096x4096, .i1⟩ : BufTy).Contents (Elt F)),
    unary main_cst main_call0_v2 (id : (⟨S_, .f32⟩ : BufTy).Contents (Elt F) → (⟨S_, .f32⟩ : BufTy).Contents (Elt F)),
    unary main_call0_v2 main_call0_v3 (broadcastInDim S4096x4096 ![] bcast_S_S4096x4096 : (⟨S_, .f32⟩ : BufTy).Contents (Elt F) → (⟨S4096x4096, .f32⟩ : BufTy).Contents (Elt F)),
    binary main_call0_v3 main_v9 main_call0_v4 (mulf : (⟨S4096x4096, .f32⟩ : BufTy).Contents (Elt F) → (⟨S4096x4096, .f32⟩ : BufTy).Contents (Elt F) → (⟨S4096x4096, .f32⟩ : BufTy).Contents (Elt F)),
    ternary main_call0_v1 main_v9 main_call0_v4 main_v10 (select : (⟨S4096x4096, .i1⟩ : BufTy).Contents (Elt F) → (⟨S4096x4096, .f32⟩ : BufTy).Contents (Elt F) → (⟨S4096x4096, .f32⟩ : BufTy).Contents (Elt F) → (⟨S4096x4096, .f32⟩ : BufTy).Contents (Elt F)),
    nullary main_cst_0 (constant S_ .f32 0xFF800000#32),
    binary main_v10 main_cst_0 main_v11 ((fun x v => Host.reduce FloatOps.maximumf x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    nullary main_cst_1 (constant S_ .f32 0xFF800000#32),
    unary main_cst_1 main_v12 (broadcastInDim S4096 ![] bcast_S_S4096 : (⟨S_, .f32⟩ : BufTy).Contents (Elt F) → (⟨S4096, .f32⟩ : BufTy).Contents (Elt F)),
    binary main_v12 main_v11 main_v13 (maximumf : (⟨S4096, .f32⟩ : BufTy).Contents (Elt F) → (⟨S4096, .f32⟩ : BufTy).Contents (Elt F) → (⟨S4096, .f32⟩ : BufTy).Contents (Elt F)),
    unary main_v13 main_v14 (broadcastInDim S4096x1 ![0] bcast_S4096_S4096x1_0 : (⟨S4096, .f32⟩ : BufTy).Contents (Elt F) → (⟨S4096x1, .f32⟩ : BufTy).Contents (Elt F)),
    unary main_v14 main_v15 (broadcastInDim S4096x4096 ![0, 1] bcast_S4096x1_S4096x4096_0_1 : (⟨S4096x1, .f32⟩ : BufTy).Contents (Elt F) → (⟨S4096x4096, .f32⟩ : BufTy).Contents (Elt F)),
    binary main_v10 main_v15 main_v16 (subf : (⟨S4096x4096, .f32⟩ : BufTy).Contents (Elt F) → (⟨S4096x4096, .f32⟩ : BufTy).Contents (Elt F) → (⟨S4096x4096, .f32⟩ : BufTy).Contents (Elt F)),
    unary main_v16 main_v17 (Host.exp : (⟨S4096x4096, .f32⟩ : BufTy).Contents (Elt F) → (⟨S4096x4096, .f32⟩ : BufTy).Contents (Elt F)),
    nullary main_cst_2 (constant S_ .f32 0x00000000#32),
    binary main_v17 main_cst_2 main_v18 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    unary main_v18 main_v19 (broadcastInDim S4096x1 ![0] bcast_S4096_S4096x1_0 : (⟨S4096, .f32⟩ : BufTy).Contents (Elt F) → (⟨S4096x1, .f32⟩ : BufTy).Contents (Elt F)),
    unary main_v19 main_v20 (broadcastInDim S4096x4096 ![0, 1] bcast_S4096x1_S4096x4096_0_1 : (⟨S4096x1, .f32⟩ : BufTy).Contents (Elt F) → (⟨S4096x4096, .f32⟩ : BufTy).Contents (Elt F)),
    binary main_v17 main_v20 main_v21 (Host.divf : (⟨S4096x4096, .f32⟩ : BufTy).Contents (Elt F) → (⟨S4096x4096, .f32⟩ : BufTy).Contents (Elt F) → (⟨S4096x4096, .f32⟩ : BufTy).Contents (Elt F)),
    binary main_v21 main_v1 main_v22 ((fun l r => Host.dotGeneral dot_S4096x4096_S4096x4096_S4096x4096_1_0_0_1_n_n none l r) : (⟨S4096x4096, .f32⟩ : BufTy).Contents (Elt F) → (⟨S4096x4096, .f32⟩ : BufTy).Contents (Elt F) → (⟨S4096x4096, .f32⟩ : BufTy).Contents (Elt F)),
    unary main_v22 main_v23 ((transpose S4096x4096 [1, 0] · transposes_S4096x4096_S4096x4096_1_0) : (⟨S4096x4096, .f32⟩ : BufTy).Contents (Elt F) → (⟨S4096x4096, .f32⟩ : BufTy).Contents (Elt F)),
    nullary main_call1_cst (constant S_ .f32 0x00000000#32),
    unary main_call1_cst main_call1_v0 (broadcastInDim S4096x4096 ![] bcast_S_S4096x4096 : (⟨S_, .f32⟩ : BufTy).Contents (Elt F) → (⟨S4096x4096, .f32⟩ : BufTy).Contents (Elt F)),
    binary main_v23 main_call1_v0 main_call1_v1 (cmpf .ogt : (⟨S4096x4096, .f32⟩ : BufTy).Contents (Elt F) → (⟨S4096x4096, .f32⟩ : BufTy).Contents (Elt F) → (⟨S4096x4096, .i1⟩ : BufTy).Contents (Elt F)),
    nullary main_call1_cst_0 (constant S_ .f32 0x00000000#32),
    unary main_call1_cst_0 main_call1_v2 (broadcastInDim S4096x4096 ![] bcast_S_S4096x4096 : (⟨S_, .f32⟩ : BufTy).Contents (Elt F) → (⟨S4096x4096, .f32⟩ : BufTy).Contents (Elt F)),
    binary main_v23 main_call1_v2 main_call1_v3 (cmpf .ogt : (⟨S4096x4096, .f32⟩ : BufTy).Contents (Elt F) → (⟨S4096x4096, .f32⟩ : BufTy).Contents (Elt F) → (⟨S4096x4096, .i1⟩ : BufTy).Contents (Elt F)),
    nullary main_call1_cst_1 (constant S_ .f32 0x00000000#32),
    unary main_call1_cst_1 main_call1_call0_v0 (id : (⟨S_, .f32⟩ : BufTy).Contents (Elt F) → (⟨S_, .f32⟩ : BufTy).Contents (Elt F)),
    unary main_call1_call0_v0 main_call1_call0_v1 (broadcastInDim S4096x4096 ![] bcast_S_S4096x4096 : (⟨S_, .f32⟩ : BufTy).Contents (Elt F) → (⟨S4096x4096, .f32⟩ : BufTy).Contents (Elt F)),
    ternary main_call1_v3 main_call1_call0_v1 main_v23 main_call1_v4 (select : (⟨S4096x4096, .i1⟩ : BufTy).Contents (Elt F) → (⟨S4096x4096, .f32⟩ : BufTy).Contents (Elt F) → (⟨S4096x4096, .f32⟩ : BufTy).Contents (Elt F) → (⟨S4096x4096, .f32⟩ : BufTy).Contents (Elt F)),
    unary main_call1_v4 main_call1_v5 (Host.expm1 : (⟨S4096x4096, .f32⟩ : BufTy).Contents (Elt F) → (⟨S4096x4096, .f32⟩ : BufTy).Contents (Elt F)),
    nullary main_call1_cst_2 (constant S_ .f32 0x3F800000#32),
    unary main_call1_cst_2 main_call1_v6 (broadcastInDim S4096x4096 ![] bcast_S_S4096x4096 : (⟨S_, .f32⟩ : BufTy).Contents (Elt F) → (⟨S4096x4096, .f32⟩ : BufTy).Contents (Elt F)),
    binary main_call1_v6 main_call1_v5 main_call1_v7 (mulf : (⟨S4096x4096, .f32⟩ : BufTy).Contents (Elt F) → (⟨S4096x4096, .f32⟩ : BufTy).Contents (Elt F) → (⟨S4096x4096, .f32⟩ : BufTy).Contents (Elt F)),
    ternary main_call1_v1 main_v23 main_call1_v7 main_v24 (select : (⟨S4096x4096, .i1⟩ : BufTy).Contents (Elt F) → (⟨S4096x4096, .f32⟩ : BufTy).Contents (Elt F) → (⟨S4096x4096, .f32⟩ : BufTy).Contents (Elt F) → (⟨S4096x4096, .f32⟩ : BufTy).Contents (Elt F)) ]

set_option maxRecDepth 4096 in
/-- @main is that straight line: the functions' definitions unfolded at their calls, both sides are one chain of
    steps once sequencing is reassociated. -/
theorem main_eq (c : Dev nD) : main (F := F) c = seq ops := by
  simp only [main, fn_leaky_relu.body, fn_elu.body, fn_where.body, fn_where_0.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., binary_bufs_sub .., unary_bufs_sub .., binary_bufs_sub .., unary_bufs_sub .., binary_bufs_sub .., unary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., unary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

end Cert.ReferenceIdeal.RefValue

end
-- ==== Proof.Ref.Term.lean ====
/-
  The reference program's value as one term of its three float arguments h (node features), W (weights) and
  a (the attention vector), built from named stages:
    wh   = W hᵀ                                   (a transpose, then a product contracting W's columns with hᵀ's rows)
    s1   = wh · a[0:4096],  s2 = wh · a[4096:8192]  (two products with the halves of a, each a column)
    pre  = s1ᵀ broadcast down the rows + s2 broadcast along the columns
    e    = the leaky rectifier of pre               (select (pre ≥ 0) pre (slope · pre))
    mx   = max (−∞, the maximum of e along axis 1)
    p    = exp (e − mx broadcast along axis 1)
    den  = the sum of p along axis 1
    att  = p / den broadcast along axis 1
    hp   = (att · wh)ᵀ
    refTerm = the exponential-linear unit of hp     (select (hp > 0) hp (1 · expm1 (select (hp > 0) 0 hp)))
-/
import proofs.«152758_j53506702573897_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- A scalar word broadcast to the full matrix shape. -/
def splat (w : BitVec 32) : (⟨S4096x4096, .f32⟩ : BufTy).Contents (Elt F) :=
  broadcastInDim S4096x4096 ![] bcast_S_S4096x4096 (constant S_ .f32 w)

/-- The same through the identity conversion the outlined functions apply to a scalar argument. -/
def splatId (w : BitVec 32) : (⟨S4096x4096, .f32⟩ : BufTy).Contents (Elt F) :=
  broadcastInDim S4096x4096 ![] bcast_S_S4096x4096 (id (constant S_ .f32 w))

/-- W hᵀ. -/
def wh (h W : (⟨S4096x4096, .f32⟩ : BufTy).Contents (Elt F)) : (⟨S4096x4096, .f32⟩ : BufTy).Contents (Elt F) :=
  Host.dotGeneral dot_S4096x4096_S4096x4096_S4096x4096_1_0_0_1_n_n none W (transpose S4096x4096 [1, 0] h transposes_S4096x4096_S4096x4096_1_0)

/-- W hᵀ times the first half of a. -/
def s1 (h W : (⟨S4096x4096, .f32⟩ : BufTy).Contents (Elt F)) (a : (⟨S8192x1, .f32⟩ : BufTy).Contents (Elt F)) : (⟨S4096x1, .f32⟩ : BufTy).Contents (Elt F) :=
  Host.dotGeneral dot_S4096x4096_S4096x1_S4096x1_1_0_0_1_n_n none (wh h W) (extractStridedSlice S4096x1 ![0, 0] a slices_S8192x1_S4096x1_0_0)

/-- W hᵀ times the second half of a. -/
def s2 (h W : (⟨S4096x4096, .f32⟩ : BufTy).Contents (Elt F)) (a : (⟨S8192x1, .f32⟩ : BufTy).Contents (Elt F)) : (⟨S4096x1, .f32⟩ : BufTy).Contents (Elt F) :=
  Host.dotGeneral dot_S4096x4096_S4096x1_S4096x1_1_0_0_1_n_n none (wh h W) (extractStridedSlice S4096x1 ![4096, 0] a slices_S8192x1_S4096x1_4096_0)

/-- The scores before the rectifier: entry (r, c) is s1 c + s2 r. -/
def pre (h W : (⟨S4096x4096, .f32⟩ : BufTy).Contents (Elt F)) (a : (⟨S8192x1, .f32⟩ : BufTy).Contents (Elt F)) : (⟨S4096x4096, .f32⟩ : BufTy).Contents (Elt F) :=
  addf (broadcastInDim S4096x4096 ![0, 1] bcast_S1x4096_S4096x4096_0_1 (transpose S1x4096 [1, 0] (s1 h W a) transposes_S4096x1_S1x4096_1_0))
    (broadcastInDim S4096x4096 ![0, 1] bcast_S4096x1_S4096x4096_0_1 (s2 h W a))

/-- The leaky rectifier as the program computes it. -/
def lreluT (x : (⟨S4096x4096, .f32⟩ : BufTy).Contents (Elt F)) : (⟨S4096x4096, .f32⟩ : BufTy).Contents (Elt F) :=
  select (cmpf .oge x (splat 0x00000000#32)) x (mulf (splatId 0x3E4CCCCD#32) x)

/-- The scores. -/
def e (h W : (⟨S4096x4096, .f32⟩ : BufTy).Contents (Elt F)) (a : (⟨S8192x1, .f32⟩ : BufTy).Contents (Elt F)) : (⟨S4096x4096, .f32⟩ : BufTy).Contents (Elt F) := lreluT (pre h W a)

/-- Each row's maximum, guarded by −∞. -/
def mx (h W : (⟨S4096x4096, .f32⟩ : BufTy).Contents (Elt F)) (a : (⟨S8192x1, .f32⟩ : BufTy).Contents (Elt F)) : (⟨S4096, .f32⟩ : BufTy).Contents (Elt F) :=
  maximumf (broadcastInDim S4096 ![] bcast_S_S4096 (constant S_ .f32 0xFF800000#32))
    (Host.reduce FloatOps.maximumf (e h W a) (constant S_ .f32 0xFF800000#32) reducesTo_S4096x4096_S4096_d1 h_S_)

/-- A row vector broadcast along axis 1 of the matrix shape. -/
def rows (v : (⟨S4096, .f32⟩ : BufTy).Contents (Elt F)) : (⟨S4096x4096, .f32⟩ : BufTy).Contents (Elt F) :=
  broadcastInDim S4096x4096 ![0, 1] bcast_S4096x1_S4096x4096_0_1 (broadcastInDim S4096x1 ![0] bcast_S4096_S4096x1_0 v)

/-- The exponentials of the scores less their row maximum. -/
def p (h W : (⟨S4096x4096, .f32⟩ : BufTy).Contents (Elt F)) (a : (⟨S8192x1, .f32⟩ : BufTy).Contents (Elt F)) : (⟨S4096x4096, .f32⟩ : BufTy).Contents (Elt F) :=
  Host.exp (subf (e h W a) (rows (mx h W a)))

/-- Each row's sum of exponentials. -/
def den (h W : (⟨S4096x4096, .f32⟩ : BufTy).Contents (Elt F)) (a : (⟨S8192x1, .f32⟩ : BufTy).Contents (Elt F)) : (⟨S4096, .f32⟩ : BufTy).Contents (Elt F) :=
  Host.reduceAdd (p h W a) (constant S_ .f32 0x00000000#32) reducesTo_S4096x4096_S4096_d1 h_S_

/-- The attention weights. -/
def att (h W : (⟨S4096x4096, .f32⟩ : BufTy).Contents (Elt F)) (a : (⟨S8192x1, .f32⟩ : BufTy).Contents (Elt F)) : (⟨S4096x4096, .f32⟩ : BufTy).Contents (Elt F) :=
  Host.divf (p h W a) (rows (den h W a))

/-- The weighted sums, transposed. -/
def hp (h W : (⟨S4096x4096, .f32⟩ : BufTy).Contents (Elt F)) (a : (⟨S8192x1, .f32⟩ : BufTy).Contents (Elt F)) : (⟨S4096x4096, .f32⟩ : BufTy).Contents (Elt F) :=
  transpose S4096x4096 [1, 0] (Host.dotGeneral dot_S4096x4096_S4096x4096_S4096x4096_1_0_0_1_n_n none (att h W a) (wh h W)) transposes_S4096x4096_S4096x4096_1_0

/-- The exponential-linear unit as the program computes it. -/
def eluT (x : (⟨S4096x4096, .f32⟩ : BufTy).Contents (Elt F)) : (⟨S4096x4096, .f32⟩ : BufTy).Contents (Elt F) :=
  select (cmpf .ogt x (splat 0x00000000#32)) x
    (mulf (splat 0x3F800000#32) (Host.expm1 (select (cmpf .ogt x (splat 0x00000000#32)) (splatId 0x00000000#32) x)))

/-- The program's result. -/
def refTerm (h W : (⟨S4096x4096, .f32⟩ : BufTy).Contents (Elt F)) (a : (⟨S8192x1, .f32⟩ : BufTy).Contents (Elt F)) : (⟨S4096x4096, .f32⟩ : BufTy).Contents (Elt F) := eluT (hp h W a)

end Cert.ReferenceIdeal.RefValue

end
-- ==== Proof.Ref.Run.lean ====
/-
  The reference program's run read back: every weakly fair execution of @main terminates with the result buffer
  at refTerm of the three float arguments' launch contents, and the four arguments unchanged.
-/
import proofs.«152758_j53506702573897_2_alg».proof.Proof.Ref.Ops
import proofs.«152758_j53506702573897_2_alg».proof.Proof.Ref.Term

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 1600000 in
set_option maxRecDepth 4096 in
/-- The fold of the forty-nine operations at the result buffer is refTerm of the arguments' contents: each
    operation's result read at its own buffer is its function of its operands' contents, and at any other buffer
    what was there. -/
theorem after_v24 (V : Valuation τ sig (Elt F)) :
    after ops V (main_v24 : DevRef τ sig)
      = refTerm (V (main_arg0 : DevRef τ sig)) (V (main_arg2 : DevRef τ sig)) (V (main_arg3 : DevRef τ sig)) := by
  after_results_simp
  rfl

set_option maxRecDepth 4096 in
theorem after_arg0 (V : Valuation τ sig (Elt F)) :
    after ops V (main_arg0 : DevRef τ sig) = V (main_arg0 : DevRef τ sig) := by
  after_results_simp

set_option maxRecDepth 4096 in
theorem after_arg1 (V : Valuation τ sig (Elt F)) :
    after ops V (main_arg1 : DevRef τ sig) = V (main_arg1 : DevRef τ sig) := by
  after_results_simp

set_option maxRecDepth 4096 in
theorem after_arg2 (V : Valuation τ sig (Elt F)) :
    after ops V (main_arg2 : DevRef τ sig) = V (main_arg2 : DevRef τ sig) := by
  after_results_simp

set_option maxRecDepth 4096 in
theorem after_arg3 (V : Valuation τ sig (Elt F)) :
    after ops V (main_arg3 : DevRef τ sig) = V (main_arg3 : DevRef τ sig) := by
  after_results_simp

/-- On every device, for any float values, from any memory with zero counters: every weakly fair execution of
    @main terminates with the result at refTerm of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v24) = refTerm (m ((c.tc : Thread nD τ).loc main_arg0)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v24).trans (after_v24 _),
      (h c main_arg0).trans (after_arg0 _),
      (h c main_arg1).trans (after_arg1 _),
      (h c main_arg2).trans (after_arg2 _),
      (h c main_arg3).trans (after_arg3 _)⟩)
    (run_seq scopedRefs_eq scopedSems_eq defs main (fun _ => ops) main_eq (fun _ => ops_sub) m ρ)

end Cert.ReferenceIdeal.RefValue

end
-- ==== Proof.Ref.Dot.lean ====
/-
  The two contractions of the reference program read at an index.

  Both products contract the left operand's columns with the right operand's rows, with no batch axis: the
  [4096, 4096] × [4096, 4096] product at (r, c) is the sum over k of X (r, k) · Y (k, c), and the
  [4096, 4096] × [4096, 1] product likewise with a one-column right operand.
-/
import proofs.«152758_j53506702573897_2_alg».proof.Proof.Gen.ReferenceIdeal
import Idealize.ShloMosaic.Lib.ValueIdx
import Idealize.ShloMosaic.PureOps.Ideal.Laws

noncomputable section

namespace Cert.ReferenceIdeal.RefValue

open Cert.ReferenceIdeal Idealize.ShloMosaic Idealize.ShloMosaic.ValueIdx
open scoped BigOperators

/-- The square product's dimension numbers. -/
abbrev D₁ : DotDims S4096x4096 S4096x4096 S4096x4096 := dot_S4096x4096_S4096x4096_S4096x4096_1_0_0_1_n_n
/-- The matrix-times-column product's dimension numbers. -/
abbrev D₂ : DotDims S4096x4096 S4096x1 S4096x1 := dot_S4096x4096_S4096x1_S4096x1_1_0_0_1_n_n

theorem D₁_lhs0 (j : S4096x4096.Idx) (k : D₁.contr.Idx) : (D₁.lhsIdx j k 0 : ℕ) = j 0 := by
  simp [DotDims.lhsIdx, D₁, dot_S4096x4096_S4096x4096_S4096x4096_1_0_0_1_n_n]; rfl
theorem D₁_lhs1 (j : S4096x4096.Idx) (k : D₁.contr.Idx) : (D₁.lhsIdx j k 1 : ℕ) = k ⟨0, by decide⟩ := by
  simp [DotDims.lhsIdx, D₁, dot_S4096x4096_S4096x4096_S4096x4096_1_0_0_1_n_n]; rfl
theorem D₁_rhs0 (j : S4096x4096.Idx) (k : D₁.contr.Idx) : (D₁.rhsIdx j k 0 : ℕ) = k ⟨0, by decide⟩ := by
  simp [DotDims.rhsIdx, D₁, dot_S4096x4096_S4096x4096_S4096x4096_1_0_0_1_n_n]; rfl
theorem D₁_rhs1 (j : S4096x4096.Idx) (k : D₁.contr.Idx) : (D₁.rhsIdx j k 1 : ℕ) = j 1 := by
  simp [DotDims.rhsIdx, D₁, dot_S4096x4096_S4096x4096_S4096x4096_1_0_0_1_n_n]; rfl

theorem D₂_lhs0 (j : S4096x1.Idx) (k : D₂.contr.Idx) : (D₂.lhsIdx j k 0 : ℕ) = j 0 := by
  simp [DotDims.lhsIdx, D₂, dot_S4096x4096_S4096x1_S4096x1_1_0_0_1_n_n]; rfl
theorem D₂_lhs1 (j : S4096x1.Idx) (k : D₂.contr.Idx) : (D₂.lhsIdx j k 1 : ℕ) = k ⟨0, by decide⟩ := by
  simp [DotDims.lhsIdx, D₂, dot_S4096x4096_S4096x1_S4096x1_1_0_0_1_n_n]; rfl
theorem D₂_rhs0 (j : S4096x1.Idx) (k : D₂.contr.Idx) : (D₂.rhsIdx j k 0 : ℕ) = k ⟨0, by decide⟩ := by
  simp [DotDims.rhsIdx, D₂, dot_S4096x4096_S4096x1_S4096x1_1_0_0_1_n_n]; rfl
theorem D₂_rhs1 (j : S4096x1.Idx) (k : D₂.contr.Idx) : (D₂.rhsIdx j k 1 : ℕ) = j 1 := by
  have h1 : (j 1).val < 1 := (j 1).isLt
  have h2 : (D₂.rhsIdx j k 1).val < 1 := (D₂.rhsIdx j k 1).isLt
  omega

/-- The contraction index of either product is one coordinate below 4096. -/
def ce₁ : D₁.contr.Idx ≃ Fin 4096 := contrEquiv1 D₁ 4096 rfl rfl
def ce₂ : D₂.contr.Idx ≃ Fin 4096 := contrEquiv1 D₂ 4096 rfl rfl

theorem ce₁_symm_val (k : Fin 4096) : ((ce₁.symm k) ⟨0, by decide⟩ : ℕ) = k.val := contrEquiv1_symm_val D₁ 4096 rfl rfl k
theorem ce₂_symm_val (k : Fin 4096) : ((ce₂.symm k) ⟨0, by decide⟩ : ℕ) = k.val := contrEquiv1_symm_val D₂ 4096 rfl rfl k

theorem D₁_lhs (j : S4096x4096.Idx) (k : Fin 4096) : D₁.lhsIdx j (ce₁.symm k) = ix2 (j 0) k := by
  funext a
  apply Fin.ext
  match a with
  | ⟨0, _⟩ => exact D₁_lhs0 j _
  | ⟨1, _⟩ => exact (D₁_lhs1 j _).trans (ce₁_symm_val k)
theorem D₁_rhs (j : S4096x4096.Idx) (k : Fin 4096) : D₁.rhsIdx j (ce₁.symm k) = ix2 k (j 1) := by
  funext a
  apply Fin.ext
  match a with
  | ⟨0, _⟩ => exact (D₁_rhs0 j _).trans (ce₁_symm_val k)
  | ⟨1, _⟩ => exact D₁_rhs1 j _
theorem D₂_lhs (j : S4096x1.Idx) (k : Fin 4096) : D₂.lhsIdx j (ce₂.symm k) = ix2 (j 0) k := by
  funext a
  apply Fin.ext
  match a with
  | ⟨0, _⟩ => exact D₂_lhs0 j _
  | ⟨1, _⟩ => exact (D₂_lhs1 j _).trans (ce₂_symm_val k)
theorem D₂_rhs (j : S4096x1.Idx) (k : Fin 4096) : D₂.rhsIdx j (ce₂.symm k) = ix2 k (j 1) := by
  funext a
  apply Fin.ext
  match a with
  | ⟨0, _⟩ => exact (D₂_rhs0 j _).trans (ce₂_symm_val k)
  | ⟨1, _⟩ => exact D₂_rhs1 j _

/-- The square product at (r, c): the sum over k of X (r, k) · Y (k, c). -/
theorem dot₁_apply (X Y : FVec Ideal S4096x4096 .f32) (j : S4096x4096.Idx) :
    Host.dotGeneral (F := Ideal) D₁ none X Y j = ∑ k : Fin 4096, X (ix2 (j 0) k) * Y (ix2 k (j 1)) := by
  simp only [Host.dotGeneral]
  rw [Ideal.dotGeneral_apply, ← Equiv.sum_comp ce₁.symm]
  exact Finset.sum_congr rfl fun k _ => by rw [D₁_lhs, D₁_rhs]; rfl

/-- The matrix-times-column product at (r, 0): the sum over k of X (r, k) · y (k, 0). -/
theorem dot₂_apply (X : FVec Ideal S4096x4096 .f32) (y : FVec Ideal S4096x1 .f32) (j : S4096x1.Idx) :
    Host.dotGeneral (F := Ideal) D₂ none X y j = ∑ k : Fin 4096, X (ix2 (j 0) k) * y (ix2 k (j 1)) := by
  simp only [Host.dotGeneral]
  rw [Ideal.dotGeneral_apply, ← Equiv.sum_comp ce₂.symm]
  exact Finset.sum_congr rfl fun k _ => by rw [D₂_lhs, D₂_rhs]; rfl

end Cert.ReferenceIdeal.RefValue

end
-- ==== Proof.Ref.Read.lean ====
/-
  The reference program's value read at an index, stage by stage, and its equality with the specification.

  Every stage of refTerm is read at an index of its result: a product as a sum over the contracted coordinate, a
  transpose, slice or broadcast as its operand at the matching index, a pointwise operation as the operation on the
  elements, the maximum along axis 1 as a fold of max from −∞, the sum along axis 1 as a finite sum. Put together,
  entry (n, r) of the result is the exponential-linear unit of the softmax-weighted sum over c of W hᵀ (c, n), the
  weights taken from the scores lrelu (s1 c + s2 r): the specification's refOut.
-/
import proofs.«152758_j53506702573897_2_alg».proof.Proof.Ref.Term
import proofs.«152758_j53506702573897_2_alg».proof.Proof.Ref.Dot
import proofs.«152758_j53506702573897_2_alg».proof.Proof.Spec
import proofs.«152758_j53506702573897_2_alg».proof.Proof.LibOnlineSoftmax
import Idealize.ShloMosaic.Lib.IdealHost
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.ValueIdx
open scoped BigOperators

variable (h W : Cert.Spec.Mat 4096 4096) (a : Cert.Spec.Mat 8192 1)

/-! ## Scalars -/

/-- The word of −∞. -/
theorem bot_word : Ideal.ofBits .f32 0xFF800000#32 = ⊥ := by simp [Ideal.ofBits, Ideal.ieee]

/-- A word broadcast to the matrix shape reads that word everywhere. -/
theorem splat_apply (w : BitVec 32) (i : S4096x4096.Idx) : splat (F := Ideal) w i = Ideal.ofBits .f32 w := by
  unfold splat
  exact (broadcastInDim_scalar_apply _ _ _).trans rfl

theorem splatId_apply (w : BitVec 32) (i : S4096x4096.Idx) : splatId (F := Ideal) w i = Ideal.ofBits .f32 w := by
  unfold splatId
  exact (broadcastInDim_scalar_apply _ _ _).trans rfl

/-! ## The products with W hᵀ -/

/-- W hᵀ at (f, n): the sum over k of W (f, k) · h (n, k). -/
theorem wh_apply (j : S4096x4096.Idx) : wh (F := Ideal) h W j = Cert.Spec.whT W h j := by
  unfold wh
  refine (dot₁_apply _ _ _).trans ?_
  unfold Cert.Spec.whT
  refine Finset.sum_congr rfl fun k _ => ?_
  congr 1
  exact transpose_apply [1, 0] h _ (ix2 k (j 1)) (ix2 (j 1) k) (fun b => match b with
    | ⟨0, _⟩ => rfl
    | ⟨1, _⟩ => rfl)

/-- The first column product at (j, 0): the sum over n of W hᵀ (j, n) · a (n, 0). -/
theorem s1_apply (o : S4096x1.Idx) : s1 (F := Ideal) h W a o = Cert.Spec.refS1 h W a (o 0) := by
  unfold s1
  refine (dot₂_apply _ _ _).trans ?_
  unfold Cert.Spec.refS1
  refine Finset.sum_congr rfl fun k _ => ?_
  rw [wh_apply]
  congr 1
  have ho : (o 1).val < 1 := (o 1).isLt
  exact extractStridedSlice_apply ![0, 0] a _ (ix2 k (o 1)) (ix2 ⟨k.val, by omega⟩ 0) (fun ax => match ax with
    | ⟨0, _⟩ => by show k.val = 0 + k.val; omega
    | ⟨1, _⟩ => by show 0 = 0 + (o 1).val; omega)

/-- The second column product at (j, 0): the sum over n of W hᵀ (j, n) · a (4096 + n, 0). -/
theorem s2_apply (o : S4096x1.Idx) : s2 (F := Ideal) h W a o = Cert.Spec.refS2 h W a (o 0) := by
  unfold s2
  refine (dot₂_apply _ _ _).trans ?_
  unfold Cert.Spec.refS2
  refine Finset.sum_congr rfl fun k _ => ?_
  rw [wh_apply]
  congr 1
  have ho : (o 1).val < 1 := (o 1).isLt
  exact extractStridedSlice_apply ![4096, 0] a _ (ix2 k (o 1)) (ix2 ⟨4096 + k.val, by omega⟩ 0) (fun ax => match ax with
    | ⟨0, _⟩ => by show 4096 + k.val = 4096 + k.val; omega
    | ⟨1, _⟩ => by show 0 = 0 + (o 1).val; omega)

/-! ## The scores -/

/-- Before the rectifier, entry (r, c) is s1 c + s2 r. -/
theorem pre_apply (r c : Fin 4096) :
    pre (F := Ideal) h W a (ix2 r c) = Cert.Spec.refS1 h W a c + Cert.Spec.refS2 h W a r := by
  unfold pre
  rw [addf_apply]
  congr 1
  · refine (broadcastInDim_apply ![0, 1] _ _ (ix2 r c) (ix2 (0 : Fin 1) c) (fun ax => match ax with
      | ⟨0, _⟩ => rfl
      | ⟨1, _⟩ => rfl)).trans ?_
    refine (transpose_apply [1, 0] _ _ (ix2 (0 : Fin 1) c) (ix2 c (0 : Fin 1)) (fun b => match b with
      | ⟨0, _⟩ => rfl
      | ⟨1, _⟩ => rfl)).trans ?_
    exact s1_apply h W a (ix2 c (0 : Fin 1))
  · refine (broadcastInDim_apply ![0, 1] _ _ (ix2 r c) (ix2 r (0 : Fin 1)) (fun ax => match ax with
      | ⟨0, _⟩ => rfl
      | ⟨1, _⟩ => rfl)).trans ?_
    exact s2_apply h W a (ix2 r (0 : Fin 1))

/-- The program's leaky rectifier is the specification's, element by element. -/
theorem lreluT_apply (x : FVec Ideal S4096x4096 .f32) (i : S4096x4096.Idx) :
    lreluT (F := Ideal) x i = Cert.Spec.lrelu (x i) := by
  unfold lreluT Cert.Spec.lrelu
  rw [select_apply, cmpf_apply, mulf_apply, splat_apply, splatId_apply]

/-- The scores: entry (r, c) is the rectifier of s1 c + s2 r. -/
theorem e_apply (r c : Fin 4096) : e (F := Ideal) h W a (ix2 r c) = Cert.Spec.refScore h W a r c := by
  unfold e Cert.Spec.refScore
  rw [lreluT_apply, pre_apply]

/-! ## The softmax along axis 1 -/

/-- Axis 1 of the matrix shape reduces to the vector shape. -/
theorem hred : S4096x4096.Reduces [1] S4096 := by decide

/-- The matrix index over row r with column c inserted is (r, c). -/
theorem lift_eq (r : Fin 4096) (c : Fin 4096) : hred.lift (ix1 r) c = ix2 r c := by
  funext ax
  apply Fin.ext
  match ax with
  | ⟨0, _⟩ => rfl
  | ⟨1, _⟩ => rfl

/-- Row r's maximum: the fold of max from −∞ over the row's scores. -/
theorem mx_apply (r : Fin 4096) : mx (F := Ideal) h W a (ix1 r) = Cert.Spec.refMax h W a r := by
  unfold mx
  rw [maximumf_apply]
  have hb : broadcastInDim S4096 ![] bcast_S_S4096 (constant (F := Ideal) S_ .f32 0xFF800000#32) (ix1 r) = ⊥ :=
    (broadcastInDim_scalar_apply _ _ _).trans bot_word
  rw [hb, max_bot_left, Host.reduce_eq_fold_single _ _ _ _ hred]
  unfold Cert.Spec.refMax
  show Finset.fold max (Ideal.ofBits .f32 0xFF800000#32) (fun c : Fin 4096 => e (F := Ideal) h W a (hred.lift (ix1 r) c))
    (Finset.univ : Finset (Fin 4096)) = _
  rw [bot_word]
  refine congrArg (fun f => Finset.fold max ⊥ f Finset.univ) (funext fun c => ?_)
  rw [lift_eq, e_apply]

/-- A vector broadcast along axis 1 reads its row's entry. -/
theorem rows_apply (v : FVec Ideal S4096 .f32) (r c : Fin 4096) : rows (F := Ideal) v (ix2 r c) = v (ix1 r) := by
  unfold rows
  refine (broadcastInDim_apply ![0, 1] _ _ (ix2 r c) (ix2 r (0 : Fin 1)) (fun ax => match ax with
    | ⟨0, _⟩ => rfl
    | ⟨1, _⟩ => rfl)).trans ?_
  exact broadcastInDim_apply ![0] _ _ (ix2 r (0 : Fin 1)) (ix1 r) (fun ax => match ax with
    | ⟨0, _⟩ => rfl)

/-- The exponential of a score less its row's maximum. -/
theorem p_apply (r c : Fin 4096) :
    p (F := Ideal) h W a (ix2 r c) = Ideal.exp (Cert.Spec.refScore h W a r c - Cert.Spec.refMax h W a r) := by
  unfold p
  show Ideal.exp (subf (e (F := Ideal) h W a) (rows (mx (F := Ideal) h W a)) (ix2 r c)) = _
  rw [subf_apply, e_apply, rows_apply, mx_apply]

/-- Row r's sum of exponentials. -/
theorem den_apply (r : Fin 4096) :
    den (F := Ideal) h W a (ix1 r)
      = ∑ c : Fin 4096, Ideal.exp (Cert.Spec.refScore h W a r c - Cert.Spec.refMax h W a r) := by
  unfold den
  rw [hostReduceAdd_apply, Ideal.hostReduceAdd_single _ hred, constant_apply, Ideal.ofBits_zero_f32, zero_add]
  show (∑ c : Fin 4096, p (F := Ideal) h W a (hred.lift (ix1 r) c)) = _
  refine Finset.sum_congr rfl fun c _ => ?_
  rw [lift_eq, p_apply]

/-- The attention weight of key c for query r. -/
theorem att_apply (r c : Fin 4096) :
    att (F := Ideal) h W a (ix2 r c)
      = Ideal.div (Ideal.exp (Cert.Spec.refScore h W a r c - Cert.Spec.refMax h W a r))
          (∑ c' : Fin 4096, Ideal.exp (Cert.Spec.refScore h W a r c' - Cert.Spec.refMax h W a r)) := by
  unfold att
  rw [hostDivf_apply, p_apply, rows_apply, den_apply]

/-! ## The weighted sums and the result -/

/-- The transposed weighted sum at (n, r): the sum over c of the weight of c for r times W hᵀ (c, n). -/
theorem hp_apply (n r : Fin 4096) :
    hp (F := Ideal) h W a (ix2 n r) = ∑ c : Fin 4096, att (F := Ideal) h W a (ix2 r c) * wh (F := Ideal) h W (ix2 c n) := by
  unfold hp
  refine (transpose_apply [1, 0] _ _ (ix2 n r) (ix2 r n) (fun b => match b with
    | ⟨0, _⟩ => rfl
    | ⟨1, _⟩ => rfl)).trans ?_
  exact dot₁_apply _ _ _

/-- The program's exponential-linear unit is the specification's, element by element: where x > 0 both are x;
    elsewhere the program's 1 · (exp x − 1) is exp x − 1. -/
theorem eluT_apply (x : FVec Ideal S4096x4096 .f32) (i : S4096x4096.Idx) :
    eluT (F := Ideal) x i = Cert.Spec.elu (x i) := by
  unfold eluT Cert.Spec.elu
  rw [select_apply, cmpf_apply, splat_apply, mulf_apply, splat_apply]
  show Scalar.select _ (x i) (Ideal.ofBits .f32 0x3F800000#32
      * (Ideal.exp (select (cmpf .ogt x (splat (F := Ideal) 0x00000000#32)) (splatId (F := Ideal) 0x00000000#32) x i) - 1)) = _
  rw [select_apply, cmpf_apply, splat_apply, splatId_apply]
  by_cases hc : FloatOps.cmpf (F := Ideal) (φ := .f32) .ogt (x i) (Ideal.ofBits .f32 0x00000000#32) = 1#1
  · simp only [hc, select_one]
  · simp only [eq_zero_of_ne_one hc, select_zero]
    rw [Cert.OnlineSoftmax.one_word, one_mul]

/-- The program's value is the specification's. -/
theorem refTerm_eq : refTerm (F := Ideal) h W a = Cert.Spec.refOut h W a := by
  funext o
  obtain ⟨n, r, rfl⟩ : ∃ n r, o = ix2 n r := ⟨o 0, o 1, eq_ix2 o⟩
  unfold refTerm
  rw [eluT_apply, hp_apply]
  unfold Cert.Spec.refOut
  show Cert.Spec.elu _ = Cert.Spec.elu (∑ c : Fin 4096,
    Ideal.div (Ideal.exp (Cert.Spec.refScore h W a r c - Cert.Spec.refMax h W a r))
      (∑ c' : Fin 4096, Ideal.exp (Cert.Spec.refScore h W a r c' - Cert.Spec.refMax h W a r)) * Cert.Spec.whT W h (ix2 c n))
  congr 1
  refine Finset.sum_congr rfl fun c _ => ?_
  rw [att_apply, wh_apply]

end Cert.ReferenceIdeal.RefValue

end
-- ==== Proof.Ref.Value.lean ====
/-
  The reference program's run with its value: every weakly fair execution of @main terminates with the result
  buffer at the specification's refOut of the three float arguments, and the four arguments unchanged.
-/
import proofs.«152758_j53506702573897_2_alg».proof.Proof.Ref.Run
import proofs.«152758_j53506702573897_2_alg».proof.Proof.Ref.Read

noncomputable section

namespace Cert.ReferenceIdeal.RefValue

open Cert.ReferenceIdeal
open Idealize.ShloMosaic Idealize.ShloMosaic.TcCoe Idealize.SL.Sem

theorem ref_run (m' : (ℓ : Loc nD τ sig) → Buf (Elt Ideal) ℓ) (ρ' : Dev nD → PrngReg) :
    θ_run (defs (F := Ideal)) (onTc (τ := τ) (main (F := Ideal))) ⟨m', fun _ => 0, ρ'⟩ (fun r => ∀ c : Dev nD,
      r.2.mem ((c.tc : Thread nD τ).loc main_v24)
          = Cert.Spec.refOut (m' ((c.tc : Thread nD τ).loc main_arg0)) (m' ((c.tc : Thread nD τ).loc main_arg2)) (m' ((c.tc : Thread nD τ).loc main_arg3))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)) :=
  (θ_run (defs (F := Ideal)) _ _).mono (fun _ hr c => by
      obtain ⟨h0, h1, h2, h3, h4⟩ := hr c
      exact ⟨h0.trans (refTerm_eq _ _ _), h1, h2, h3, h4⟩)
    (run (F := Ideal) m' ρ')

end Cert.ReferenceIdeal.RefValue

end
-- ==== Proof.lean ====
/-
  A dense graph-attention layer on the TensorCore against its array-library reference: the certificate's five claims.

  The kernel program runs two launches between host operations. The first forms Wh = W hᵀ block by block, adding the
  two halves of the contracted axis into an accumulator it keeps across grid points. The host forms the two score
  vectors s = W (hᵀ a) for the two halves of a. The second launch computes, for each query, the softmax-weighted sum
  of the rows of Wh in one pass over eight blocks of keys, rescaling a running maximum, denominator and weighted sum,
  divides once at the end and applies the exponential-linear unit. The reference forms (W hᵀ) a, a full softmax with
  every weight divided, and the weighted sum. On real inputs both are one function: the double sum behind s is
  exchanged, the blockwise rescaled accumulation telescopes to the plain sums at the largest score, and dividing the
  sum once is dividing every weight.

  The three frames: each launch's body is run symbolically at a generic grid point in each of its control cases, the
  launch's invariant carries the contents of the buffers the body keeps across points, and the program's run is the
  chain of its host stretches and launches; the reference's run is its operations applied in order.
-/
import proofs.«152758_j53506702573897_2_alg».proof.Defs
import proofs.«152758_j53506702573897_2_alg».proof.Proof.Gen.Kernel
import proofs.«152758_j53506702573897_2_alg».proof.Proof.Gen.KernelIdeal
import proofs.«152758_j53506702573897_2_alg».proof.Proof.Gen.ReferenceIdeal
import proofs.«152758_j53506702573897_2_alg».proof.Proof.Gen.Pre_finite_inputs
import proofs.«152758_j53506702573897_2_alg».proof.Proof.HandKernel.Run
import proofs.«152758_j53506702573897_2_alg».proof.Proof.HandKernelIdeal.Run
import proofs.«152758_j53506702573897_2_alg».proof.Proof.Glue
import proofs.«152758_j53506702573897_2_alg».proof.Proof.Bridge
import proofs.«152758_j53506702573897_2_alg».proof.Proof.Finite
import proofs.«152758_j53506702573897_2_alg».proof.Proof.Value.R0Value
import proofs.«152758_j53506702573897_2_alg».proof.Proof.Value.R1Value
import proofs.«152758_j53506702573897_2_alg».proof.Proof.Ref.Value

noncomputable section

namespace Cert.Proof

open Idealize.ShloMosaic Idealize.ShloMosaic.TcCoe Idealize.SL.Sem
open Idealize.ShloMosaic.ValueIdx

section
variable [hK : Cert.Kernel.Facts] [hKI : Cert.KernelIdeal.Facts] [hRI : Cert.ReferenceIdeal.Facts] [hP : Cert.Pre_finite_inputs.Facts]

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.RefValue.ref_run m ρ)

theorem preserves : Cert.preserves_Kernel_KernelIdeal := trivial

open Cert.KernelIdeal Cert.KernelIdeal.Hand in
/-- On real inputs the result array the attention launch leaves is the reference's output of the same inputs. -/
theorem kernel_value (m : (ℓ : Loc Cert.KernelIdeal.nD Cert.KernelIdeal.τ Cert.KernelIdeal.sig) → Buf (Elt Ideal) ℓ) (ρ : Dev Cert.KernelIdeal.nD → PrngReg)
    (c : Dev Cert.KernelIdeal.nD) (hh : Cert.Spec.IsReal (argH m c)) (hW : Cert.Spec.IsReal (argW m c)) (ha : Cert.Spec.IsReal (argA m c)) :
    ((dat1 (F := Ideal) (V3 m ρ) c).arrAt 3 cfg1.N : S4096x4096.Idx → EReal) = Cert.Spec.refOut (argH m c) (argW m c) (argA m c) := by
  have hx' := V3_v8_apply m ρ c
  have hy' := V3_v10_apply m ρ c
  have e2 : (V3 m ρ c main_v2 : Cert.Spec.Mat 4096 4096) = Cert.Spec.whT (argW m c) (argH m c) :=
    (V3_v2 m ρ c).trans ((arr0_value (V1 m ρ) c).trans (by rw [V1_v0, V1_v1]))
  have hx : Cert.Spec.IsReal (V3 m ρ c main_v8 : Cert.Spec.Mat 4096 1) :=
    Cert.Spec.col_real (argH m c) (argW m c) (Cert.Spec.a1 (argA m c)) hh hW (Cert.Spec.a1_real _ ha) _ hx'
  have hy : Cert.Spec.IsReal (V3 m ρ c main_v10 : Cert.Spec.Mat 1 4096) :=
    Cert.Spec.row_real (argH m c) (argW m c) (Cert.Spec.a2 (argA m c)) hh hW (Cert.Spec.a2_real _ ha) _ hy'
  have hv : Cert.Spec.IsReal (V3 m ρ c main_v2 : Cert.Spec.Mat 4096 4096) := by
    rw [e2]; exact Cert.Spec.whT_real _ _ hW hh
  refine (arr1_value (V3 m ρ) c hx hy hv).trans ?_
  rw [e2]
  exact Cert.Spec.attnOut_eq_refOut (argH m c) (argW m c) (argA m c) hh hW ha _ _ hx' hy'

theorem algebraic : Cert.algebraic_KernelIdeal_ReferenceIdeal := by
  intro m ρ m' ρ' hpre hagree
  refine ⟨fun c => Cert.Spec.refOut (Cert.KernelIdeal.Hand.argH m c) (Cert.KernelIdeal.Hand.argW m c) (Cert.KernelIdeal.Hand.argA m c), ?_, ?_⟩
  · refine (θ_run Cert.KernelIdeal.defs _ _).mono (fun r h c => ⟨(h c).1.trans ?_, (h c).2⟩) (Cert.KernelIdeal.Hand.run_value m ρ)
    obtain ⟨hh, hW, ha⟩ := Cert.Spec.real_of_pre _ _ _ _ (hpre c)
    exact kernel_value m ρ c hh hW ha
  · refine (θ_run Cert.ReferenceIdeal.defs _ _).mono (fun r h c => ⟨(h c).1.trans ?_, (h c).2⟩) (Cert.ReferenceIdeal.RefValue.ref_run m' ρ')
    rw [(hagree c).1, (hagree c).2.2.1, (hagree c).2.2.2]

end

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
